-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  IdealRules.named_const.Statement Cert.KernelIdeal.κ "inv_temp" .f32 0x41A00000#32 ((268435456 / 13421773 : ℝ) : EReal)
  ∧ IdealRules.named_const.Statement Cert.KernelIdeal.κ "inv_temp" .f32 0x41A00000#32 ((268435456 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x768 : Shape := ⟨2, ![8192, 768]⟩
abbrev S_ : Shape := ⟨0, ![]⟩

class Facts : Prop where
  bcast_S_S8192x768 : S_.BroadcastsInDim S8192x768 (![] : Fin 0 → Fin S8192x768.rank)
  reducesTo_S8192x768_S_d0_1 : S8192x768.ReducesTo [0, 1] S_
  h_S_ : 0 < S_.numel

variable [Facts]

def fn {F : FTy → Type} [FloatOps F] (main_arg0 : FVec F S8192x768 .f32) : IVec S_ 1 :=
  let main_v0 : FVec F S8192x768 .f32 := Host.absf main_arg0
  let main_cst : FVec F S_ .f32 := constant S_ .f32 0x7F800000#32
  let main_v1 : FVec F S8192x768 .f32 := broadcastInDim S8192x768 ![] bcast_S_S8192x768 main_cst
  let main_v2 : IVec S8192x768 1 := cmpf .olt main_v0 main_v1
  let main_c : IVec S_ 1 := constantI S_ 1 1#1
  let main_v3 : IVec S_ 1 := (fun x v => Host.reduce IntOp.andi x v reducesTo_S8192x768_S_d0_1 h_S_) main_v2 main_c
  main_v3
-- ==== Kernel.lean ====
abbrev S8192x768 : Shape := ⟨2, ![8192, 768]⟩
abbrev S_ : Shape := ⟨0, ![]⟩
abbrev S8192 : Shape := ⟨1, ![8192]⟩
abbrev S8192x1 : Shape := ⟨2, ![8192, 1]⟩
abbrev S2048x768 : Shape := ⟨2, ![2048, 768]⟩
abbrev S512x768 : Shape := ⟨2, ![512, 768]⟩
abbrev S2048x1 : Shape := ⟨2, ![2048, 1]⟩
abbrev S768x512 : Shape := ⟨2, ![768, 512]⟩
abbrev S2048x512 : Shape := ⟨2, ![2048, 512]⟩
abbrev S1x512 : Shape := ⟨2, ![1, 512]⟩
abbrev S2048 : Shape := ⟨1, ![2048]⟩

abbrev nBuf : Space → Nat
  | .hbm => 19
  | .vmem => 11
  | .smem => 0
  | _ => 0

abbrev bufTy : (tb : Table) → Fin (tcTables nBuf tb) → BufTy
  | .hbm, ⟨0, _⟩ => ⟨S8192x768, .f32⟩
  | .hbm, ⟨1, _⟩ => ⟨S8192x768, .f32⟩
  | .hbm, ⟨2, _⟩ => ⟨S_, .f32⟩
  | .hbm, ⟨3, _⟩ => ⟨S8192, .f32⟩
  | .hbm, ⟨4, _⟩ => ⟨S8192x1, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S8192x768, .f32⟩
  | .hbm, ⟨10, _⟩ => ⟨S8192x768, .f32⟩
  | .hbm, ⟨11, _⟩ => ⟨S8192x768, .bf16⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S2048x768, .bf16⟩
  | .local _ .vmem, ⟨1, _⟩ => ⟨S2048x768, .bf16⟩
  | .local _ .vmem, ⟨2, _⟩ => ⟨S512x768, .bf16⟩
  | .local _ .vmem, ⟨3, _⟩ => ⟨S512x768, .bf16⟩
  | .local _ .vmem, ⟨4, _⟩ => ⟨S2048x1, .f32⟩
  | .local _ .vmem, ⟨5, _⟩ => ⟨S2048x1, .f32⟩
  | .local _ .vmem, ⟨6, _⟩ => ⟨S2048x1, .f32⟩
  | .local _ .vmem, ⟨7, _⟩ => ⟨S2048x1, .f32⟩
  | .local _ .vmem, ⟨8, _⟩ => ⟨S2048x1, .f32⟩
  | .local _ .vmem, ⟨9, _⟩ => ⟨S2048x1, .f32⟩
  | .local _ .vmem, ⟨10, _⟩ => ⟨S2048x1, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v60 : BitVec 1 := Scalar.cmpi .eq arg1 c15_i32
  let v61 : BitVec 32 := Scalar.extui v60
  let c0_i32_24 : BitVec 32 := 0#32
  let v62 : BitVec 1 := Scalar.cmpi .ne v61 c0_i32_24
  v62

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  reducesTo_S8192x768_S8192_d1 : S8192x768.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x768_0_1 : S8192x1.BroadcastsInDim S8192x768 (![0, 1] : Fin 2 → Fin S8192x768.rank)
  bitsLt_bf16_f32 : FTy.bits .bf16 < FTy.bits .f32
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x768_S2048x768_0_0 : ∀ a, (![0, 0] : Fin 2 → Nat) a + S2048x768.size a ≤ S2048x768.size a
  h_S2048x768 : 0 < S2048x768.numel
  shapeCasts_S2048x768_S2048x768 : S2048x768.ShapeCasts S2048x768
  inb_S512x768_S512x768_0_0 : ∀ a, (![0, 0] : Fin 2 → Nat) a + S512x768.size a ≤ S512x768.size a
  h_S512x768 : 0 < S512x768.numel
  shapeCasts_S512x768_S512x768 : S512x768.ShapeCasts S512x768
  transposes_S512x768_p1_0_S768x512 : S512x768.Transposes [1, 0] S768x512
  iota_S2048x1_d0_w32 : S2048x1.Iotas .tc 32 [0]
  iota_S1x512_d1_w32 : S1x512.Iotas .tc 32 [1]
  broadcasts_S2048x1_S2048x512 : S2048x1.Broadcasts S2048x512
  broadcasts_S1x512_S2048x512 : S1x512.Broadcasts S2048x512
  reduces_S2048x512_S2048 : S2048x512.Reduces [1] S2048
  shapeCasts_S2048_S2048x1 : S2048.ShapeCasts S2048x1
  reducesTo_S8192x1_S_d0_1 : S8192x1.ReducesTo [0, 1] S_
  dot_S2048x768_S768x512_S2048x512_1_0_0_1_n_n_wf : DotDims.WF S2048x768 S768x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x768.size a ≤ S8192x768.size a
  hwx0_0 : ∀ i : grid0.Coords, EltTy.bits .bf16 = 32 ∨ (Rect.block (s := S8192x768) S2048x768.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x768.size a ≤ S8192x768.size a
  hwx0_1 : ∀ i : grid0.Coords, EltTy.bits .bf16 = 32 ∨ (Rect.block (s := S8192x768) S512x768.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S8192x1.size a
  hwx0_2 : ∀ i : grid0.Coords, EltTy.bits .f32 = 32 ∨ (Rect.block (s := S8192x1) S2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1.size a ≤ S8192x1.size a
  hwx0_3 : ∀ i : grid0.Coords, EltTy.bits .f32 = 32 ∨ (Rect.block (s := S8192x1) S2048x1.size (cc0_transform_3 i) (hinb0_3 i)).WholeWords (EltTy.packing .f32)

variable [Facts₀]

def dot_S2048x768_S768x512_S2048x512_1_0_0_1_n_n : DotDims S2048x768 S768x512 S2048x512 where
  lhsContracting := [1]
  rhsContracting := [0]
  lhsNonContracting := [0]
  rhsNonContracting := [1]
  lhsBatch := []
  rhsBatch := []
  wf := dot_S2048x768_S768x512_S2048x512_1_0_0_1_n_n_wf

abbrev win0_0 : Pipeline.Window sig grid0 :=
  Pipeline.Window.ofSpec (Memref.whole main_v5) S2048x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S512x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6_0) S2048x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6_1) S2048x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x768 : Shape := ⟨2, ![8192, 768]⟩
abbrev S8192 : Shape := ⟨1, ![8192]⟩
abbrev S_ : Shape := ⟨0, ![]⟩
abbrev S8192x1 : Shape := ⟨2, ![8192, 1]⟩
abbrev S768x8192 : Shape := ⟨2, ![768, 8192]⟩
abbrev S8192x8192 : Shape := ⟨2, ![8192, 8192]⟩
abbrev S8192x1x1 : Shape := ⟨3, ![8192, 1, 1]⟩
abbrev S1 : Shape := ⟨1, ![1]⟩
abbrev S1x1x1 : Shape := ⟨3, ![1, 1, 1]⟩

abbrev nBuf : Space → Nat
  | .hbm => 100
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S8192, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S_, .i32⟩
  | .hbm, ⟨7, _⟩ => ⟨S_, .i32⟩
  | .hbm, ⟨8, _⟩ => ⟨S8192, .i32⟩
  | .hbm, ⟨9, _⟩ => ⟨S8192, .i32⟩
  | .hbm, ⟨10, _⟩ => ⟨S_, .i32⟩
  | .hbm, ⟨11, _⟩ => ⟨S8192, .i32⟩
  | .hbm, ⟨12, _⟩ => ⟨S8192, .i1⟩
  | .hbm, ⟨13, _⟩ => ⟨S_, .i32⟩
  | .hbm, ⟨14, _⟩ => ⟨S8192, .i32⟩
  | .hbm, ⟨15, _⟩ => ⟨S8192, .i1⟩
  | .hbm, ⟨16, _⟩ => ⟨S_, .i32⟩
  | .hbm, ⟨17, _⟩ => ⟨S_, .i1⟩
  | .hbm, ⟨18, _⟩ => ⟨S8192, .i1⟩
  | .hbm, ⟨19, _⟩ => ⟨S8192, .i1⟩
  | .hbm, ⟨20, _⟩ => ⟨S8192, .i1⟩
  | .hbm, ⟨21, _⟩ => ⟨S8192, .i32⟩
  | .hbm, ⟨22, _⟩ => ⟨S8192, .i32⟩
  | .hbm, ⟨23, _⟩ => ⟨S8192, .i32⟩
  | .hbm, ⟨24, _⟩ => ⟨S_, .i32⟩
  | .hbm, ⟨25, _⟩ => ⟨S8192, .i32⟩
  | .hbm, ⟨26, _⟩ => ⟨S8192, .i32⟩
  | .hbm, ⟨27, _⟩ => ⟨S8192, .i32⟩
  | .hbm, ⟨28, _⟩ => ⟨S_, .i32⟩
  | .hbm, ⟨29, _⟩ => ⟨S8192, .i32⟩
  | .hbm, ⟨30, _⟩ => ⟨S8192, .i32⟩
  | .hbm, ⟨31, _⟩ => ⟨S8192x768, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S8192x768, .f32⟩
  | .hbm, ⟨40, _⟩ => ⟨S8192x768, .f32⟩
  | .hbm, ⟨41, _⟩ => ⟨S768x8192, .f32⟩
  | .hbm, ⟨42, _⟩ => ⟨S8192x8192, .f32⟩
  | .hbm, ⟨43, _⟩ => ⟨S8192x8192, .i32⟩
  | .hbm, ⟨44, _⟩ => ⟨S8192x8192, .i32⟩
  | .hbm, ⟨45, _⟩ => ⟨S_, .i32⟩
  | .hbm, ⟨46, _⟩ => ⟨S8192x8192, .i32⟩
  | .hbm, ⟨47, _⟩ => ⟨S8192x8192, .i32⟩
  | .hbm, ⟨48, _⟩ => ⟨S8192x8192, .i1⟩
  | .hbm, ⟨49, _⟩ => ⟨S8192x8192, .f32⟩
  | .hbm, ⟨50, _⟩ => ⟨S_, .f32⟩
  | .hbm, ⟨51, _⟩ => ⟨S8192x8192, .f32⟩
  | .hbm, ⟨52, _⟩ => ⟨S8192x8192, .f32⟩
  | .hbm, ⟨53, _⟩ => ⟨S8192x8192, .f32⟩
  | .hbm, ⟨54, _⟩ => ⟨S_, .f32⟩
  | .hbm, ⟨55, _⟩ => ⟨S8192x8192, .f32⟩
  | .hbm, ⟨56, _⟩ => ⟨S8192x8192, .f32⟩
  | .hbm, ⟨57, _⟩ => ⟨S_, .f32⟩
  | .hbm, ⟨58, _⟩ => ⟨S8192, .f32⟩
  | .hbm, ⟨59, _⟩ => ⟨S_, .f32⟩
  | .hbm, ⟨60, _⟩ => ⟨S8192, .f32⟩
  | .hbm, ⟨61, _⟩ => ⟨S8192, .f32⟩
  | .hbm, ⟨62, _⟩ => ⟨S8192x1, .f32⟩
  | .hbm, ⟨63, _⟩ => ⟨S8192x8192, .f32⟩
  | .hbm, ⟨64, _⟩ => ⟨S8192x8192, .f32⟩
  | .hbm, ⟨65, _⟩ => ⟨S8192x8192, .f32⟩
  | .hbm, ⟨66, _⟩ => ⟨S_, .f32⟩
  | .hbm, ⟨67, _⟩ => ⟨S8192, .f32⟩
  | .hbm, ⟨68, _⟩ => ⟨S8192x1, .f32⟩
  | .hbm, ⟨69, _⟩ => ⟨S8192x1, .f32⟩
  | .hbm, ⟨70, _⟩ => ⟨S8192x8192, .f32⟩
  | .hbm, ⟨71, _⟩ => ⟨S8192x8192, .f32⟩
  | .hbm, ⟨72, _⟩ => ⟨S8192x1, .i32⟩
  | .hbm, ⟨73, _⟩ => ⟨S_, .i32⟩
  | .hbm, ⟨74, _⟩ => ⟨S8192x1, .i32⟩
  | .hbm, ⟨75, _⟩ => ⟨S8192x1, .i1⟩
  | .hbm, ⟨76, _⟩ => ⟨S_, .i32⟩
  | .hbm, ⟨77, _⟩ => ⟨S8192x1, .i32⟩
  | .hbm, ⟨78, _⟩ => ⟨S8192x1, .i32⟩
  | .hbm, ⟨79, _⟩ => ⟨S8192x1, .i32⟩
  | .hbm, ⟨80, _⟩ => ⟨S8192x1x1, .i32⟩
  | .hbm, ⟨81, _⟩ => ⟨S1, .i32⟩
  | .hbm, ⟨82, _⟩ => ⟨S_, .i32⟩
  | .hbm, ⟨83, _⟩ => ⟨S8192x1x1, .i32⟩
  | .hbm, ⟨84, _⟩ => ⟨S8192x1x1, .i1⟩
  | .hbm, ⟨85, _⟩ => ⟨S1x1x1, .i32⟩
  | .hbm, ⟨86, _⟩ => ⟨S8192x1x1, .i32⟩
  | .hbm, ⟨87, _⟩ => ⟨S8192x1x1, .i1⟩
  | .hbm, ⟨88, _⟩ => ⟨S8192x1x1, .i1⟩
  | .hbm, ⟨89, _⟩ => ⟨S_, .i1⟩
  | .hbm, ⟨90, _⟩ => ⟨S8192x1, .i1⟩
  | .hbm, ⟨91, _⟩ => ⟨S8192x1, .f32⟩
  | .hbm, ⟨92, _⟩ => ⟨S_, .f32⟩
  | .hbm, ⟨93, _⟩ => ⟨S8192x1, .f32⟩
  | .hbm, ⟨94, _⟩ => ⟨S8192x1, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_call0_c : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_c_1 : Ref sig .tc := ⟨.hbm, 10, rfl⟩
abbrev main_call0_v5 : Ref sig .tc := ⟨.hbm, 11, rfl⟩
abbrev main_call0_v6 : Ref sig .tc := ⟨.hbm, 12, rfl⟩
abbrev main_call0_c_2 : Ref sig .tc := ⟨.hbm, 13, rfl⟩
abbrev main_call0_v7 : Ref sig .tc := ⟨.hbm, 14, rfl⟩
abbrev main_call0_v8 : Ref sig .tc := ⟨.hbm, 15, rfl⟩
abbrev main_call0_c_3 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_v1 : Ref sig .tc := ⟨.hbm, 23, rfl⟩
abbrev main_c_0 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_c_1 : Ref sig .tc := ⟨.hbm, 28, rfl⟩
abbrev main_v5 : Ref sig .tc := ⟨.hbm, 29, rfl⟩
abbrev main_v6 : Ref sig .tc := ⟨.hbm, 30, rfl⟩
abbrev main_call1_v0 : Ref sig .tc := ⟨.hbm, 31, rfl⟩
abbrev main_call1_cst : Ref sig .tc := ⟨.hbm, 32, rfl⟩
abbrev main_call1_v1 : Ref sig .tc := ⟨.hbm, 33, rfl⟩
abbrev main_call1_v2 : Ref sig .tc := ⟨.hbm, 34, rfl⟩
abbrev main_v7 : Ref sig .tc := ⟨.hbm, 35, rfl⟩
abbrev main_cst : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_c_2 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_cst_3 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_cst_4 : Ref sig .tc := ⟨.hbm, 54, rfl⟩
abbrev main_v23 : Ref sig .tc := ⟨.hbm, 55, rfl⟩
abbrev main_v24 : Ref sig .tc := ⟨.hbm, 56, rfl⟩
abbrev main_call2_cst : Ref sig .tc := ⟨.hbm, 57, rfl⟩
abbrev main_call2_v0 : Ref sig .tc := ⟨.hbm, 58, rfl⟩
abbrev main_call2_cst_0 : Ref sig .tc := ⟨.hbm, 59, rfl⟩
abbrev main_call2_v1 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_v5 : Ref sig .tc := ⟨.hbm, 64, rfl⟩
abbrev main_call2_v6 : Ref sig .tc := ⟨.hbm, 65, rfl⟩
abbrev main_call2_cst_1 : Ref sig .tc := ⟨.hbm, 66, rfl⟩
abbrev main_call2_v7 : Ref sig .tc := ⟨.hbm, 67, rfl⟩
abbrev main_call2_v8 : Ref sig .tc := ⟨.hbm, 68, rfl⟩
abbrev main_call2_v9 : Ref sig .tc := ⟨.hbm, 69, rfl⟩
abbrev main_call2_v10 : Ref sig .tc := ⟨.hbm, 70, rfl⟩
abbrev main_v25 : Ref sig .tc := ⟨.hbm, 71, rfl⟩
abbrev main_v26 : Ref sig .tc := ⟨.hbm, 72, rfl⟩
abbrev main_call3_c : Ref sig .tc := ⟨.hbm, 73, rfl⟩
abbrev main_call3_v0 : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_v5 : Ref sig .tc := ⟨.hbm, 80, rfl⟩
abbrev main_call3_c_1 : Ref sig .tc := ⟨.hbm, 81, rfl⟩
abbrev main_call3_c_2 : Ref sig .tc := ⟨.hbm, 82, rfl⟩
abbrev main_call3_v6 : Ref sig .tc := ⟨.hbm, 83, rfl⟩
abbrev main_call3_v7 : Ref sig .tc := ⟨.hbm, 84, rfl⟩
abbrev main_call3_v8 : Ref sig .tc := ⟨.hbm, 85, rfl⟩
abbrev main_call3_v9 : Ref sig .tc := ⟨.hbm, 86, rfl⟩
abbrev main_call3_v10 : Ref sig .tc := ⟨.hbm, 87, rfl⟩
abbrev main_call3_v11 : Ref sig .tc := ⟨.hbm, 88, rfl⟩
abbrev main_call3_c_3 : Ref sig .tc := ⟨.hbm, 89, rfl⟩
abbrev main_call3_v12 : Ref sig .tc := ⟨.hbm, 90, rfl⟩
abbrev main_call3_v13 : Ref sig .tc := ⟨.hbm, 91, rfl⟩
abbrev main_call3_cst : Ref sig .tc := ⟨.hbm, 92, rfl⟩
abbrev main_call3_v14 : Ref sig .tc := ⟨.hbm, 93, rfl⟩
abbrev main_v27 : Ref sig .tc := ⟨.hbm, 94, rfl⟩
abbrev main_cst_5 : Ref sig .tc := ⟨.hbm, 95, rfl⟩
abbrev main_v28 : Ref sig .tc := ⟨.hbm, 96, rfl⟩
abbrev main_cst_6 : Ref sig .tc := ⟨.hbm, 97, rfl⟩
abbrev main_v29 : Ref sig .tc := ⟨.hbm, 98, rfl⟩
abbrev main_v30 : Ref sig .tc := ⟨.hbm, 99, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  reducesTo_S8192x768_S8192_d1 : S8192x768.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x768_0_1 : S8192x1.BroadcastsInDim S8192x768 (![0, 1] : Fin 2 → Fin S8192x768.rank)
  transposes_S8192x768_S768x8192_1_0 : S8192x768.Transposes [1, 0] S768x8192
  bcast_S_S8192x8192 : S_.BroadcastsInDim S8192x8192 (![] : Fin 0 → Fin S8192x8192.rank)
  reducesTo_S8192x8192_S8192_d1 : S8192x8192.ReducesTo [1] S8192
  bcast_S8192x1_S8192x8192_0_1 : S8192x1.BroadcastsInDim S8192x8192 (![0, 1] : Fin 2 → Fin S8192x8192.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  reducesTo_S8192x1_S_d0_1 : S8192x1.ReducesTo [0, 1] S_
  dot_S8192x768_S768x8192_S8192x8192_1_0_0_1_n_n_wf : DotDims.WF S8192x768 S768x8192 S8192x8192 [1] [0] [0] [1] [] []
  gather_S8192x8192_S8192x1x1_S8192x1_n_1_0_0_1_2_11_wf : GatherDims.WF S8192x8192 S8192x1x1 S8192x1 [] [1] [0] [1] [0] 2 ![1, 1]

variable [Facts₀]

def dot_S8192x768_S768x8192_S8192x8192_1_0_0_1_n_n : DotDims S8192x768 S768x8192 S8192x8192 where
  lhsContracting := [1]
  rhsContracting := [0]
  lhsNonContracting := [0]
  rhsNonContracting := [1]
  lhsBatch := []
  rhsBatch := []
  wf := dot_S8192x768_S768x8192_S8192x8192_1_0_0_1_n_n_wf
def gather_S8192x8192_S8192x1x1_S8192x1_n_1_0_0_1_2_11 : GatherDims S8192x8192 S8192x1x1 S8192x1 where
  offsetDims := []
  collapsedSliceDims := [1]
  operandBatchingDims := [0]
  startIndicesBatchingDims := [0]
  startIndexMap := [1]
  indexVectorDim := 2
  sliceSizes := ![1, 1]
  wf := gather_S8192x8192_S8192x1x1_S8192x1_n_1_0_0_1_2_11_wf

class Facts : Prop extends Facts₀ where

variable [Facts]
-- ==== Proof.Carried.lean ====
/-
  One grid point's effect on the three carried columns (running maximum `m`, running denominator `l`, the label's
  similarity `p`) as a pure function of the point's row block and column tile, and what the two output blocks receive
  at a row block's last tile.
-/
import proofs.«166013_j38044820308458_2_alg».proof.Proof.Gen.KernelIdeal.Skeleton

noncomputable section

namespace Cert.KernelIdeal.Carried

open Idealize.ShloMosaic Cert.KernelIdeal Cert.KernelIdeal.Gen

variable {F : FTy → Type} [FloatOps F] [Named F]

/-- The three carried columns of one row block. -/
structure Scr (F : FTy → Type) where
  m : FVec F S2048x1 .f32
  l : FVec F S2048x1 .f32
  p : FVec F S2048x1 .f32

/-- What the first tile of a row block starts from: `(-∞, 0, 0)`. -/
def init : Scr F := ⟨k0_pay7, k0_pay8, k0_pay9⟩

/-- One tile: the new maximum, the rescaled denominator plus the tile's exponentials, the label's similarity added. -/
def upd (i : grid0.Coords) (A : FVec F S2048x768 .bf16) (B : FVec F S512x768 .bf16) (s : Scr F) : Scr F :=
  ⟨k0_pay4 (k0_pay12 i A B) k0_pay14 s.m,
   k0_pay3 (k0_pay12 i A B) k0_pay14 s.m s.m s.l,
   k0_pay13 i A B s.p⟩

/-- The block of log-sum-exps written at the last tile. -/
def out2 (s : Scr F) : FVec F S2048x1 .f32 := k0_pay5 s.m s.l
/-- The block of label logits written at the last tile. -/
def out3 (s : Scr F) : FVec F S2048x1 .f32 := k0_pay6 s.p

end Cert.KernelIdeal.Carried

end
-- ==== Proof.KFrame.lean ====
/-
  What the kernel program's run needs besides its body, stated for the launch theorem's fields: the host lines around the
  region, the contents the region is entered with, the windows' blocks read off them, the two conditions of the body
  in closed form over the grid, and where the two output windows are idle.
-/
import proofs.«166013_j38044820308458_2_alg».proof.Proof.Gen.KernelIdeal.Launch
import proofs.«166013_j38044820308458_2_alg».proof.Proof.Gen.KernelIdeal.Skeleton
import proofs.«166013_j38044820308458_2_alg».proof.Proof.Gen.KernelIdeal.Points
import proofs.«166013_j38044820308458_2_alg».proof.Proof.Carried
import Idealize.ShloMosaic.Lib.Pipeline.FrameBody
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered, as a valuation: after the eleven host operations before it. -/
abbrev V0 (c : Dev nD) : Valuation τ sig (Elt F) := StableHlo.after (List.flatten [hostOps0, hostOps0_1]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the two stretches of host lines, the region, and the last stretch: it reduces to the region continued by
    the last stretch, at the contents after the first two. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1] [hostOps1] ⟨hostOps0_sub, hostOps0_1_sub⟩
    ⟨hostOps0_fresh, hostOps0_1_fresh⟩ main_chain

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's two conditions -/

/-- The condition of the body's first `scf.if` (the column tile is the first). -/
abbrev cond0 (i : grid0.Coords) : Prop := (Scalar.cmpi .ne (Scalar.extui (Scalar.cmpi .eq (BitVec.ofNat 32 (i 1).val) 0#32)) 0#32) = 1#1
theorem hcond0 : ∀ t : Fin cfg0.N, cond0 (grid0.coords t) ↔ t.val % 16 = 0 :=
  (by decide +kernel : ∀ t : Fin grid0.N, cond0 (grid0.coords t) ↔ t.val % 16 = 0)
/-- The condition of its second (the column tile is the last). -/
abbrev cond1 (i : grid0.Coords) : Prop := k0_cond2 i = 1#1
theorem hcond1 : ∀ t : Fin cfg0.N, cond1 (grid0.coords t) ↔ t.val % 16 = 15 :=
  (by decide +kernel : ∀ t : Fin grid0.N, cond1 (grid0.coords t) ↔ t.val % 16 = 15)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
theorem idleAt2 : ∀ t : Fin cfg0.N, ¬cond1 (grid0.coords t) → cfg0.idle 2 (grid0.coords t) = true := by decide +kernel
theorem idleAt3 : ∀ t : Fin cfg0.N, ¬cond1 (grid0.coords t) → cfg0.idle 3 (grid0.coords t) = true := by decide +kernel
theorem liveAt2 : ∀ t : Fin cfg0.N, cond1 (grid0.coords t) → cfg0.idle 2 (grid0.coords t) = false := by decide +kernel
theorem liveAt3 : ∀ t : Fin cfg0.N, cond1 (grid0.coords t) → cfg0.idle 3 (grid0.coords t) = false := by decide +kernel
theorem noFlush2 : ∀ t : Fin cfg0.N, ¬cond1 (grid0.coords t) → (cfg0.win 2).flush t = false := by decide +kernel
theorem noFlush3 : ∀ t : Fin cfg0.N, ¬cond1 (grid0.coords t) → (cfg0.win 3).flush t = false := by decide +kernel

/-- Each window's current staging memref at point `t`, spelled as the pipeline passes it, and its wholeness. -/
abbrev ms0 (t : Fin cfg0.N) : Memref sig .tc .vmem S2048x768 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x768 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x1 .f32 := win0_3.stage (cfg0.slots t 3)
abbrev hs3 (t : Fin cfg0.N) : (ms3 t).IsWhole := hstage0_3 ((cfg0.slots t 3).cast nbuf0_3)
/-- The three scratch operands. -/
abbrev scM0 : Memref sig .tc .vmem S2048x1 .f32 := Memref.whole cc0_scratch0
abbrev scM1 : Memref sig .tc .vmem S2048x1 .f32 := Memref.whole cc0_scratch1
abbrev scM2 : Memref sig .tc .vmem S2048x1 .f32 := Memref.whole cc0_scratch2

end Cert.KernelIdeal.Hand

end
-- ==== Proof.KDat.lean ====
/-
  What the three carried columns hold after each grid point, and the proof data of the one pipeline: the arrays as the
  region finds them, each input window's buffer at its block, the two output windows' at the columns' final forms, the
  invariant the three scratch buffers at the point before's columns.
-/
import proofs.«166013_j38044820308458_2_alg».proof.Proof.KFrame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The carried columns after the body at position `n`: one tile's update, from the start values at the first tile of a
    row block, else from what the position before left. -/
def scrAt (c : Dev nD) : (n : ℕ) → n < cfg0.N → Carried.Scr F
  | 0, h => Carried.upd (grid0.coords ⟨0, h⟩) (iblk m c 0 ⟨0, h⟩) (iblk m c 1 ⟨0, h⟩) Carried.init
  | n + 1, h => Carried.upd (grid0.coords ⟨n + 1, h⟩) (iblk m c 0 ⟨n + 1, h⟩) (iblk m c 1 ⟨n + 1, h⟩)
      (if (n + 1) % 16 = 0 then Carried.init else scrAt c n (Nat.lt_of_succ_lt h))

/-- At the first tile of a row block the columns restart. -/
theorem scrAt_first (c : Dev nD) (t : Fin cfg0.N) (h : t.val % 16 = 0) :
    scrAt m c t.val t.isLt = Carried.upd (grid0.coords t) (iblk m c 0 t) (iblk m c 1 t) Carried.init := by
  obtain ⟨n, hn⟩ := t
  cases n with
  | zero => rfl
  | succ n => exact congrArg (Carried.upd _ _ _) (if_pos h)

/-- At a later tile they continue from the position before. -/
theorem scrAt_next (c : Dev nD) (t : Fin cfg0.N) (h : t.val % 16 ≠ 0) :
    scrAt m c t.val t.isLt = Carried.upd (grid0.coords t) (iblk m c 0 t) (iblk m c 1 t)
      (scrAt m c (t.val - 1) (Nat.lt_of_le_of_lt (Nat.sub_le _ _) t.isLt)) := by
  obtain ⟨n, hn⟩ := t
  cases n with
  | zero => exact absurd (Nat.zero_mod _) h
  | succ n => exact congrArg (Carried.upd _ _ _) (if_neg h)

/-- The region invariant before position `n`: the three scratch buffers at anything before the first point, afterwards
    at the columns the position before left. -/
def PhiS (c : Dev nD) : (n : ℕ) → n ≤ cfg0.N → sProp 𝕄
  | 0, _ => iprop((∃ d, owns (c : Thread nD τ) scM0 fullShare d) ∗ (∃ d, owns (c : Thread nD τ) scM1 fullShare d) ∗ (∃ d, owns (c : Thread nD τ) scM2 fullShare d))
  | n + 1, hn => iprop(owns (c : Thread nD τ) scM0 fullShare (scrAt m c n hn).m ∗ owns (c : Thread nD τ) scM1 fullShare (scrAt m c n hn).l
      ∗ owns (c : Thread nD τ) scM2 fullShare (scrAt m c n hn).p)

theorem PhiS_zero (c : Dev nD) (n : ℕ) (h : n ≤ cfg0.N) (hz : n = 0) :
    PhiS m c n h = iprop((∃ d, owns (c : Thread nD τ) scM0 fullShare d) ∗ (∃ d, owns (c : Thread nD τ) scM1 fullShare d) ∗ (∃ d, owns (c : Thread nD τ) scM2 fullShare d)) := by
  subst hz; rfl

theorem PhiS_succ (c : Dev nD) (n : ℕ) (hn : n < cfg0.N) :
    PhiS m c (n + 1) hn = iprop(owns (c : Thread nD τ) scM0 fullShare (scrAt m c n hn).m ∗ owns (c : Thread nD τ) scM1 fullShare (scrAt m c n hn).l
      ∗ owns (c : Thread nD τ) scM2 fullShare (scrAt m c n hn).p) := rfl

theorem PhiS_pos (c : Dev nD) (n : ℕ) (h : n ≤ cfg0.N) (hz : n ≠ 0) :
    PhiS m c n h = iprop(owns (c : Thread nD τ) scM0 fullShare (scrAt m c (n - 1) (by omega)).m ∗ owns (c : Thread nD τ) scM1 fullShare (scrAt m c (n - 1) (by omega)).l
      ∗ owns (c : Thread nD τ) scM2 fullShare (scrAt m c (n - 1) (by omega)).p) := by
  cases n with
  | zero => exact absurd rfl hz
  | succ n => rfl

/-- The proof data of the one pipeline on core `c`. The two input windows read one array: each holds half of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => Carried.out2 (scrAt m c t.val t.isLt)
    | ⟨3, _⟩ => Carried.out3 (scrAt m c t.val t.isLt)
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = Carried.out2 (scrAt m c t.val t.isLt) := by dsimp only [dats]
theorem after3 (c : Dev nD) (t : Fin cfg0.N) : (dats m 0 c).after 3 t = Carried.out3 (scrAt m c t.val t.isLt) := by dsimp only [dats]

/-- Each input window's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)

end Cert.KernelIdeal.Hand

end
-- ==== Proof.KBody.lean ====
/-
  The kernel body on any whole staging and scratch memrefs, in its three cases (first column tile, a middle one, the
  last): from the two input blocks and the carried columns it runs to the columns updated by one tile, and at the last
  tile leaves the two output blocks.
-/
import proofs.«166013_j38044820308458_2_alg».proof.Proof.KFrame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## Loads and stores through a whole buffer -/

section Whole

variable {Val : EltTy → Type} [∀ e, Nonempty (Val e)] {sig' : RefSig} {κ' : Kind} {sp : Space} {S : Shape} {e : EltTy}

theorem hz2 : (![0, 0] : Fin 2 → Nat) = fun _ => 0 := funext fun a => by fin_cases a <;> rfl

/-- A store through the whole buffer, last, leaves its payload whatever the earlier stores were. -/
theorem read_writes_cons_whole (v : View sig' κ' sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self .., View.mem_set_unit_zero h inb y⟩),
    View.canon_cons_unit_zero h inb w L]

/-- A load through the whole buffer after such a store reads the payload. -/
theorem readCov_cons_whole (v : View sig' κ' sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self .., View.mem_set_unit_zero h inb y⟩),
    View.canon_cons_unit_zero h inb w L, View.ld_unit_zero h inb]

/-- A load through the whole buffer reads its contents. -/
theorem readAt_whole (v : View sig' κ' sp S e) (f : v.ty.Contents Val) {off : Fin S.rank → Nat} (h : off = fun _ => 0)
    (inb : ∀ a, off a + S.size a ≤ S.size a) :
    v.readAt Val (Rect.unit off S.size inb).toLoadRect f = v.read Val f := by
  rw [View.readAt_eq_ld, View.ld_unit_zero h inb]

end Whole

/-! ## The three runs -/

set_option maxHeartbeats 2000000 in
/-- The first column tile of a row block: the scratch buffers hold anything, are reset, then updated. -/
theorem run_A (c : Dev nD) (i : grid0.Coords) (arg2 : Memref sig .tc .vmem S2048x768 .bf16) (harg2 : arg2.IsWhole) (arg3 : Memref sig .tc .vmem S512x768 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole)
    (hc0 : cond0 i) (hc1 : ¬cond1 i) (A : Vec F S2048x768 .bf16) (B : Vec F S512x768 .bf16)
    (E : Set ℕ) (K : PUnit → sProp 𝕄) :
    iprop(owns (c : Thread nD τ) arg2 fullShare A ∗ owns (c : Thread nD τ) arg3 fullShare B
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare A ∗ owns (c : Thread nD τ) arg3 fullShare B
            ∗ owns (c : Thread nD τ) arg6 fullShare (Carried.upd i A B Carried.init).m ∗ owns (c : Thread nD τ) arg7 fullShare (Carried.upd i A B Carried.init).l
            ∗ owns (c : Thread nD τ) arg8 fullShare (Carried.upd i A B Carried.init).p) -∗ K ⟨⟩))
      ⊢ wp frame (wpE (defs₀ (F := F)) Variants.none c none) E (cc0__sim_lse_kernel i arg2 harg2 arg3 harg3 arg4 harg4 arg5 harg5 arg6 harg6 arg7 harg7 arg8 harg8) K := by
  simp only [cc0__sim_lse_kernel_eq_skeleton]; unfold cc0__sim_lse_kernel_skel
  simp only [k0_part1_eq_skeleton]; unfold k0_part1_skel
  unfold owns
  iintro ⟨⟨%f2, %hf2, H2⟩, ⟨%f3, %hf3, H3⟩, ⟨%d6, %f6, -, H6⟩, ⟨%d7, %f7, -, H7⟩, ⟨%d8, %f8, -, H8⟩, Hk⟩
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H6]
  · iexists _; isplitr
    swap; · iexact H6
    ipureintro
    sl_unfold_run_names
    (try dsimp only)
    simp only [read_writes_cons_whole (S := S2048x1) _ _ hz2, readCov_cons_whole (S := S2048x1) _ hz2, readAt_whole (S := S2048x1) _ _ hz2, readAt_whole (S := S2048x768) _ _ hz2, readAt_whole (S := S512x768) _ _ hz2, hf2, hf3]
    rfl
  isplitl [H7]
  · iexists _; isplitr
    swap; · iexact H7
    ipureintro
    sl_unfold_run_names
    (try dsimp only)
    simp only [read_writes_cons_whole (S := S2048x1) _ _ hz2, readCov_cons_whole (S := S2048x1) _ hz2, readAt_whole (S := S2048x1) _ _ hz2, readAt_whole (S := S2048x768) _ _ hz2, readAt_whole (S := S512x768) _ _ hz2, hf2, hf3]
    rfl
  · iexists _; isplitr
    swap; · iexact H8
    ipureintro
    sl_unfold_run_names
    (try dsimp only)
    simp only [read_writes_cons_whole (S := S2048x1) _ _ hz2, readCov_cons_whole (S := S2048x1) _ hz2, readAt_whole (S := S2048x1) _ _ hz2, readAt_whole (S := S2048x768) _ _ hz2, readAt_whole (S := S512x768) _ _ hz2, hf2, hf3]
    rfl

set_option maxHeartbeats 2000000 in
/-- A middle column tile: the columns are updated. -/
theorem run_B (c : Dev nD) (i : grid0.Coords) (arg2 : Memref sig .tc .vmem S2048x768 .bf16) (harg2 : arg2.IsWhole) (arg3 : Memref sig .tc .vmem S512x768 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole)
    (hc0 : ¬cond0 i) (hc1 : ¬cond1 i) (A : Vec F S2048x768 .bf16) (B : Vec F S512x768 .bf16) (s : Carried.Scr F)
    (E : Set ℕ) (K : PUnit → sProp 𝕄) :
    iprop(owns (c : Thread nD τ) arg2 fullShare A ∗ owns (c : Thread nD τ) arg3 fullShare B
        ∗ owns (c : Thread nD τ) arg6 fullShare s.m ∗ owns (c : Thread nD τ) arg7 fullShare s.l ∗ owns (c : Thread nD τ) arg8 fullShare s.p
        ∗ (iprop(owns (c : Thread nD τ) arg2 fullShare A ∗ owns (c : Thread nD τ) arg3 fullShare B
            ∗ owns (c : Thread nD τ) arg6 fullShare (Carried.upd i A B s).m ∗ owns (c : Thread nD τ) arg7 fullShare (Carried.upd i A B s).l
            ∗ owns (c : Thread nD τ) arg8 fullShare (Carried.upd i A B s).p) -∗ K ⟨⟩))
      ⊢ wp frame (wpE (defs₀ (F := F)) Variants.none c none) E (cc0__sim_lse_kernel i arg2 harg2 arg3 harg3 arg4 harg4 arg5 harg5 arg6 harg6 arg7 harg7 arg8 harg8) K := by
  simp only [cc0__sim_lse_kernel_eq_skeleton]; unfold cc0__sim_lse_kernel_skel
  simp only [k0_part1_eq_skeleton]; unfold k0_part1_skel
  unfold owns
  iintro ⟨⟨%f2, %hf2, H2⟩, ⟨%f3, %hf3, H3⟩, ⟨%f6, %hf6, H6⟩, ⟨%f7, %hf7, H7⟩, ⟨%f8, %hf8, H8⟩, Hk⟩
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H6]
  · iexists _; isplitr
    swap; · iexact H6
    ipureintro
    sl_unfold_run_names
    (try dsimp only)
    simp only [read_writes_cons_whole (S := S2048x1) _ _ hz2, readCov_cons_whole (S := S2048x1) _ hz2, readAt_whole (S := S2048x1) _ _ hz2, readAt_whole (S := S2048x768) _ _ hz2, readAt_whole (S := S512x768) _ _ hz2, hf2, hf3, hf6, hf7, hf8]
    rfl
  isplitl [H7]
  · iexists _; isplitr
    swap; · iexact H7
    ipureintro
    sl_unfold_run_names
    (try dsimp only)
    simp only [read_writes_cons_whole (S := S2048x1) _ _ hz2, readCov_cons_whole (S := S2048x1) _ hz2, readAt_whole (S := S2048x1) _ _ hz2, readAt_whole (S := S2048x768) _ _ hz2, readAt_whole (S := S512x768) _ _ hz2, hf2, hf3, hf6, hf7, hf8]
    rfl
  · iexists _; isplitr
    swap; · iexact H8
    ipureintro
    sl_unfold_run_names
    (try dsimp only)
    simp only [read_writes_cons_whole (S := S2048x1) _ _ hz2, readCov_cons_whole (S := S2048x1) _ hz2, readAt_whole (S := S2048x1) _ _ hz2, readAt_whole (S := S2048x768) _ _ hz2, readAt_whole (S := S512x768) _ _ hz2, hf2, hf3, hf6, hf7, hf8]
    rfl

set_option maxHeartbeats 2000000 in
/-- The last column tile: the columns are updated and the two output blocks written from them. -/
theorem run_C (c : Dev nD) (i : grid0.Coords) (arg2 : Memref sig .tc .vmem S2048x768 .bf16) (harg2 : arg2.IsWhole) (arg3 : Memref sig .tc .vmem S512x768 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole)
    (hc0 : ¬cond0 i) (hc1 : cond1 i) (A : Vec F S2048x768 .bf16) (B : Vec F S512x768 .bf16) (s : Carried.Scr F)
    (E : Set ℕ) (K : PUnit → sProp 𝕄) :
    iprop(owns (c : Thread nD τ) arg2 fullShare A ∗ owns (c : Thread nD τ) arg3 fullShare B
        ∗ (∃ d, owns (c : Thread nD τ) arg4 fullShare d) ∗ (∃ d, owns (c : Thread nD τ) arg5 fullShare d)
        ∗ owns (c : Thread nD τ) arg6 fullShare s.m ∗ owns (c : Thread nD τ) arg7 fullShare s.l ∗ owns (c : Thread nD τ) arg8 fullShare s.p
        ∗ (iprop(owns (c : Thread nD τ) arg2 fullShare A ∗ owns (c : Thread nD τ) arg3 fullShare B
            ∗ owns (c : Thread nD τ) arg4 fullShare (Carried.out2 (Carried.upd i A B s)) ∗ owns (c : Thread nD τ) arg5 fullShare (Carried.out3 (Carried.upd i A B s))
            ∗ owns (c : Thread nD τ) arg6 fullShare (Carried.upd i A B s).m ∗ owns (c : Thread nD τ) arg7 fullShare (Carried.upd i A B s).l
            ∗ owns (c : Thread nD τ) arg8 fullShare (Carried.upd i A B s).p) -∗ K ⟨⟩))
      ⊢ wp frame (wpE (defs₀ (F := F)) Variants.none c none) E (cc0__sim_lse_kernel i arg2 harg2 arg3 harg3 arg4 harg4 arg5 harg5 arg6 harg6 arg7 harg7 arg8 harg8) K := by
  simp only [cc0__sim_lse_kernel_eq_skeleton]; unfold cc0__sim_lse_kernel_skel
  simp only [k0_part1_eq_skeleton]; unfold k0_part1_skel
  unfold owns
  iintro ⟨⟨%f2, %hf2, H2⟩, ⟨%f3, %hf3, H3⟩, ⟨%d4, %f4, -, H4⟩, ⟨%d5, %f5, -, H5⟩, ⟨%f6, %hf6, H6⟩, ⟨%f7, %hf7, H7⟩, ⟨%f8, %hf8, H8⟩, Hk⟩
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    sl_unfold_run_names
    (try dsimp only)
    simp only [read_writes_cons_whole (S := S2048x1) _ _ hz2, readCov_cons_whole (S := S2048x1) _ hz2, readAt_whole (S := S2048x1) _ _ hz2, readAt_whole (S := S2048x768) _ _ hz2, readAt_whole (S := S512x768) _ _ hz2, hf2, hf3, hf6, hf7, hf8]
    rfl
  isplitl [H5]
  · iexists _; isplitr
    swap; · iexact H5
    ipureintro
    sl_unfold_run_names
    (try dsimp only)
    simp only [read_writes_cons_whole (S := S2048x1) _ _ hz2, readCov_cons_whole (S := S2048x1) _ hz2, readAt_whole (S := S2048x1) _ _ hz2, readAt_whole (S := S2048x768) _ _ hz2, readAt_whole (S := S512x768) _ _ hz2, hf2, hf3, hf6, hf7, hf8]
    rfl
  isplitl [H6]
  · iexists _; isplitr
    swap; · iexact H6
    ipureintro
    sl_unfold_run_names
    (try dsimp only)
    simp only [read_writes_cons_whole (S := S2048x1) _ _ hz2, readCov_cons_whole (S := S2048x1) _ hz2, readAt_whole (S := S2048x1) _ _ hz2, readAt_whole (S := S2048x768) _ _ hz2, readAt_whole (S := S512x768) _ _ hz2, hf2, hf3, hf6, hf7, hf8]
    rfl
  isplitl [H7]
  · iexists _; isplitr
    swap; · iexact H7
    ipureintro
    sl_unfold_run_names
    (try dsimp only)
    simp only [read_writes_cons_whole (S := S2048x1) _ _ hz2, readCov_cons_whole (S := S2048x1) _ hz2, readAt_whole (S := S2048x1) _ _ hz2, readAt_whole (S := S2048x768) _ _ hz2, readAt_whole (S := S512x768) _ _ hz2, hf2, hf3, hf6, hf7, hf8]
    rfl
  · iexists _; isplitr
    swap; · iexact H8
    ipureintro
    sl_unfold_run_names
    (try dsimp only)
    simp only [read_writes_cons_whole (S := S2048x1) _ _ hz2, readCov_cons_whole (S := S2048x1) _ hz2, readAt_whole (S := S2048x1) _ _ hz2, readAt_whole (S := S2048x768) _ _ hz2, readAt_whole (S := S512x768) _ _ hz2, hf2, hf3, hf6, hf7, hf8]
    rfl

end Cert.KernelIdeal.Hand

end
-- ==== Proof.KObl.lean ====
/-
  The body obligation of the pipeline's proof data: at every grid point, by the case of its column tile.
-/
import proofs.«166013_j38044820308458_2_alg».proof.Proof.KDat
import proofs.«166013_j38044820308458_2_alg».proof.Proof.KBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

/-- After a point, the scratch buffers' named columns may be forgotten. -/
theorem PhiS_forget (c : Dev nD) (n : ℕ) (h : n ≤ cfg0.N) :
    PhiS m c n h ⊢ iprop((∃ d, owns (c : Thread nD τ) scM0 fullShare d) ∗ (∃ d, owns (c : Thread nD τ) scM1 fullShare d) ∗ (∃ d, owns (c : Thread nD τ) scM2 fullShare d)) := by
  by_cases hz : n = 0
  · rw [PhiS_zero m c n h hz]; try exact Idealize.SL.BI.Entails.refl _
  · rw [PhiS_pos m c n h hz]
    iintro ⟨H0, H1, H2⟩
    isplitl [H0]; · iexists _; iexact H0
    isplitl [H1]; · iexists _; iexact H1
    iexists _; iexact H2

set_option maxHeartbeats 1600000 in
/-- The body at any point: the inputs' buffers hold their blocks; the closed forms of the two conditions say which case
    the point is in; the invariant hands the body the scratch buffers at what the point before left (at anything
    before the first point) and takes them back at this point's columns; at the last tile the two output buffers are
    taken back at the columns' final forms, elsewhere untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [liveAt0 t], after0]
  rw [show (dats m 0 c).leavesExact 1 t = owns (c : Thread nD τ) (ms1 t) fullShare ((dats m 0 c).after 1 t) from by
    unfold Dat.leavesExact; rw [liveAt1 t], after1]
  rw [PhiS_castSucc m c t]
  have hN : t.val < 64 := lt_of_lt_of_eq t.isLt (show cfg0.N = 64 from N_0)
  by_cases h0 : t.val % 16 = 0
  · have hc0 : cond0 (grid0.coords t) := (hcond0 t).mpr h0
    have hc1 : ¬cond1 (grid0.coords t) := fun h => by have := (hcond1 t).mp h; omega
    rw [Dat.leavesExact_idle (dats m 0 c) 2 t (idleAt2 t hc1) (noFlush2 t hc1),
      Dat.leavesExact_idle (dats m 0 c) 3 t (idleAt3 t hc1) (noFlush3 t hc1)]
    rw [scrAt_first m c t h0]
    iintro ⟨HΦ, Ho, ⟨%d0, H0⟩, ⟨%d1, H1⟩, H2, H3⟩
    ihave HΦ := (PhiS_forget m c t.val (Nat.le_of_lt t.isLt)) $$ HΦ
    icases HΦ with ⟨HS0, HS1, HS2⟩
    iapply (run_A c (grid0.coords t) (ms0 t) (hs0 t) (ms1 t) (hs1 t) (ms2 t) (hs2 t) (ms3 t) (hs3 t) scM0 (Memref.isWhole_whole _) scM1 (Memref.isWhole_whole _) scM2 (Memref.isWhole_whole _) hc0 hc1 (iblk m c 0 t) (iblk m c 1 t) Set.univ _)
    isplitl [H0]; · iexact H0
    isplitl [H1]; · iexact H1
    isplitl [HS0]; · iexact HS0
    isplitl [HS1]; · iexact HS1
    isplitl [HS2]; · iexact HS2
    iintro ⟨H0, H1, HS0, HS1, HS2⟩
    isplitl [HS0 HS1 HS2]
    · isplitl [HS0]; · iexact HS0
      isplitl [HS1]; · iexact HS1
      iexact HS2
    isplitl [Ho]; · iexact Ho
    isplitl [H0]; · iexact H0
    isplitl [H1]; · iexact H1
    isplitl [H2]; · iexact H2
    iexact H3
  · have hc0 : ¬cond0 (grid0.coords t) := fun h => h0 ((hcond0 t).mp h)
    have hz : t.val ≠ 0 := fun h => h0 (by rw [h])
    rw [PhiS_pos m c _ _ hz]
    rw [scrAt_next m c t h0]
    by_cases h1 : t.val % 16 = 15
    · have hc1 : cond1 (grid0.coords t) := (hcond1 t).mpr h1
      rw [show (dats m 0 c).leavesExact 2 t = owns (c : Thread nD τ) (ms2 t) fullShare ((dats m 0 c).after 2 t) from by
        unfold Dat.leavesExact; rw [liveAt2 t hc1], after2]
      rw [show (dats m 0 c).leavesExact 3 t = owns (c : Thread nD τ) (ms3 t) fullShare ((dats m 0 c).after 3 t) from by
        unfold Dat.leavesExact; rw [liveAt3 t hc1], after3]
      rw [scrAt_next m c t h0]
      iintro ⟨⟨HS0, HS1, HS2⟩, Ho, ⟨%d0, H0⟩, ⟨%d1, H1⟩, ⟨%d2, H2⟩, ⟨%d3, H3⟩⟩
      iapply (run_C c (grid0.coords t) (ms0 t) (hs0 t) (ms1 t) (hs1 t) (ms2 t) (hs2 t) (ms3 t) (hs3 t) scM0 (Memref.isWhole_whole _) scM1 (Memref.isWhole_whole _) scM2 (Memref.isWhole_whole _) hc0 hc1 (iblk m c 0 t) (iblk m c 1 t) _ Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      isplitl [HS2]; · iexact HS2
      iintro ⟨H0, H1, H2, H3, HS0, HS1, HS2⟩
      isplitl [HS0 HS1 HS2]
      · isplitl [HS0]; · iexact HS0
        isplitl [HS1]; · iexact HS1
        iexact HS2
      isplitl [Ho]; · iexact Ho
      isplitl [H0]; · iexact H0
      isplitl [H1]; · iexact H1
      isplitl [H2]; · iexact H2
      iexact H3
    · have hc1 : ¬cond1 (grid0.coords t) := fun h => h1 ((hcond1 t).mp h)
      rw [Dat.leavesExact_idle (dats m 0 c) 2 t (idleAt2 t hc1) (noFlush2 t hc1),
        Dat.leavesExact_idle (dats m 0 c) 3 t (idleAt3 t hc1) (noFlush3 t hc1)]
      iintro ⟨⟨HS0, HS1, HS2⟩, Ho, ⟨%d0, H0⟩, ⟨%d1, H1⟩, H2, H3⟩
      iapply (run_B c (grid0.coords t) (ms0 t) (hs0 t) (ms1 t) (hs1 t) (ms2 t) (hs2 t) (ms3 t) (hs3 t) scM0 (Memref.isWhole_whole _) scM1 (Memref.isWhole_whole _) scM2 (Memref.isWhole_whole _) hc0 hc1 (iblk m c 0 t) (iblk m c 1 t) _ Set.univ _)
      isplitl [H0]; · iexact H0
      isplitl [H1]; · iexact H1
      isplitl [HS0]; · iexact HS0
      isplitl [HS1]; · iexact HS1
      isplitl [HS2]; · iexact HS2
      iintro ⟨H0, H1, HS0, HS1, HS2⟩
      isplitl [HS0 HS1 HS2]
      · isplitl [HS0]; · iexact HS0
        isplitl [HS1]; · iexact HS1
        iexact HS2
      isplitl [Ho]; · iexact Ho
      isplitl [H0]; · iexact H0
      isplitl [H1]; · iexact H1
      isplitl [H2]; · iexact H2
      iexact H3

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.HostDefs.lean ====
/-
  The host operations around the kernel as pure terms: before it, the rows divided by their guarded norms (and rounded
  to bf16, the identity at the ideal instance); after it, the mean of the difference of the two result columns.
-/
import proofs.«166013_j38044820308458_2_alg».proof.Proof.Gen.KernelIdeal

noncomputable section

namespace Cert.KernelIdeal.HostDefs

open Idealize.ShloMosaic Cert.KernelIdeal
open Facts₀ Facts

variable {F : FTy → Type} [FloatOps F] [Named F] [Facts]

/-- The normalised matrix the kernel receives, as the host computes it from the argument. -/
def normT (x : FVec F S8192x768 .f32) : FVec F S8192x768 .bf16 :=
  truncf .bf16
    (Host.divf x
      (broadcastInDim S8192x768 ![0, 1] bcast_S8192x1_S8192x768_0_1
        (maximumf
          (Host.sqrt (broadcastInDim S8192x1 ![0] bcast_S8192_S8192x1_0
            (Host.reduceAdd (mulf x x) (constant S_ .f32 0x00000000#32) reducesTo_S8192x768_S8192_d1 h_S_)))
          (broadcastInDim S8192x1 ![] bcast_S_S8192x1 (constant S_ .f32 0x322BCC77#32)))))
    bitsLt_bf16_f32

/-- The loss from the kernel's two result columns: the sum of their difference over the 8192 rows, divided by 8192. -/
def tailT (a b : FVec F S8192x1 .f32) : FVec F S_ .f32 :=
  Host.divf (Host.reduceAdd (subf a b) (constant S_ .f32 0x00000000#32) reducesTo_S8192x1_S_d0_1 h_S_)
    (constant S_ .f32 0x46000000#32)

end Cert.KernelIdeal.HostDefs

end
-- ==== Proof.KLaunch.lean ====
/-
  The run of the kernel program: the host lines before the region, the region by the launch theorem for windows that
  share an array (the two input windows each hold half of the normalised matrix), and the host lines after it, which
  read the two result columns. At the end the result holds the mean of the columns' difference as the proof data's
  arrays have them, and the argument is unchanged.
-/
import proofs.«166013_j38044820308458_2_alg».proof.Proof.KObl
import proofs.«166013_j38044820308458_2_alg».proof.Proof.HostDefs
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.StableHlo (held)

variable (m : (ℓ : Loc nD τ sig) → Buf (Elt F) ℓ) (ρ : Dev nD → PrngReg)

abbrev EP : Emb (UR sig nD τ) (MT nD τ sig Unit (Elt F) ℕ (UR sig nD τ) ℕ) := emb₁

/-- The launch element of the pipeline's staging cells. -/
def u₀ : UR sig nD τ := initOf (Pipeline.cells cfgs cellOf_inj) (Pipeline.launchToks cfgs cellOf_inj)

/-! ## The arrays at the region's entry -/

/-- The distinct buffers behind the four windows' arrays. -/
theorem arrBufs0_eq (c : Dev nD) (W : (b : Ref sig .tc) → Buf (Elt F) ((c : Thread nD τ).loc b)) :
    (Pipeline.arrBufs spec0 c W : sProp 𝕄)
      = iprop((((c : Thread nD τ).loc main_v5) ↦{fullShare} W main_v5) ∗ (((c : Thread nD τ).loc main_v6_0) ↦{fullShare} W main_v6_0)
          ∗ (((c : Thread nD τ).loc main_v6_1) ↦{fullShare} W main_v6_1)) :=
  bigSep_eq_bigSepL_of_eq [main_v5, main_v6_0, main_v6_1] (by decide) (by decide) _

/-- The proof data's arrays, window by window, each a whole buffer at the window's share. -/
theorem arrays0_eq (c : Dev nD) (G : (w : Fin cfg0.W) → Buf (Elt F) ((cfg0.win w).arr.view.loc (c : Thread nD τ))) :
    (dats m 0 c).arrays G
      = iprop((((c : Thread nD τ).loc main_v5) ↦{fullShare.left} G 0) ∗ (((c : Thread nD τ).loc main_v5) ↦{fullShare.right} G 1)
          ∗ (((c : Thread nD τ).loc main_v6_0) ↦{fullShare} G 2) ∗ (((c : Thread nD τ).loc main_v6_1) ↦{fullShare} G 3)) := by
  unfold Dat.arrays
  rw [bigSep_W0, (arr_whole0 0).set_eq_univ, (arr_whole0 2).set_eq_univ, (arr_whole0 3).set_eq_univ]
  rfl

/-- At entry the normalised matrix is split between the two input windows. -/
theorem hsplit (c : Dev nD) : (Pipeline.arrBufs spec0 c (V m c) : sProp 𝕄) ⊢ (dats m 0 c).arrays ((dats m 0 c).arrAt · 0) := by
  rw [arrBufs0_eq, arrays0_eq]
  iintro ⟨H5, H60, H61⟩
  ihave H5 := (pointsTo_share (PosShare.mem_left_op_right fullShare)).1 $$ H5
  icases H5 with ⟨H5l, H5r⟩
  isplitl [H5l]; · iexact H5l
  isplitl [H5r]; · iexact H5r
  isplitl [H60]; · iexact H60
  iexact H61

/-! ## The invariant at the region's two ends -/

theorem scopedRest0_owns (c : Dev nD) :
    (Pipeline.scopedRest spec0 c : sProp 𝕄)
      = iprop((∃ d, owns (c : Thread nD τ) scM0 fullShare d) ∗ (∃ d, owns (c : Thread nD τ) scM1 fullShare d) ∗ (∃ d, owns (c : Thread nD τ) scM2 fullShare d)) := by
  rw [scopedRest0_eq]; simp only [scM0, scM1, scM2, owns_whole]; try rfl

theorem hin (c : Dev nD) : (Pipeline.scopedRest spec0 c : sProp 𝕄) ⊢ (dats m 0 c).Φ 0 := by
  rw [show (dats m 0 c).Φ 0 = PhiS m c 0 (Nat.zero_le _) from rfl, PhiS_zero m c 0 _ rfl, scopedRest0_owns]
  try exact Idealize.SL.BI.Entails.refl _

theorem hout (c : Dev nD) : (dats m 0 c).Φ (Fin.last cfg0.N) ⊢ (Pipeline.scopedRest spec0 c : sProp 𝕄) := by
  rw [show (dats m 0 c).Φ (Fin.last cfg0.N) = PhiS m c (Fin.last cfg0.N).val (Nat.le_of_lt_succ (Fin.last cfg0.N).isLt) from rfl, scopedRest0_owns]
  exact PhiS_forget m c _ _

/-! ## The lines after the region -/

/-- The references the last five host operations touch. -/
abbrev tailL : List (Ref sig .tc) := [main_v6_0, main_v6_1, main_v7, main_cst_0, main_v8, main_cst_1, main_v9]
def tailS : Finset (DevRef τ sig) := (tailL.map (Proc.devRef .tc)).toFinset

theorem held_tailS (c : Dev nD) (W : Valuation τ sig (Elt F)) :
    (held (c.tc : Thread nD τ) tailS W : sProp 𝕄)
      = iprop((((c : Thread nD τ).loc main_v6_0) ↦{fullShare} W (Proc.devRef .tc main_v6_0)) ∗ (((c : Thread nD τ).loc main_v6_1) ↦{fullShare} W (Proc.devRef .tc main_v6_1))
          ∗ (((c : Thread nD τ).loc main_v7) ↦{fullShare} W (Proc.devRef .tc main_v7)) ∗ (((c : Thread nD τ).loc main_cst_0) ↦{fullShare} W (Proc.devRef .tc main_cst_0))
          ∗ (((c : Thread nD τ).loc main_v8) ↦{fullShare} W (Proc.devRef .tc main_v8)) ∗ (((c : Thread nD τ).loc main_cst_1) ↦{fullShare} W (Proc.devRef .tc main_cst_1))
          ∗ (((c : Thread nD τ).loc main_v9) ↦{fullShare} W (Proc.devRef .tc main_v9))) :=
  bigSep_eq_bigSepL_of_eq (tailL.map (Proc.devRef .tc)) rfl (by decide) _

theorem tail_sub : ∀ ops ∈ ([hostOps1] : List (List (HloOp τ sig (Elt F)))), ∀ op ∈ ops, op.bufs ⊆ tailS := by
  intro ops hops op hop
  simp only [List.mem_cons, List.mem_nil_iff, or_false] at hops
  subst hops
  simp only [hostOps1, List.mem_cons, List.mem_nil_iff, or_false] at hop
  rcases hop with rfl | rfl | rfl | rfl | rfl
  all_goals (first | rw [StableHlo.binary_bufs] | rw [StableHlo.nullary_bufs]) <;> decide

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- The contents the last lines start from: the two result columns as the region left them, the rest as it found them. -/
def Wt (c : Dev nD) : Valuation τ sig (Elt F) :=
  Function.update (Function.update (V0 m c) (Proc.devRef .tc main_v6_0) ((dats m 0 c).arrAt 2 cfg0.N))
    (Proc.devRef .tc main_v6_1) ((dats m 0 c).arrAt 3 cfg0.N)

theorem Wt_v6_0 (c : Dev nD) : Wt m c (Proc.devRef .tc main_v6_0) = (dats m 0 c).arrAt 2 cfg0.N := by
  unfold Wt; rw [Function.update_of_ne (StableHlo.devRef_ne_of_ne (by decide)), Function.update_self]
theorem Wt_v6_1 (c : Dev nD) : Wt m c (Proc.devRef .tc main_v6_1) = (dats m 0 c).arrAt 3 cfg0.N := by
  unfold Wt; rw [Function.update_self]
theorem Wt_other (c : Dev nD) (b : Ref sig .tc) (h0 : b ≠ main_v6_0) (h1 : b ≠ main_v6_1) : Wt m c (Proc.devRef .tc b) = V m c b := by
  unfold Wt; rw [Function.update_of_ne (StableHlo.devRef_ne_of_ne h1), Function.update_of_ne (StableHlo.devRef_ne_of_ne h0)]

/-- What the last lines leave, from any contents: the result is the mean of the two columns' difference, the columns are
    as they were. -/
theorem after_v9 (W : Valuation τ sig (Elt F)) :
    StableHlo.after (hostOps1 (F := F)) W (Proc.devRef .tc main_v9) = HostDefs.tailT (W (Proc.devRef .tc main_v6_0)) (W (Proc.devRef .tc main_v6_1)) := by
  unfold hostOps1
  after_results
  rfl
theorem after_v6_0 (W : Valuation τ sig (Elt F)) :
    StableHlo.after (hostOps1 (F := F)) W (Proc.devRef .tc main_v6_0) = W (Proc.devRef .tc main_v6_0) := by
  unfold hostOps1
  after_results
theorem after_v6_1 (W : Valuation τ sig (Elt F)) :
    StableHlo.after (hostOps1 (F := F)) W (Proc.devRef .tc main_v6_1) = W (Proc.devRef .tc main_v6_1) := by
  unfold hostOps1
  after_results

/-- The argument is as the launch found it when the region is entered. -/
theorem V_main_arg0 (c : Dev nD) : V m c main_arg0 = m ((c : Thread nD τ).loc main_arg0) := by
  show StableHlo.after (hostOps0 ++ (hostOps0_1 ++ [])) (fun b => m (c, b)) (Proc.devRef .tc main_arg0) = _
  rw [List.append_nil, StableHlo.after_append]
  unfold hostOps0 hostOps0_1
  after_results

/-- What is handed back after the last lines beside the arrays: the argument and the result. -/
def Zp (c : Dev nD) : sProp 𝕄 :=
  iprop((((c : Thread nD τ).loc main_arg0) ↦{fullShare} V m c main_arg0)
    ∗ (((c : Thread nD τ).loc main_v9) ↦{fullShare} HostDefs.tailT ((dats m 0 c).arrAt 2 cfg0.N) ((dats m 0 c).arrAt 3 cfg0.N)))

set_option backward.isDefEq.respectTransparency.types false in
set_option maxHeartbeats 1000000 in
/-- From the region's exit the last five host lines run, holding the two result columns and their own buffers, and
    hand the arrays back as they were with the result at the mean of the columns' difference. -/
theorem htail (c : Dev nD) (Q' : PUnit → sProp 𝕄) :
    iprop((iprop((dats m 0 c).arrays ((dats m 0 c).arrAt · cfg0.N) ∗ Zp m c) -∗ Q' ⟨⟩)
        ∗ boundary (c.tc : Thread nD τ) ∗ (dats m 0 c).arrays ((dats m 0 c).arrAt · cfg0.N) ∗ Pipeline.unscopedRest spec0 c (V m c))
      ⊢ wp frame (wpE (Pipeline.defs (pcfgs (F := F)) defs₀) (Variants.lift Variants.none) (c.tc : Thread nD τ) none) Set.univ
          (Pipeline.chain [StableHlo.seq hostOps1]) Q' := by
  have hstep := Pipeline.wp_seqs_then (Ix := Unit) (Name := ℕ) (U := UR sig nD τ) (Lvl := ℕ) (pcfgs (F := F)) defs₀ Variants.none c tailS [] [hostOps1]
    tail_sub tail_fresh (Wt m c) (K := Q')
  simp only [List.map_cons, List.map_nil, List.cons_append, List.nil_append, List.flatten_cons, List.flatten_nil, List.append_nil] at hstep
  rw [held_tailS, held_tailS, after_v6_0, after_v6_1, after_v9, Wt_v6_0, Wt_v6_1, Wt_other m c main_v7 (by decide) (by decide),
    Wt_other m c main_cst_0 (by decide) (by decide), Wt_other m c main_v8 (by decide) (by decide),
    Wt_other m c main_cst_1 (by decide) (by decide), Wt_other m c main_v9 (by decide) (by decide)] at hstep
  rw [arrays0_eq, unscopedRest0_eq]
  unfold Zp
  iintro ⟨Hk, Hb, ⟨HA0, HA1, HA2, HA3⟩, ⟨Harg0, Hx1, Hx2, Hx3, Hx4, Hx5, Hx6, Hx7, Hx8, Hx9, Hx10, Hv7, Hcst0, Hv8, Hcst1, Hv9⟩⟩
  iapply (hstep) $$ [Hb HA2 HA3 Hv7 Hcst0 Hv8 Hcst1 Hv9]
  · isplitl [Hb]; · iexact Hb
    isplitl [HA2]; · iexact HA2
    isplitl [HA3]; · iexact HA3
    isplitl [Hv7]; · iexact Hv7
    isplitl [Hcst0]; · iexact Hcst0
    isplitl [Hv8]; · iexact Hv8
    isplitl [Hcst1]; · iexact Hcst1
    iexact Hv9
  iintro ⟨Hb, HA2, HA3, -, -, -, -, Hv9⟩
  rw [Pipeline.chain_nil, wp_pure]
  imodintro
  iapply Hk
  isplitl [HA0 HA1 HA2 HA3]
  · isplitl [HA0]; · iexact HA0
    isplitl [HA1]; · iexact HA1
    isplitl [HA2]; · iexact HA2
    iexact HA3
  isplitl [Harg0]; · iexact Harg0
  iexact Hv9

/-! ## The run -/

set_option backward.isDefEq.respectTransparency.types false in
set_option maxHeartbeats 1000000 in
/-- At the compiled mesh, for any values, from any memory with zero counters: every weakly fair execution of @main on the
    TensorCores terminates; the result then holds the mean of the difference of the two result columns as the proof
    data's arrays have them after the last write-back, and the argument is unchanged. -/
theorem run_main : θ_run (defs (F := F)) (onTc (τ := τ) (main (F := F))) ⟨m, fun _ => 0, ρ⟩ (fun r => ∀ c : Dev nD,
      r.2.mem ((c.tc : Thread nD τ).loc main_v9) = HostDefs.tailT ((dats m 0 c).arrAt 2 cfg0.N) ((dats m 0 c).arrAt 3 cfg0.N)
      ∧ r.2.mem ((c.tc : Thread nD τ).loc main_arg0) = m ((c.tc : Thread nD τ).loc main_arg0)) :=
  Pipeline.θ_run_region_noSem_pf_tail (fun p => (cfgs p).toPCfg) (fun p => (cfgs p).toPCfg_adm) (dats m) () cellOf_inj (0 : Fin 1)
    winFacts₀0 (Pipeline.PreFacts.none _) EP defs₀ Variants.none m ρ main (fun _ => Pipeline.chain [StableHlo.seq hostOps1])
    (hbody := fun c => (body_obligation m c).loose)
    (hne := block_pos0) (harr := arr_whole0) (hstage := stage_whole0) (howed := fun _ _ => rfl)
    (u₀ := u₀) (hu₀ := BI.Entails.refl _)
    (V := V m) (hmain := hmain m Variants.none)
    (hsplit := hsplit m) (hpf := fun _ k => k.elim0)
    (X := fun _ => iprop(emp)) (Y := fun _ => iprop(emp)) (Z := fun c => Pipeline.unscopedRest spec0 c (V m c)) (Z' := Zp m)
    (hX := fun c => by
      rw [Pipeline.unscopedRestP_none]
      iintro H
      isplitr; · iempintro
      iexact H)
    (hin := fun c => by
      iintro ⟨-, -, HR⟩
      iapply (hin m c); iexact HR)
    (hout := fun c => by
      iintro H
      isplitr; · iempintro
      iapply (hout m c); iexact H)
    (htail := htail m)
    (QY := fun c s => s.mem ((c.tc : Thread nD τ).loc main_v9) = HostDefs.tailT ((dats m 0 c).arrAt 2 cfg0.N) ((dats m 0 c).arrAt 3 cfg0.N)
      ∧ s.mem ((c.tc : Thread nD τ).loc main_arg0) = m ((c.tc : Thread nD τ).loc main_arg0))
    (hY := fun c s' => by
      unfold Zp
      iintro ⟨-, ⟨H0, H9⟩, HSI⟩
      imodintro
      icombine HSI H0 gives %h0
      icombine HSI H9 gives %h9
      isplitr
      · ipureintro; exact ⟨Buf.eq_of_forall_mem_univ h9, (Buf.eq_of_forall_mem_univ h0).trans (V_main_arg0 m c)⟩
      iexact HSI)
    (hQ := fun s h c => (h c).2.2)

/-- info: 'Cert.KernelIdeal.Hand.run_main' depends on axioms: [propext, Classical.choice, Quot.sound] -/
#guard_msgs in #print axioms run_main

/-- The frame: the argument array ends as the launch found it. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run_main m ρ)

end Cert.KernelIdeal.Hand

end
-- ==== Proof.CarriedBits.lean ====
/-
  One grid point's effect on the three carried columns (running maximum `m`, running denominator `l`, the label's
  similarity `p`) as a pure function of the point's row block and column tile, and what the two output blocks receive
  at a row block's last tile.
-/
import proofs.«166013_j38044820308458_2_alg».proof.Proof.Gen.Kernel.Skeleton

noncomputable section

namespace Cert.Kernel.Carried

open Idealize.ShloMosaic Cert.Kernel Cert.Kernel.Gen

variable {F : FTy → Type} [FloatOps F]

/-- The three carried columns of one row block. -/
structure Scr (F : FTy → Type) where
  m : FVec F S2048x1 .f32
  l : FVec F S2048x1 .f32
  p : FVec F S2048x1 .f32

/-- What the first tile of a row block starts from: `(-∞, 0, 0)`. -/
def init : Scr F := ⟨k0_pay7, k0_pay8, k0_pay9⟩

/-- One tile: the new maximum, the rescaled denominator plus the tile's exponentials, the label's similarity added. -/
def upd (i : grid0.Coords) (A : FVec F S2048x768 .bf16) (B : FVec F S512x768 .bf16) (s : Scr F) : Scr F :=
  ⟨k0_pay4 (k0_pay12 i A B) k0_pay14 s.m,
   k0_pay3 (k0_pay12 i A B) k0_pay14 s.m s.m s.l,
   k0_pay13 i A B s.p⟩

/-- The block of log-sum-exps written at the last tile. -/
def out2 (s : Scr F) : FVec F S2048x1 .f32 := k0_pay5 s.m s.l
/-- The block of label logits written at the last tile. -/
def out3 (s : Scr F) : FVec F S2048x1 .f32 := k0_pay6 s.p

end Cert.Kernel.Carried

end
-- ==== Proof.BFrame.lean ====
/-
  What the kernel program's run needs besides its body, stated for the launch theorem's fields: the host lines around the
  region, the contents the region is entered with, the windows' blocks read off them, the two conditions of the body
  in closed form over the grid, and where the two output windows are idle.
-/
import proofs.«166013_j38044820308458_2_alg».proof.Proof.Gen.Kernel.Launch
import proofs.«166013_j38044820308458_2_alg».proof.Proof.Gen.Kernel.Skeleton
import proofs.«166013_j38044820308458_2_alg».proof.Proof.Gen.Kernel.Points
import proofs.«166013_j38044820308458_2_alg».proof.Proof.CarriedBits
import Idealize.ShloMosaic.Lib.Pipeline.FrameBody
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered, as a valuation: after the eleven host operations before it. -/
abbrev V0 (c : Dev nD) : Valuation τ sig (Elt F) := StableHlo.after (List.flatten [hostOps0, hostOps0_1]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the two stretches of host lines, the region, and the last stretch: it reduces to the region continued by
    the last stretch, at the contents after the first two. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1] [hostOps1] ⟨hostOps0_sub, hostOps0_1_sub⟩
    ⟨hostOps0_fresh, hostOps0_1_fresh⟩ main_chain

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's two conditions -/

/-- The condition of the body's first `scf.if` (the column tile is the first). -/
abbrev cond0 (i : grid0.Coords) : Prop := (Scalar.cmpi .ne (Scalar.extui (Scalar.cmpi .eq (BitVec.ofNat 32 (i 1).val) 0#32)) 0#32) = 1#1
theorem hcond0 : ∀ t : Fin cfg0.N, cond0 (grid0.coords t) ↔ t.val % 16 = 0 :=
  (by decide +kernel : ∀ t : Fin grid0.N, cond0 (grid0.coords t) ↔ t.val % 16 = 0)
/-- The condition of its second (the column tile is the last). -/
abbrev cond1 (i : grid0.Coords) : Prop := k0_cond2 i = 1#1
theorem hcond1 : ∀ t : Fin cfg0.N, cond1 (grid0.coords t) ↔ t.val % 16 = 15 :=
  (by decide +kernel : ∀ t : Fin grid0.N, cond1 (grid0.coords t) ↔ t.val % 16 = 15)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
theorem idleAt2 : ∀ t : Fin cfg0.N, ¬cond1 (grid0.coords t) → cfg0.idle 2 (grid0.coords t) = true := by decide +kernel
theorem idleAt3 : ∀ t : Fin cfg0.N, ¬cond1 (grid0.coords t) → cfg0.idle 3 (grid0.coords t) = true := by decide +kernel
theorem liveAt2 : ∀ t : Fin cfg0.N, cond1 (grid0.coords t) → cfg0.idle 2 (grid0.coords t) = false := by decide +kernel
theorem liveAt3 : ∀ t : Fin cfg0.N, cond1 (grid0.coords t) → cfg0.idle 3 (grid0.coords t) = false := by decide +kernel
theorem noFlush2 : ∀ t : Fin cfg0.N, ¬cond1 (grid0.coords t) → (cfg0.win 2).flush t = false := by decide +kernel
theorem noFlush3 : ∀ t : Fin cfg0.N, ¬cond1 (grid0.coords t) → (cfg0.win 3).flush t = false := by decide +kernel

/-- Each window's current staging memref at point `t`, spelled as the pipeline passes it, and its wholeness. -/
abbrev ms0 (t : Fin cfg0.N) : Memref sig .tc .vmem S2048x768 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x768 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x1 .f32 := win0_3.stage (cfg0.slots t 3)
abbrev hs3 (t : Fin cfg0.N) : (ms3 t).IsWhole := hstage0_3 ((cfg0.slots t 3).cast nbuf0_3)
/-- The three scratch operands. -/
abbrev scM0 : Memref sig .tc .vmem S2048x1 .f32 := Memref.whole cc0_scratch0
abbrev scM1 : Memref sig .tc .vmem S2048x1 .f32 := Memref.whole cc0_scratch1
abbrev scM2 : Memref sig .tc .vmem S2048x1 .f32 := Memref.whole cc0_scratch2

end Cert.Kernel.Hand

end
-- ==== Proof.BDat.lean ====
/-
  What the three carried columns hold after each grid point, and the proof data of the one pipeline: the arrays as the
  region finds them, each input window's buffer at its block, the two output windows' at the columns' final forms, the
  invariant the three scratch buffers at the point before's columns.
-/
import proofs.«166013_j38044820308458_2_alg».proof.Proof.BFrame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The carried columns after the body at position `n`: one tile's update, from the start values at the first tile of a
    row block, else from what the position before left. -/
def scrAt (c : Dev nD) : (n : ℕ) → n < cfg0.N → Carried.Scr F
  | 0, h => Carried.upd (grid0.coords ⟨0, h⟩) (iblk m c 0 ⟨0, h⟩) (iblk m c 1 ⟨0, h⟩) Carried.init
  | n + 1, h => Carried.upd (grid0.coords ⟨n + 1, h⟩) (iblk m c 0 ⟨n + 1, h⟩) (iblk m c 1 ⟨n + 1, h⟩)
      (if (n + 1) % 16 = 0 then Carried.init else scrAt c n (Nat.lt_of_succ_lt h))

/-- At the first tile of a row block the columns restart. -/
theorem scrAt_first (c : Dev nD) (t : Fin cfg0.N) (h : t.val % 16 = 0) :
    scrAt m c t.val t.isLt = Carried.upd (grid0.coords t) (iblk m c 0 t) (iblk m c 1 t) Carried.init := by
  obtain ⟨n, hn⟩ := t
  cases n with
  | zero => rfl
  | succ n => exact congrArg (Carried.upd _ _ _) (if_pos h)

/-- At a later tile they continue from the position before. -/
theorem scrAt_next (c : Dev nD) (t : Fin cfg0.N) (h : t.val % 16 ≠ 0) :
    scrAt m c t.val t.isLt = Carried.upd (grid0.coords t) (iblk m c 0 t) (iblk m c 1 t)
      (scrAt m c (t.val - 1) (Nat.lt_of_le_of_lt (Nat.sub_le _ _) t.isLt)) := by
  obtain ⟨n, hn⟩ := t
  cases n with
  | zero => exact absurd (Nat.zero_mod _) h
  | succ n => exact congrArg (Carried.upd _ _ _) (if_neg h)

/-- The region invariant before position `n`: the three scratch buffers at anything before the first point, afterwards
    at the columns the position before left. -/
def PhiS (c : Dev nD) : (n : ℕ) → n ≤ cfg0.N → sProp 𝕄
  | 0, _ => iprop((∃ d, owns (c : Thread nD τ) scM0 fullShare d) ∗ (∃ d, owns (c : Thread nD τ) scM1 fullShare d) ∗ (∃ d, owns (c : Thread nD τ) scM2 fullShare d))
  | n + 1, hn => iprop(owns (c : Thread nD τ) scM0 fullShare (scrAt m c n hn).m ∗ owns (c : Thread nD τ) scM1 fullShare (scrAt m c n hn).l
      ∗ owns (c : Thread nD τ) scM2 fullShare (scrAt m c n hn).p)

theorem PhiS_zero (c : Dev nD) (n : ℕ) (h : n ≤ cfg0.N) (hz : n = 0) :
    PhiS m c n h = iprop((∃ d, owns (c : Thread nD τ) scM0 fullShare d) ∗ (∃ d, owns (c : Thread nD τ) scM1 fullShare d) ∗ (∃ d, owns (c : Thread nD τ) scM2 fullShare d)) := by
  subst hz; rfl

theorem PhiS_succ (c : Dev nD) (n : ℕ) (hn : n < cfg0.N) :
    PhiS m c (n + 1) hn = iprop(owns (c : Thread nD τ) scM0 fullShare (scrAt m c n hn).m ∗ owns (c : Thread nD τ) scM1 fullShare (scrAt m c n hn).l
      ∗ owns (c : Thread nD τ) scM2 fullShare (scrAt m c n hn).p) := rfl

theorem PhiS_pos (c : Dev nD) (n : ℕ) (h : n ≤ cfg0.N) (hz : n ≠ 0) :
    PhiS m c n h = iprop(owns (c : Thread nD τ) scM0 fullShare (scrAt m c (n - 1) (by omega)).m ∗ owns (c : Thread nD τ) scM1 fullShare (scrAt m c (n - 1) (by omega)).l
      ∗ owns (c : Thread nD τ) scM2 fullShare (scrAt m c (n - 1) (by omega)).p) := by
  cases n with
  | zero => exact absurd rfl hz
  | succ n => rfl

/-- The proof data of the one pipeline on core `c`. The two input windows read one array: each holds half of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => Carried.out2 (scrAt m c t.val t.isLt)
    | ⟨3, _⟩ => Carried.out3 (scrAt m c t.val t.isLt)
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = Carried.out2 (scrAt m c t.val t.isLt) := by dsimp only [dats]
theorem after3 (c : Dev nD) (t : Fin cfg0.N) : (dats m 0 c).after 3 t = Carried.out3 (scrAt m c t.val t.isLt) := by dsimp only [dats]

/-- Each input window's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)

end Cert.Kernel.Hand

end
-- ==== Proof.BBody.lean ====
/-
  The kernel body on any whole staging and scratch memrefs, in its three cases (first column tile, a middle one, the
  last): from the two input blocks and the carried columns it runs to the columns updated by one tile, and at the last
  tile leaves the two output blocks.
-/
import proofs.«166013_j38044820308458_2_alg».proof.Proof.BFrame
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Loads and stores through a whole buffer -/

section Whole

variable {Val : EltTy → Type} [∀ e, Nonempty (Val e)] {sig' : RefSig} {κ' : Kind} {sp : Space} {S : Shape} {e : EltTy}

theorem hz2 : (![0, 0] : Fin 2 → Nat) = fun _ => 0 := funext fun a => by fin_cases a <;> rfl

/-- A store through the whole buffer, last, leaves its payload whatever the earlier stores were. -/
theorem read_writes_cons_whole (v : View sig' κ' sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self .., View.mem_set_unit_zero h inb y⟩),
    View.canon_cons_unit_zero h inb w L]

/-- A load through the whole buffer after such a store reads the payload. -/
theorem readCov_cons_whole (v : View sig' κ' sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self .., View.mem_set_unit_zero h inb y⟩),
    View.canon_cons_unit_zero h inb w L, View.ld_unit_zero h inb]

/-- A load through the whole buffer reads its contents. -/
theorem readAt_whole (v : View sig' κ' sp S e) (f : v.ty.Contents Val) {off : Fin S.rank → Nat} (h : off = fun _ => 0)
    (inb : ∀ a, off a + S.size a ≤ S.size a) :
    v.readAt Val (Rect.unit off S.size inb).toLoadRect f = v.read Val f := by
  rw [View.readAt_eq_ld, View.ld_unit_zero h inb]

end Whole

/-! ## The three runs -/

set_option maxHeartbeats 2000000 in
/-- The first column tile of a row block: the scratch buffers hold anything, are reset, then updated. -/
theorem run_A (c : Dev nD) (i : grid0.Coords) (arg2 : Memref sig .tc .vmem S2048x768 .bf16) (harg2 : arg2.IsWhole) (arg3 : Memref sig .tc .vmem S512x768 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole)
    (hc0 : cond0 i) (hc1 : ¬cond1 i) (A : Vec F S2048x768 .bf16) (B : Vec F S512x768 .bf16)
    (E : Set ℕ) (K : PUnit → sProp 𝕄) :
    iprop(owns (c : Thread nD τ) arg2 fullShare A ∗ owns (c : Thread nD τ) arg3 fullShare B
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare A ∗ owns (c : Thread nD τ) arg3 fullShare B
            ∗ owns (c : Thread nD τ) arg6 fullShare (Carried.upd i A B Carried.init).m ∗ owns (c : Thread nD τ) arg7 fullShare (Carried.upd i A B Carried.init).l
            ∗ owns (c : Thread nD τ) arg8 fullShare (Carried.upd i A B Carried.init).p) -∗ K ⟨⟩))
      ⊢ wp frame (wpE (defs₀ (F := F)) Variants.none c none) E (cc0__sim_lse_kernel i arg2 harg2 arg3 harg3 arg4 harg4 arg5 harg5 arg6 harg6 arg7 harg7 arg8 harg8) K := by
  simp only [cc0__sim_lse_kernel_eq_skeleton]; unfold cc0__sim_lse_kernel_skel
  simp only [k0_part1_eq_skeleton]; unfold k0_part1_skel
  unfold owns
  iintro ⟨⟨%f2, %hf2, H2⟩, ⟨%f3, %hf3, H3⟩, ⟨%d6, %f6, -, H6⟩, ⟨%d7, %f7, -, H7⟩, ⟨%d8, %f8, -, H8⟩, Hk⟩
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H6]
  · iexists _; isplitr
    swap; · iexact H6
    ipureintro
    sl_unfold_run_names
    (try dsimp only)
    simp only [read_writes_cons_whole (S := S2048x1) _ _ hz2, readCov_cons_whole (S := S2048x1) _ hz2, readAt_whole (S := S2048x1) _ _ hz2, readAt_whole (S := S2048x768) _ _ hz2, readAt_whole (S := S512x768) _ _ hz2, hf2, hf3]
    rfl
  isplitl [H7]
  · iexists _; isplitr
    swap; · iexact H7
    ipureintro
    sl_unfold_run_names
    (try dsimp only)
    simp only [read_writes_cons_whole (S := S2048x1) _ _ hz2, readCov_cons_whole (S := S2048x1) _ hz2, readAt_whole (S := S2048x1) _ _ hz2, readAt_whole (S := S2048x768) _ _ hz2, readAt_whole (S := S512x768) _ _ hz2, hf2, hf3]
    rfl
  · iexists _; isplitr
    swap; · iexact H8
    ipureintro
    sl_unfold_run_names
    (try dsimp only)
    simp only [read_writes_cons_whole (S := S2048x1) _ _ hz2, readCov_cons_whole (S := S2048x1) _ hz2, readAt_whole (S := S2048x1) _ _ hz2, readAt_whole (S := S2048x768) _ _ hz2, readAt_whole (S := S512x768) _ _ hz2, hf2, hf3]
    rfl

set_option maxHeartbeats 2000000 in
/-- A middle column tile: the columns are updated. -/
theorem run_B (c : Dev nD) (i : grid0.Coords) (arg2 : Memref sig .tc .vmem S2048x768 .bf16) (harg2 : arg2.IsWhole) (arg3 : Memref sig .tc .vmem S512x768 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole)
    (hc0 : ¬cond0 i) (hc1 : ¬cond1 i) (A : Vec F S2048x768 .bf16) (B : Vec F S512x768 .bf16) (s : Carried.Scr F)
    (E : Set ℕ) (K : PUnit → sProp 𝕄) :
    iprop(owns (c : Thread nD τ) arg2 fullShare A ∗ owns (c : Thread nD τ) arg3 fullShare B
        ∗ owns (c : Thread nD τ) arg6 fullShare s.m ∗ owns (c : Thread nD τ) arg7 fullShare s.l ∗ owns (c : Thread nD τ) arg8 fullShare s.p
        ∗ (iprop(owns (c : Thread nD τ) arg2 fullShare A ∗ owns (c : Thread nD τ) arg3 fullShare B
            ∗ owns (c : Thread nD τ) arg6 fullShare (Carried.upd i A B s).m ∗ owns (c : Thread nD τ) arg7 fullShare (Carried.upd i A B s).l
            ∗ owns (c : Thread nD τ) arg8 fullShare (Carried.upd i A B s).p) -∗ K ⟨⟩))
      ⊢ wp frame (wpE (defs₀ (F := F)) Variants.none c none) E (cc0__sim_lse_kernel i arg2 harg2 arg3 harg3 arg4 harg4 arg5 harg5 arg6 harg6 arg7 harg7 arg8 harg8) K := by
  simp only [cc0__sim_lse_kernel_eq_skeleton]; unfold cc0__sim_lse_kernel_skel
  simp only [k0_part1_eq_skeleton]; unfold k0_part1_skel
  unfold owns
  iintro ⟨⟨%f2, %hf2, H2⟩, ⟨%f3, %hf3, H3⟩, ⟨%f6, %hf6, H6⟩, ⟨%f7, %hf7, H7⟩, ⟨%f8, %hf8, H8⟩, Hk⟩
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H6]
  · iexists _; isplitr
    swap; · iexact H6
    ipureintro
    sl_unfold_run_names
    (try dsimp only)
    simp only [read_writes_cons_whole (S := S2048x1) _ _ hz2, readCov_cons_whole (S := S2048x1) _ hz2, readAt_whole (S := S2048x1) _ _ hz2, readAt_whole (S := S2048x768) _ _ hz2, readAt_whole (S := S512x768) _ _ hz2, hf2, hf3, hf6, hf7, hf8]
    rfl
  isplitl [H7]
  · iexists _; isplitr
    swap; · iexact H7
    ipureintro
    sl_unfold_run_names
    (try dsimp only)
    simp only [read_writes_cons_whole (S := S2048x1) _ _ hz2, readCov_cons_whole (S := S2048x1) _ hz2, readAt_whole (S := S2048x1) _ _ hz2, readAt_whole (S := S2048x768) _ _ hz2, readAt_whole (S := S512x768) _ _ hz2, hf2, hf3, hf6, hf7, hf8]
    rfl
  · iexists _; isplitr
    swap; · iexact H8
    ipureintro
    sl_unfold_run_names
    (try dsimp only)
    simp only [read_writes_cons_whole (S := S2048x1) _ _ hz2, readCov_cons_whole (S := S2048x1) _ hz2, readAt_whole (S := S2048x1) _ _ hz2, readAt_whole (S := S2048x768) _ _ hz2, readAt_whole (S := S512x768) _ _ hz2, hf2, hf3, hf6, hf7, hf8]
    rfl

set_option maxHeartbeats 2000000 in
/-- The last column tile: the columns are updated and the two output blocks written from them. -/
theorem run_C (c : Dev nD) (i : grid0.Coords) (arg2 : Memref sig .tc .vmem S2048x768 .bf16) (harg2 : arg2.IsWhole) (arg3 : Memref sig .tc .vmem S512x768 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole)
    (hc0 : ¬cond0 i) (hc1 : cond1 i) (A : Vec F S2048x768 .bf16) (B : Vec F S512x768 .bf16) (s : Carried.Scr F)
    (E : Set ℕ) (K : PUnit → sProp 𝕄) :
    iprop(owns (c : Thread nD τ) arg2 fullShare A ∗ owns (c : Thread nD τ) arg3 fullShare B
        ∗ (∃ d, owns (c : Thread nD τ) arg4 fullShare d) ∗ (∃ d, owns (c : Thread nD τ) arg5 fullShare d)
        ∗ owns (c : Thread nD τ) arg6 fullShare s.m ∗ owns (c : Thread nD τ) arg7 fullShare s.l ∗ owns (c : Thread nD τ) arg8 fullShare s.p
        ∗ (iprop(owns (c : Thread nD τ) arg2 fullShare A ∗ owns (c : Thread nD τ) arg3 fullShare B
            ∗ owns (c : Thread nD τ) arg4 fullShare (Carried.out2 (Carried.upd i A B s)) ∗ owns (c : Thread nD τ) arg5 fullShare (Carried.out3 (Carried.upd i A B s))
            ∗ owns (c : Thread nD τ) arg6 fullShare (Carried.upd i A B s).m ∗ owns (c : Thread nD τ) arg7 fullShare (Carried.upd i A B s).l
            ∗ owns (c : Thread nD τ) arg8 fullShare (Carried.upd i A B s).p) -∗ K ⟨⟩))
      ⊢ wp frame (wpE (defs₀ (F := F)) Variants.none c none) E (cc0__sim_lse_kernel i arg2 harg2 arg3 harg3 arg4 harg4 arg5 harg5 arg6 harg6 arg7 harg7 arg8 harg8) K := by
  simp only [cc0__sim_lse_kernel_eq_skeleton]; unfold cc0__sim_lse_kernel_skel
  simp only [k0_part1_eq_skeleton]; unfold k0_part1_skel
  unfold owns
  iintro ⟨⟨%f2, %hf2, H2⟩, ⟨%f3, %hf3, H3⟩, ⟨%d4, %f4, -, H4⟩, ⟨%d5, %f5, -, H5⟩, ⟨%f6, %hf6, H6⟩, ⟨%f7, %hf7, H7⟩, ⟨%f8, %hf8, H8⟩, Hk⟩
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    sl_unfold_run_names
    (try dsimp only)
    simp only [read_writes_cons_whole (S := S2048x1) _ _ hz2, readCov_cons_whole (S := S2048x1) _ hz2, readAt_whole (S := S2048x1) _ _ hz2, readAt_whole (S := S2048x768) _ _ hz2, readAt_whole (S := S512x768) _ _ hz2, hf2, hf3, hf6, hf7, hf8]
    rfl
  isplitl [H5]
  · iexists _; isplitr
    swap; · iexact H5
    ipureintro
    sl_unfold_run_names
    (try dsimp only)
    simp only [read_writes_cons_whole (S := S2048x1) _ _ hz2, readCov_cons_whole (S := S2048x1) _ hz2, readAt_whole (S := S2048x1) _ _ hz2, readAt_whole (S := S2048x768) _ _ hz2, readAt_whole (S := S512x768) _ _ hz2, hf2, hf3, hf6, hf7, hf8]
    rfl
  isplitl [H6]
  · iexists _; isplitr
    swap; · iexact H6
    ipureintro
    sl_unfold_run_names
    (try dsimp only)
    simp only [read_writes_cons_whole (S := S2048x1) _ _ hz2, readCov_cons_whole (S := S2048x1) _ hz2, readAt_whole (S := S2048x1) _ _ hz2, readAt_whole (S := S2048x768) _ _ hz2, readAt_whole (S := S512x768) _ _ hz2, hf2, hf3, hf6, hf7, hf8]
    rfl
  isplitl [H7]
  · iexists _; isplitr
    swap; · iexact H7
    ipureintro
    sl_unfold_run_names
    (try dsimp only)
    simp only [read_writes_cons_whole (S := S2048x1) _ _ hz2, readCov_cons_whole (S := S2048x1) _ hz2, readAt_whole (S := S2048x1) _ _ hz2, readAt_whole (S := S2048x768) _ _ hz2, readAt_whole (S := S512x768) _ _ hz2, hf2, hf3, hf6, hf7, hf8]
    rfl
  · iexists _; isplitr
    swap; · iexact H8
    ipureintro
    sl_unfold_run_names
    (try dsimp only)
    simp only [read_writes_cons_whole (S := S2048x1) _ _ hz2, readCov_cons_whole (S := S2048x1) _ hz2, readAt_whole (S := S2048x1) _ _ hz2, readAt_whole (S := S2048x768) _ _ hz2, readAt_whole (S := S512x768) _ _ hz2, hf2, hf3, hf6, hf7, hf8]
    rfl

end Cert.Kernel.Hand

end
-- ==== Proof.BObl.lean ====
/-
  The body obligation of the pipeline's proof data: at every grid point, by the case of its column tile.
-/
import proofs.«166013_j38044820308458_2_alg».proof.Proof.BDat
import proofs.«166013_j38044820308458_2_alg».proof.Proof.BBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

/-- After a point, the scratch buffers' named columns may be forgotten. -/
theorem PhiS_forget (c : Dev nD) (n : ℕ) (h : n ≤ cfg0.N) :
    PhiS m c n h ⊢ iprop((∃ d, owns (c : Thread nD τ) scM0 fullShare d) ∗ (∃ d, owns (c : Thread nD τ) scM1 fullShare d) ∗ (∃ d, owns (c : Thread nD τ) scM2 fullShare d)) := by
  by_cases hz : n = 0
  · rw [PhiS_zero m c n h hz]; try exact Idealize.SL.BI.Entails.refl _
  · rw [PhiS_pos m c n h hz]
    iintro ⟨H0, H1, H2⟩
    isplitl [H0]; · iexists _; iexact H0
    isplitl [H1]; · iexists _; iexact H1
    iexists _; iexact H2

set_option maxHeartbeats 1600000 in
/-- The body at any point: the inputs' buffers hold their blocks; the closed forms of the two conditions say which case
    the point is in; the invariant hands the body the scratch buffers at what the point before left (at anything
    before the first point) and takes them back at this point's columns; at the last tile the two output buffers are
    taken back at the columns' final forms, elsewhere untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [liveAt0 t], after0]
  rw [show (dats m 0 c).leavesExact 1 t = owns (c : Thread nD τ) (ms1 t) fullShare ((dats m 0 c).after 1 t) from by
    unfold Dat.leavesExact; rw [liveAt1 t], after1]
  rw [PhiS_castSucc m c t]
  have hN : t.val < 64 := lt_of_lt_of_eq t.isLt (show cfg0.N = 64 from N_0)
  by_cases h0 : t.val % 16 = 0
  · have hc0 : cond0 (grid0.coords t) := (hcond0 t).mpr h0
    have hc1 : ¬cond1 (grid0.coords t) := fun h => by have := (hcond1 t).mp h; omega
    rw [Dat.leavesExact_idle (dats m 0 c) 2 t (idleAt2 t hc1) (noFlush2 t hc1),
      Dat.leavesExact_idle (dats m 0 c) 3 t (idleAt3 t hc1) (noFlush3 t hc1)]
    rw [scrAt_first m c t h0]
    iintro ⟨HΦ, Ho, ⟨%d0, H0⟩, ⟨%d1, H1⟩, H2, H3⟩
    ihave HΦ := (PhiS_forget m c t.val (Nat.le_of_lt t.isLt)) $$ HΦ
    icases HΦ with ⟨HS0, HS1, HS2⟩
    iapply (run_A c (grid0.coords t) (ms0 t) (hs0 t) (ms1 t) (hs1 t) (ms2 t) (hs2 t) (ms3 t) (hs3 t) scM0 (Memref.isWhole_whole _) scM1 (Memref.isWhole_whole _) scM2 (Memref.isWhole_whole _) hc0 hc1 (iblk m c 0 t) (iblk m c 1 t) Set.univ _)
    isplitl [H0]; · iexact H0
    isplitl [H1]; · iexact H1
    isplitl [HS0]; · iexact HS0
    isplitl [HS1]; · iexact HS1
    isplitl [HS2]; · iexact HS2
    iintro ⟨H0, H1, HS0, HS1, HS2⟩
    isplitl [HS0 HS1 HS2]
    · isplitl [HS0]; · iexact HS0
      isplitl [HS1]; · iexact HS1
      iexact HS2
    isplitl [Ho]; · iexact Ho
    isplitl [H0]; · iexact H0
    isplitl [H1]; · iexact H1
    isplitl [H2]; · iexact H2
    iexact H3
  · have hc0 : ¬cond0 (grid0.coords t) := fun h => h0 ((hcond0 t).mp h)
    have hz : t.val ≠ 0 := fun h => h0 (by rw [h])
    rw [PhiS_pos m c _ _ hz]
    rw [scrAt_next m c t h0]
    by_cases h1 : t.val % 16 = 15
    · have hc1 : cond1 (grid0.coords t) := (hcond1 t).mpr h1
      rw [show (dats m 0 c).leavesExact 2 t = owns (c : Thread nD τ) (ms2 t) fullShare ((dats m 0 c).after 2 t) from by
        unfold Dat.leavesExact; rw [liveAt2 t hc1], after2]
      rw [show (dats m 0 c).leavesExact 3 t = owns (c : Thread nD τ) (ms3 t) fullShare ((dats m 0 c).after 3 t) from by
        unfold Dat.leavesExact; rw [liveAt3 t hc1], after3]
      rw [scrAt_next m c t h0]
      iintro ⟨⟨HS0, HS1, HS2⟩, Ho, ⟨%d0, H0⟩, ⟨%d1, H1⟩, ⟨%d2, H2⟩, ⟨%d3, H3⟩⟩
      iapply (run_C c (grid0.coords t) (ms0 t) (hs0 t) (ms1 t) (hs1 t) (ms2 t) (hs2 t) (ms3 t) (hs3 t) scM0 (Memref.isWhole_whole _) scM1 (Memref.isWhole_whole _) scM2 (Memref.isWhole_whole _) hc0 hc1 (iblk m c 0 t) (iblk m c 1 t) _ Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      isplitl [HS2]; · iexact HS2
      iintro ⟨H0, H1, H2, H3, HS0, HS1, HS2⟩
      isplitl [HS0 HS1 HS2]
      · isplitl [HS0]; · iexact HS0
        isplitl [HS1]; · iexact HS1
        iexact HS2
      isplitl [Ho]; · iexact Ho
      isplitl [H0]; · iexact H0
      isplitl [H1]; · iexact H1
      isplitl [H2]; · iexact H2
      iexact H3
    · have hc1 : ¬cond1 (grid0.coords t) := fun h => h1 ((hcond1 t).mp h)
      rw [Dat.leavesExact_idle (dats m 0 c) 2 t (idleAt2 t hc1) (noFlush2 t hc1),
        Dat.leavesExact_idle (dats m 0 c) 3 t (idleAt3 t hc1) (noFlush3 t hc1)]
      iintro ⟨⟨HS0, HS1, HS2⟩, Ho, ⟨%d0, H0⟩, ⟨%d1, H1⟩, H2, H3⟩
      iapply (run_B c (grid0.coords t) (ms0 t) (hs0 t) (ms1 t) (hs1 t) (ms2 t) (hs2 t) (ms3 t) (hs3 t) scM0 (Memref.isWhole_whole _) scM1 (Memref.isWhole_whole _) scM2 (Memref.isWhole_whole _) hc0 hc1 (iblk m c 0 t) (iblk m c 1 t) _ Set.univ _)
      isplitl [H0]; · iexact H0
      isplitl [H1]; · iexact H1
      isplitl [HS0]; · iexact HS0
      isplitl [HS1]; · iexact HS1
      isplitl [HS2]; · iexact HS2
      iintro ⟨H0, H1, HS0, HS1, HS2⟩
      isplitl [HS0 HS1 HS2]
      · isplitl [HS0]; · iexact HS0
        isplitl [HS1]; · iexact HS1
        iexact HS2
      isplitl [Ho]; · iexact Ho
      isplitl [H0]; · iexact H0
      isplitl [H1]; · iexact H1
      isplitl [H2]; · iexact H2
      iexact H3

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.BLaunch.lean ====
/-
  The run of the kernel program: the host lines before the region, the region by the launch theorem for windows that
  share an array (the two input windows each hold half of the normalised matrix), and the host lines after it, which
  read the two result columns. At the end the result holds the mean of the columns' difference as the proof data's
  arrays have them, and the argument is unchanged.
-/
import proofs.«166013_j38044820308458_2_alg».proof.Proof.BObl
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.StableHlo (held)

variable (m : (ℓ : Loc nD τ sig) → Buf (Elt F) ℓ) (ρ : Dev nD → PrngReg)

/-- The result from the kernel's two result columns: the sum of their difference over the 8192 rows, divided by 8192. -/
def tailT (a b : FVec F S8192x1 .f32) : FVec F S_ .f32 :=
  Host.divf (Host.reduceAdd (subf a b) (constant S_ .f32 0x00000000#32) reducesTo_S8192x1_S_d0_1 h_S_)
    (constant S_ .f32 0x46000000#32)

abbrev EP : Emb (UR sig nD τ) (MT nD τ sig Unit (Elt F) ℕ (UR sig nD τ) ℕ) := emb₁

/-- The launch element of the pipeline's staging cells. -/
def u₀ : UR sig nD τ := initOf (Pipeline.cells cfgs cellOf_inj) (Pipeline.launchToks cfgs cellOf_inj)

/-! ## The arrays at the region's entry -/

/-- The distinct buffers behind the four windows' arrays. -/
theorem arrBufs0_eq (c : Dev nD) (W : (b : Ref sig .tc) → Buf (Elt F) ((c : Thread nD τ).loc b)) :
    (Pipeline.arrBufs spec0 c W : sProp 𝕄)
      = iprop((((c : Thread nD τ).loc main_v5) ↦{fullShare} W main_v5) ∗ (((c : Thread nD τ).loc main_v6_0) ↦{fullShare} W main_v6_0)
          ∗ (((c : Thread nD τ).loc main_v6_1) ↦{fullShare} W main_v6_1)) :=
  bigSep_eq_bigSepL_of_eq [main_v5, main_v6_0, main_v6_1] (by decide) (by decide) _

/-- The proof data's arrays, window by window, each a whole buffer at the window's share. -/
theorem arrays0_eq (c : Dev nD) (G : (w : Fin cfg0.W) → Buf (Elt F) ((cfg0.win w).arr.view.loc (c : Thread nD τ))) :
    (dats m 0 c).arrays G
      = iprop((((c : Thread nD τ).loc main_v5) ↦{fullShare.left} G 0) ∗ (((c : Thread nD τ).loc main_v5) ↦{fullShare.right} G 1)
          ∗ (((c : Thread nD τ).loc main_v6_0) ↦{fullShare} G 2) ∗ (((c : Thread nD τ).loc main_v6_1) ↦{fullShare} G 3)) := by
  unfold Dat.arrays
  rw [bigSep_W0, (arr_whole0 0).set_eq_univ, (arr_whole0 2).set_eq_univ, (arr_whole0 3).set_eq_univ]
  rfl

/-- At entry the normalised matrix is split between the two input windows. -/
theorem hsplit (c : Dev nD) : (Pipeline.arrBufs spec0 c (V m c) : sProp 𝕄) ⊢ (dats m 0 c).arrays ((dats m 0 c).arrAt · 0) := by
  rw [arrBufs0_eq, arrays0_eq]
  iintro ⟨H5, H60, H61⟩
  ihave H5 := (pointsTo_share (PosShare.mem_left_op_right fullShare)).1 $$ H5
  icases H5 with ⟨H5l, H5r⟩
  isplitl [H5l]; · iexact H5l
  isplitl [H5r]; · iexact H5r
  isplitl [H60]; · iexact H60
  iexact H61

/-! ## The invariant at the region's two ends -/

theorem scopedRest0_owns (c : Dev nD) :
    (Pipeline.scopedRest spec0 c : sProp 𝕄)
      = iprop((∃ d, owns (c : Thread nD τ) scM0 fullShare d) ∗ (∃ d, owns (c : Thread nD τ) scM1 fullShare d) ∗ (∃ d, owns (c : Thread nD τ) scM2 fullShare d)) := by
  rw [scopedRest0_eq]; simp only [scM0, scM1, scM2, owns_whole]; try rfl

theorem hin (c : Dev nD) : (Pipeline.scopedRest spec0 c : sProp 𝕄) ⊢ (dats m 0 c).Φ 0 := by
  rw [show (dats m 0 c).Φ 0 = PhiS m c 0 (Nat.zero_le _) from rfl, PhiS_zero m c 0 _ rfl, scopedRest0_owns]
  try exact Idealize.SL.BI.Entails.refl _

theorem hout (c : Dev nD) : (dats m 0 c).Φ (Fin.last cfg0.N) ⊢ (Pipeline.scopedRest spec0 c : sProp 𝕄) := by
  rw [show (dats m 0 c).Φ (Fin.last cfg0.N) = PhiS m c (Fin.last cfg0.N).val (Nat.le_of_lt_succ (Fin.last cfg0.N).isLt) from rfl, scopedRest0_owns]
  exact PhiS_forget m c _ _

/-! ## The lines after the region -/

/-- The references the last five host operations touch. -/
abbrev tailL : List (Ref sig .tc) := [main_v6_0, main_v6_1, main_v7, main_cst_0, main_v8, main_cst_1, main_v9]
def tailS : Finset (DevRef τ sig) := (tailL.map (Proc.devRef .tc)).toFinset

theorem held_tailS (c : Dev nD) (W : Valuation τ sig (Elt F)) :
    (held (c.tc : Thread nD τ) tailS W : sProp 𝕄)
      = iprop((((c : Thread nD τ).loc main_v6_0) ↦{fullShare} W (Proc.devRef .tc main_v6_0)) ∗ (((c : Thread nD τ).loc main_v6_1) ↦{fullShare} W (Proc.devRef .tc main_v6_1))
          ∗ (((c : Thread nD τ).loc main_v7) ↦{fullShare} W (Proc.devRef .tc main_v7)) ∗ (((c : Thread nD τ).loc main_cst_0) ↦{fullShare} W (Proc.devRef .tc main_cst_0))
          ∗ (((c : Thread nD τ).loc main_v8) ↦{fullShare} W (Proc.devRef .tc main_v8)) ∗ (((c : Thread nD τ).loc main_cst_1) ↦{fullShare} W (Proc.devRef .tc main_cst_1))
          ∗ (((c : Thread nD τ).loc main_v9) ↦{fullShare} W (Proc.devRef .tc main_v9))) :=
  bigSep_eq_bigSepL_of_eq (tailL.map (Proc.devRef .tc)) rfl (by decide) _

theorem tail_sub : ∀ ops ∈ ([hostOps1] : List (List (HloOp τ sig (Elt F)))), ∀ op ∈ ops, op.bufs ⊆ tailS := by
  intro ops hops op hop
  simp only [List.mem_cons, List.mem_nil_iff, or_false] at hops
  subst hops
  simp only [hostOps1, List.mem_cons, List.mem_nil_iff, or_false] at hop
  rcases hop with rfl | rfl | rfl | rfl | rfl
  all_goals (first | rw [StableHlo.binary_bufs] | rw [StableHlo.nullary_bufs]) <;> decide

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- The contents the last lines start from: the two result columns as the region left them, the rest as it found them. -/
def Wt (c : Dev nD) : Valuation τ sig (Elt F) :=
  Function.update (Function.update (V0 m c) (Proc.devRef .tc main_v6_0) ((dats m 0 c).arrAt 2 cfg0.N))
    (Proc.devRef .tc main_v6_1) ((dats m 0 c).arrAt 3 cfg0.N)

theorem Wt_v6_0 (c : Dev nD) : Wt m c (Proc.devRef .tc main_v6_0) = (dats m 0 c).arrAt 2 cfg0.N := by
  unfold Wt; rw [Function.update_of_ne (StableHlo.devRef_ne_of_ne (by decide)), Function.update_self]
theorem Wt_v6_1 (c : Dev nD) : Wt m c (Proc.devRef .tc main_v6_1) = (dats m 0 c).arrAt 3 cfg0.N := by
  unfold Wt; rw [Function.update_self]
theorem Wt_other (c : Dev nD) (b : Ref sig .tc) (h0 : b ≠ main_v6_0) (h1 : b ≠ main_v6_1) : Wt m c (Proc.devRef .tc b) = V m c b := by
  unfold Wt; rw [Function.update_of_ne (StableHlo.devRef_ne_of_ne h1), Function.update_of_ne (StableHlo.devRef_ne_of_ne h0)]

/-- What the last lines leave, from any contents: the result is the mean of the two columns' difference, the columns are
    as they were. -/
theorem after_v9 (W : Valuation τ sig (Elt F)) :
    StableHlo.after (hostOps1 (F := F)) W (Proc.devRef .tc main_v9) = tailT (W (Proc.devRef .tc main_v6_0)) (W (Proc.devRef .tc main_v6_1)) := by
  unfold hostOps1
  after_results
  rfl
theorem after_v6_0 (W : Valuation τ sig (Elt F)) :
    StableHlo.after (hostOps1 (F := F)) W (Proc.devRef .tc main_v6_0) = W (Proc.devRef .tc main_v6_0) := by
  unfold hostOps1
  after_results
theorem after_v6_1 (W : Valuation τ sig (Elt F)) :
    StableHlo.after (hostOps1 (F := F)) W (Proc.devRef .tc main_v6_1) = W (Proc.devRef .tc main_v6_1) := by
  unfold hostOps1
  after_results

/-- The argument is as the launch found it when the region is entered. -/
theorem V_main_arg0 (c : Dev nD) : V m c main_arg0 = m ((c : Thread nD τ).loc main_arg0) := by
  show StableHlo.after (hostOps0 ++ (hostOps0_1 ++ [])) (fun b => m (c, b)) (Proc.devRef .tc main_arg0) = _
  rw [List.append_nil, StableHlo.after_append]
  unfold hostOps0 hostOps0_1
  after_results

/-- What is handed back after the last lines beside the arrays: the argument and the result. -/
def Zp (c : Dev nD) : sProp 𝕄 :=
  iprop((((c : Thread nD τ).loc main_arg0) ↦{fullShare} V m c main_arg0)
    ∗ (((c : Thread nD τ).loc main_v9) ↦{fullShare} tailT ((dats m 0 c).arrAt 2 cfg0.N) ((dats m 0 c).arrAt 3 cfg0.N)))

set_option backward.isDefEq.respectTransparency.types false in
set_option maxHeartbeats 1000000 in
/-- From the region's exit the last five host lines run, holding the two result columns and their own buffers, and
    hand the arrays back as they were with the result at the mean of the columns' difference. -/
theorem htail (c : Dev nD) (Q' : PUnit → sProp 𝕄) :
    iprop((iprop((dats m 0 c).arrays ((dats m 0 c).arrAt · cfg0.N) ∗ Zp m c) -∗ Q' ⟨⟩)
        ∗ boundary (c.tc : Thread nD τ) ∗ (dats m 0 c).arrays ((dats m 0 c).arrAt · cfg0.N) ∗ Pipeline.unscopedRest spec0 c (V m c))
      ⊢ wp frame (wpE (Pipeline.defs (pcfgs (F := F)) defs₀) (Variants.lift Variants.none) (c.tc : Thread nD τ) none) Set.univ
          (Pipeline.chain [StableHlo.seq hostOps1]) Q' := by
  have hstep := Pipeline.wp_seqs_then (Ix := Unit) (Name := ℕ) (U := UR sig nD τ) (Lvl := ℕ) (pcfgs (F := F)) defs₀ Variants.none c tailS [] [hostOps1]
    tail_sub tail_fresh (Wt m c) (K := Q')
  simp only [List.map_cons, List.map_nil, List.cons_append, List.nil_append, List.flatten_cons, List.flatten_nil, List.append_nil] at hstep
  rw [held_tailS, held_tailS, after_v6_0, after_v6_1, after_v9, Wt_v6_0, Wt_v6_1, Wt_other m c main_v7 (by decide) (by decide),
    Wt_other m c main_cst_0 (by decide) (by decide), Wt_other m c main_v8 (by decide) (by decide),
    Wt_other m c main_cst_1 (by decide) (by decide), Wt_other m c main_v9 (by decide) (by decide)] at hstep
  rw [arrays0_eq, unscopedRest0_eq]
  unfold Zp
  iintro ⟨Hk, Hb, ⟨HA0, HA1, HA2, HA3⟩, ⟨Harg0, Hx1, Hx2, Hx3, Hx4, Hx5, Hx6, Hx7, Hx8, Hx9, Hx10, Hv7, Hcst0, Hv8, Hcst1, Hv9⟩⟩
  iapply (hstep) $$ [Hb HA2 HA3 Hv7 Hcst0 Hv8 Hcst1 Hv9]
  · isplitl [Hb]; · iexact Hb
    isplitl [HA2]; · iexact HA2
    isplitl [HA3]; · iexact HA3
    isplitl [Hv7]; · iexact Hv7
    isplitl [Hcst0]; · iexact Hcst0
    isplitl [Hv8]; · iexact Hv8
    isplitl [Hcst1]; · iexact Hcst1
    iexact Hv9
  iintro ⟨Hb, HA2, HA3, -, -, -, -, Hv9⟩
  rw [Pipeline.chain_nil, wp_pure]
  imodintro
  iapply Hk
  isplitl [HA0 HA1 HA2 HA3]
  · isplitl [HA0]; · iexact HA0
    isplitl [HA1]; · iexact HA1
    isplitl [HA2]; · iexact HA2
    iexact HA3
  isplitl [Harg0]; · iexact Harg0
  iexact Hv9

/-! ## The run -/

set_option backward.isDefEq.respectTransparency.types false in
set_option maxHeartbeats 1000000 in
/-- At the compiled mesh, for any values, from any memory with zero counters: every weakly fair execution of @main on the
    TensorCores terminates; the result then holds the mean of the difference of the two result columns as the proof
    data's arrays have them after the last write-back, and the argument is unchanged. -/
theorem run_main : θ_run (defs (F := F)) (onTc (τ := τ) (main (F := F))) ⟨m, fun _ => 0, ρ⟩ (fun r => ∀ c : Dev nD,
      r.2.mem ((c.tc : Thread nD τ).loc main_v9) = tailT ((dats m 0 c).arrAt 2 cfg0.N) ((dats m 0 c).arrAt 3 cfg0.N)
      ∧ r.2.mem ((c.tc : Thread nD τ).loc main_arg0) = m ((c.tc : Thread nD τ).loc main_arg0)) :=
  Pipeline.θ_run_region_noSem_pf_tail (fun p => (cfgs p).toPCfg) (fun p => (cfgs p).toPCfg_adm) (dats m) () cellOf_inj (0 : Fin 1)
    winFacts₀0 (Pipeline.PreFacts.none _) EP defs₀ Variants.none m ρ main (fun _ => Pipeline.chain [StableHlo.seq hostOps1])
    (hbody := fun c => (body_obligation m c).loose)
    (hne := block_pos0) (harr := arr_whole0) (hstage := stage_whole0) (howed := fun _ _ => rfl)
    (u₀ := u₀) (hu₀ := BI.Entails.refl _)
    (V := V m) (hmain := hmain m Variants.none)
    (hsplit := hsplit m) (hpf := fun _ k => k.elim0)
    (X := fun _ => iprop(emp)) (Y := fun _ => iprop(emp)) (Z := fun c => Pipeline.unscopedRest spec0 c (V m c)) (Z' := Zp m)
    (hX := fun c => by
      rw [Pipeline.unscopedRestP_none]
      iintro H
      isplitr; · iempintro
      iexact H)
    (hin := fun c => by
      iintro ⟨-, -, HR⟩
      iapply (hin m c); iexact HR)
    (hout := fun c => by
      iintro H
      isplitr; · iempintro
      iapply (hout m c); iexact H)
    (htail := htail m)
    (QY := fun c s => s.mem ((c.tc : Thread nD τ).loc main_v9) = tailT ((dats m 0 c).arrAt 2 cfg0.N) ((dats m 0 c).arrAt 3 cfg0.N)
      ∧ s.mem ((c.tc : Thread nD τ).loc main_arg0) = m ((c.tc : Thread nD τ).loc main_arg0))
    (hY := fun c s' => by
      unfold Zp
      iintro ⟨-, ⟨H0, H9⟩, HSI⟩
      imodintro
      icombine HSI H0 gives %h0
      icombine HSI H9 gives %h9
      isplitr
      · ipureintro; exact ⟨Buf.eq_of_forall_mem_univ h9, (Buf.eq_of_forall_mem_univ h0).trans (V_main_arg0 m c)⟩
      iexact HSI)
    (hQ := fun s h c => (h c).2.2)

/-- info: 'Cert.Kernel.Hand.run_main' depends on axioms: [propext, Classical.choice, Quot.sound] -/
#guard_msgs in #print axioms run_main

/-- The frame: the argument array ends as the launch found it. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run_main m ρ)

end Cert.Kernel.Hand

end
-- ==== Proof.KValue.lean ====
/-
  The kernel's input blocks and the array the region is entered with, read at an index: the row window's block at
  point `t` is rows `(t / 16) · 2048 …` of the normalised matrix, the column window's block rows `(t % 16) · 512 …`, and
  that matrix is the host's normalisation of the argument.
-/
import proofs.«166013_j38044820308458_2_alg».proof.Proof.KDat
import proofs.«166013_j38044820308458_2_alg».proof.Proof.HostDefs
import Idealize.ShloMosaic.Lib.ValueIdx
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable {F : FTy → Type} [FloatOps F] [Named F]
variable (m : (ℓ : Loc nD τ sig) → Buf (Elt F) ℓ)

/-- A grid point's coordinates: the row block and the column tile. -/
theorem coords_at : ∀ t : Fin cfg0.N, ((grid0.coords t) 0).val = t.val / 16 ∧ ((grid0.coords t) 1).val = t.val % 16 :=
  (by decide +kernel : ∀ t : Fin grid0.N, ((grid0.coords t) 0).val = t.val / 16 ∧ ((grid0.coords t) 1).val = t.val % 16)

/-- The windows' block indices over the grid. -/
theorem idx_facts : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = 0
    ∧ win0_3.index t (0 : Fin 2) = t.val / 16 ∧ win0_3.index t (1 : Fin 2) = 0 :=
  (by decide +kernel : ∀ t : Fin grid0.N, _)

theorem grow_lt (t : Fin cfg0.N) (r : Fin 2048) : (t.val / 16) * 2048 + r.val < 8192 := by
  have h : t.val < 64 := t.isLt
  have := r.isLt; omega
theorem gcol_lt (t : Fin cfg0.N) (j : Fin 512) : (t.val % 16) * 512 + j.val < 8192 := by
  have := j.isLt; omega

/-- The row window's block at point `t`. -/
theorem iblk0_at (c : Dev nD) (t : Fin cfg0.N) (r : Fin 2048) (k : Fin 768) :
    iblk m c 0 t (ix2 r k) = V m c main_v5 (ix2 (⟨(t.val / 16) * 2048 + r.val, grow_lt t r⟩ : Fin 8192) k) := by
  obtain ⟨e0, e1, -⟩ := idx_facts t
  show V m c main_v5 (((cfg0.win 0).blk t).view.emb (ix2 r k)) = _
  refine congrArg (V m c main_v5) ?_
  funext a; apply Fin.ext
  match a with
  | ⟨0, _⟩ => show win0_0.index t (0 : Fin 2) * 2048 + 1 * r.val = (t.val / 16) * 2048 + r.val; omega
  | ⟨1, _⟩ => show win0_0.index t (1 : Fin 2) * 768 + 1 * k.val = k.val; omega

/-- The column window's block at point `t`. -/
theorem iblk1_at (c : Dev nD) (t : Fin cfg0.N) (j : Fin 512) (k : Fin 768) :
    iblk m c 1 t (ix2 j k) = V m c main_v5 (ix2 (⟨(t.val % 16) * 512 + j.val, gcol_lt t j⟩ : Fin 8192) k) := by
  obtain ⟨-, -, e0, e1, -⟩ := idx_facts t
  show V m c main_v5 (((cfg0.win 1).blk t).view.emb (ix2 j k)) = _
  refine congrArg (V m c main_v5) ?_
  funext a; apply Fin.ext
  match a with
  | ⟨0, _⟩ => show win0_1.index t (0 : Fin 2) * 512 + 1 * j.val = (t.val % 16) * 512 + j.val; omega
  | ⟨1, _⟩ => show win0_1.index t (1 : Fin 2) * 768 + 1 * k.val = k.val; omega

/-- The array the region is entered with is the host's normalisation of the argument. -/
theorem V5_eq (c : Dev nD) :
    (V m c main_v5 : FVec F S8192x768 .bf16) = HostDefs.normT (m ((c : Thread nD τ).loc main_arg0)) := by
  dsimp only [V, V0]
  simp only [hostOps0, hostOps0_1, List.flatten_cons, List.flatten_nil, List.append_nil, List.cons_append, List.nil_append]
  after_results
  rfl

/-! ## The two result columns after the run -/

theorem lastpt_lt (g : ℕ) (hg : g < 8192) : (g / 2048) * 16 + 15 < cfg0.N := by
  have : cfg0.N = 64 := N_0
  omega

/-- The whole column window 2 ends with: row `g` holds what the last tile of its row block wrote. -/
def G2 (c : Dev nD) : FVec F S8192x1 .f32 := fun i =>
  Carried.out2 (scrAt m c (((i 0).val / 2048) * 16 + 15) (lastpt_lt _ (idx2_lt0 i)))
    (ix2 (⟨(i 0).val % 2048, Nat.mod_lt _ (by norm_num)⟩ : Fin 2048) (⟨(i 1).val, idx2_lt1 i⟩ : Fin 1))

/-- What a last-tile point writes back is its block of that column. -/
theorem flushed2_eq (c : Dev nD) (t : Fin cfg0.N) (hf : (cfg0.win 2).flush t = true) :
    (dats m 0 c).flushed 2 t = ((cfg0.win 2).blk t).view.read (Elt F) (G2 m c) := by
  have h15 : t.val % 16 = 15 := (flush0_2 t).1 hf
  have ht : t.val < 64 := t.isLt
  obtain ⟨-, -, -, -, e0, e1, -⟩ := idx_facts t
  show (cfg0.win 2).cut (grid0.coords t) ((dats m 0 c).after 2 t) = _
  rw [after2]
  funext y
  obtain ⟨p, q, rfl⟩ : ∃ (p : Fin 2048) (q : Fin 1), y = ix2 p q := ⟨y 0, y 1, eq_ix2 y⟩
  show Carried.out2 (scrAt m c t.val t.isLt) (ix2 p q) = G2 m c (((cfg0.win 2).blk t).view.emb (ix2 p q))
  have hemb0 : ((((cfg0.win 2).blk t).view.emb (ix2 p q)) 0).val = (t.val / 16) * 2048 + p.val := by
    show win0_2.index t (0 : Fin 2) * 2048 + 1 * p.val = _; omega
  have hemb1 : ((((cfg0.win 2).blk t).view.emb (ix2 p q)) 1).val = q.val := by
    show win0_2.index t (1 : Fin 2) * 1 + 1 * q.val = _; omega
  have key : ∀ (n : ℕ) (hn : n < cfg0.N) (a : Fin 2048) (b : Fin 1), n = t.val → a = p → b = q →
      Carried.out2 (scrAt m c n hn) (ix2 a b) = Carried.out2 (scrAt m c t.val t.isLt) (ix2 p q) := by
    intro n hn a b h1 h2 h3; subst h1 h2 h3; rfl
  have hp := p.isLt
  refine (key _ _ _ _ ?_ ?_ ?_).symm
  · rw [hemb0]; omega
  · apply Fin.ext; show _ % 2048 = p.val; rw [hemb0]; omega
  · apply Fin.ext; exact hemb1

/-- An index of the column is in point `t`'s block iff its row is in the block's range. -/
theorem mem_blk2 (t : Fin cfg0.N) (i : S8192x1.Idx) :
    i ∈ ((cfg0.win 2).blk t).view.set ↔ ∀ a : Fin 2, win0_2.index t a * S2048x1.size a ≤ (i a).val ∧ (i a).val < win0_2.index t a * S2048x1.size a + S2048x1.size a := by
  show i ∈ ((View.whole main_v6_0).slice (win0_2.rect t)).set ↔ _
  rw [View.set_slice_whole, Rect.mem_set_unit]
  exact Iff.rfl

/-- Row `g` of the column after the run. -/
theorem arr2_at (c : Dev nD) (g : Fin 8192) :
    (dats m 0 c).arrAt 2 cfg0.N (ix2 g (0 : Fin 1))
      = Carried.out2 (scrAt m c ((g.val / 2048) * 16 + 15) (lastpt_lt _ g.isLt)) (ix2 (⟨g.val % 2048, Nat.mod_lt _ (by norm_num)⟩ : Fin 2048) (0 : Fin 1)) := by
  have hg := g.isLt
  have hlt : (g.val / 2048) * 16 + 15 < cfg0.N := lastpt_lt _ g.isLt
  have hfl : (cfg0.win 2).flush ⟨(g.val / 2048) * 16 + 15, hlt⟩ = true := (flush0_2 _).2 (by show ((g.val / 2048) * 16 + 15) % 16 = 15; omega)
  obtain ⟨-, -, -, -, e0, e1, -⟩ := idx_facts ⟨(g.val / 2048) * 16 + 15, hlt⟩
  have e0' : win0_2.index ⟨(g.val / 2048) * 16 + 15, hlt⟩ (0 : Fin 2) = g.val / 2048 := by
    rw [e0]; show ((g.val / 2048) * 16 + 15) / 16 = _; omega
  refine ((dats m 0 c).arrAt_apply_of_mem 2 (G2 m c) (fun t hf => flushed2_eq m c t hf) cfg0.N ⟨(g.val / 2048) * 16 + 15, hlt⟩ (ix2 g (0 : Fin 1)) hlt hfl ?_).trans rfl
  rw [mem_blk2]
  intro a
  match a with
  | ⟨0, _⟩ => show win0_2.index ⟨(g.val / 2048) * 16 + 15, hlt⟩ (0 : Fin 2) * 2048 ≤ g.val ∧ g.val < win0_2.index ⟨(g.val / 2048) * 16 + 15, hlt⟩ (0 : Fin 2) * 2048 + 2048; omega
  | ⟨1, _⟩ => show win0_2.index ⟨(g.val / 2048) * 16 + 15, hlt⟩ (1 : Fin 2) * 1 ≤ 0 ∧ 0 < win0_2.index ⟨(g.val / 2048) * 16 + 15, hlt⟩ (1 : Fin 2) * 1 + 1; omega

/-- The whole column window 3 ends with: row `g` holds what the last tile of its row block wrote. -/
def G3 (c : Dev nD) : FVec F S8192x1 .f32 := fun i =>
  Carried.out3 (scrAt m c (((i 0).val / 2048) * 16 + 15) (lastpt_lt _ (idx2_lt0 i)))
    (ix2 (⟨(i 0).val % 2048, Nat.mod_lt _ (by norm_num)⟩ : Fin 2048) (⟨(i 1).val, idx2_lt1 i⟩ : Fin 1))

/-- What a last-tile point writes back is its block of that column. -/
theorem flushed3_eq (c : Dev nD) (t : Fin cfg0.N) (hf : (cfg0.win 3).flush t = true) :
    (dats m 0 c).flushed 3 t = ((cfg0.win 3).blk t).view.read (Elt F) (G3 m c) := by
  have h15 : t.val % 16 = 15 := (flush0_3 t).1 hf
  have ht : t.val < 64 := t.isLt
  obtain ⟨-, -, -, -, -, -, e0, e1⟩ := idx_facts t
  show (cfg0.win 3).cut (grid0.coords t) ((dats m 0 c).after 3 t) = _
  rw [after3]
  funext y
  obtain ⟨p, q, rfl⟩ : ∃ (p : Fin 2048) (q : Fin 1), y = ix2 p q := ⟨y 0, y 1, eq_ix2 y⟩
  show Carried.out3 (scrAt m c t.val t.isLt) (ix2 p q) = G3 m c (((cfg0.win 3).blk t).view.emb (ix2 p q))
  have hemb0 : ((((cfg0.win 3).blk t).view.emb (ix2 p q)) 0).val = (t.val / 16) * 2048 + p.val := by
    show win0_3.index t (0 : Fin 2) * 2048 + 1 * p.val = _; omega
  have hemb1 : ((((cfg0.win 3).blk t).view.emb (ix2 p q)) 1).val = q.val := by
    show win0_3.index t (1 : Fin 2) * 1 + 1 * q.val = _; omega
  have key : ∀ (n : ℕ) (hn : n < cfg0.N) (a : Fin 2048) (b : Fin 1), n = t.val → a = p → b = q →
      Carried.out3 (scrAt m c n hn) (ix2 a b) = Carried.out3 (scrAt m c t.val t.isLt) (ix2 p q) := by
    intro n hn a b h1 h2 h3; subst h1 h2 h3; rfl
  have hp := p.isLt
  refine (key _ _ _ _ ?_ ?_ ?_).symm
  · rw [hemb0]; omega
  · apply Fin.ext; show _ % 2048 = p.val; rw [hemb0]; omega
  · apply Fin.ext; exact hemb1

/-- An index of the column is in point `t`'s block iff its row is in the block's range. -/
theorem mem_blk3 (t : Fin cfg0.N) (i : S8192x1.Idx) :
    i ∈ ((cfg0.win 3).blk t).view.set ↔ ∀ a : Fin 2, win0_3.index t a * S2048x1.size a ≤ (i a).val ∧ (i a).val < win0_3.index t a * S2048x1.size a + S2048x1.size a := by
  show i ∈ ((View.whole main_v6_1).slice (win0_3.rect t)).set ↔ _
  rw [View.set_slice_whole, Rect.mem_set_unit]
  exact Iff.rfl

/-- Row `g` of the column after the run. -/
theorem arr3_at (c : Dev nD) (g : Fin 8192) :
    (dats m 0 c).arrAt 3 cfg0.N (ix2 g (0 : Fin 1))
      = Carried.out3 (scrAt m c ((g.val / 2048) * 16 + 15) (lastpt_lt _ g.isLt)) (ix2 (⟨g.val % 2048, Nat.mod_lt _ (by norm_num)⟩ : Fin 2048) (0 : Fin 1)) := by
  have hg := g.isLt
  have hlt : (g.val / 2048) * 16 + 15 < cfg0.N := lastpt_lt _ g.isLt
  have hfl : (cfg0.win 3).flush ⟨(g.val / 2048) * 16 + 15, hlt⟩ = true := (flush0_3 _).2 (by show ((g.val / 2048) * 16 + 15) % 16 = 15; omega)
  obtain ⟨-, -, -, -, -, -, e0, e1⟩ := idx_facts ⟨(g.val / 2048) * 16 + 15, hlt⟩
  have e0' : win0_3.index ⟨(g.val / 2048) * 16 + 15, hlt⟩ (0 : Fin 2) = g.val / 2048 := by
    rw [e0]; show ((g.val / 2048) * 16 + 15) / 16 = _; omega
  refine ((dats m 0 c).arrAt_apply_of_mem 3 (G3 m c) (fun t hf => flushed3_eq m c t hf) cfg0.N ⟨(g.val / 2048) * 16 + 15, hlt⟩ (ix2 g (0 : Fin 1)) hlt hfl ?_).trans rfl
  rw [mem_blk3]
  intro a
  match a with
  | ⟨0, _⟩ => show win0_3.index ⟨(g.val / 2048) * 16 + 15, hlt⟩ (0 : Fin 2) * 2048 ≤ g.val ∧ g.val < win0_3.index ⟨(g.val / 2048) * 16 + 15, hlt⟩ (0 : Fin 2) * 2048 + 2048; omega
  | ⟨1, _⟩ => show win0_3.index ⟨(g.val / 2048) * 16 + 15, hlt⟩ (1 : Fin 2) * 1 ≤ 0 ∧ 0 < win0_3.index ⟨(g.val / 2048) * 16 + 15, hlt⟩ (1 : Fin 2) * 1 + 1; omega

end Cert.KernelIdeal.Hand

end
-- ==== Proof.LibOnlineSoftmax.lean ====
/-
  The online ("streaming") softmax recurrence over the extended reals.

  A row of real logits arrives tile by tile, `W` columns at a time (tile `k`, column `j`: `z k j`). A running
  maximum `m` and a running denominator `l` are kept, starting at `(-∞, 0)`; one tile updates them to
      m' = max m (max_j z_j),     l' = exp (m - m') · l + Σ_j exp (z_j - m').
  After `k + 1` tiles `m` is the maximum `M` of every logit seen, a real number that is attained, and `l` is
  `Σ exp (z - M)` over every logit seen: the rescaling by `exp (m - m')` moves the old terms from the old shift to
  the new one, because `exp (a - b) · exp (x - a) = exp (x - b)` on the reals, and at the first tile the old
  state `(-∞, 0)` contributes `exp (-∞) · 0 = 0`. Hence `m + log l` is the row's log-sum-exp.
  Exponential and logarithm are the extended-real ones of the ideal float instance (`exp (-∞) = 0`).
-/
import Idealize.ShloMosaic.PureOps.Ideal

noncomputable section

namespace LibOnlineSoftmax

open Idealize.ShloMosaic

/-- A finite sum of real coercions is the coercion of the sum. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The coercion of the reals into the extended reals commutes with `max`. -/
theorem coe_max (a b : ℝ) : ((max a b : ℝ) : EReal) = max (a : EReal) (b : EReal) :=
  (EReal.coe_strictMono.monotone).map_max

/-- One tile's update of the running pair `(m, l)`. -/
def step {W : ℕ} (zk : Fin W → EReal) (s : EReal × EReal) : EReal × EReal :=
  (max s.1 (Finset.univ.sup zk),
   Ideal.exp (s.1 - max s.1 (Finset.univ.sup zk)) * s.2
     + ∑ j, Ideal.exp (zk j - max s.1 (Finset.univ.sup zk)))

/-- The running pair after `k` tiles of extended-real logits, from `(-∞, 0)`. -/
def stateE {W : ℕ} (z : ℕ → Fin W → EReal) : ℕ → EReal × EReal
  | 0 => (⊥, 0)
  | k + 1 => step (z k) (stateE z k)

/-- The running pair after `k` tiles of real logits. -/
def state {W : ℕ} (z : ℕ → Fin W → ℝ) (k : ℕ) : EReal × EReal :=
  stateE (fun i j => ((z i j : ℝ) : EReal)) k

theorem stateE_zero {W : ℕ} (z : ℕ → Fin W → EReal) : stateE z 0 = (⊥, 0) := rfl
theorem stateE_succ {W : ℕ} (z : ℕ → Fin W → EReal) (k : ℕ) : stateE z (k + 1) = step (z k) (stateE z k) := rfl

/-- The recurrence only reads the tiles it has passed. -/
theorem stateE_congr {W : ℕ} (z z' : ℕ → Fin W → EReal) (k : ℕ) (h : ∀ i, i < k → z i = z' i) :
    stateE z k = stateE z' k := by
  induction k with
  | zero => rfl
  | succ k ih =>
    rw [stateE_succ, stateE_succ, h k (Nat.lt_succ_self k), ih fun i hi => h i (Nat.lt_succ_of_lt hi)]

/-- The maximum of one nonempty tile of reals, inside the extended reals. -/
theorem sup_coe {W : ℕ} (hW : 0 < W) (f : Fin W → ℝ) :
    ∃ c : ℝ, Finset.univ.sup (fun j => ((f j : ℝ) : EReal)) = (c : EReal) ∧ (∀ j, f j ≤ c) ∧ ∃ j, f j = c := by
  have hne : (Finset.univ : Finset (Fin W)).Nonempty := ⟨⟨0, hW⟩, Finset.mem_univ _⟩
  obtain ⟨j0, -, hj0⟩ := Finset.exists_mem_eq_sup' hne f
  refine ⟨Finset.univ.sup' hne f, ?_, fun j => Finset.le_sup' f (Finset.mem_univ j), ⟨j0, hj0.symm⟩⟩
  apply le_antisymm
  · exact Finset.sup_le fun j _ => EReal.coe_le_coe_iff.2 (Finset.le_sup' f (Finset.mem_univ j))
  · rw [hj0]
    exact Finset.le_sup (f := fun j => ((f j : ℝ) : EReal)) (Finset.mem_univ j0)

/-- After `k + 1` tiles the running maximum is the attained real maximum `M` of the logits seen, and the running
    denominator is the real `Σ exp (z - M)` over them. -/
theorem state_succ {W : ℕ} (hW : 0 < W) (z : ℕ → Fin W → ℝ) (k : ℕ) :
    ∃ M : ℝ, (∀ i, i ≤ k → ∀ j, z i j ≤ M) ∧ (∃ i, i ≤ k ∧ ∃ j, z i j = M) ∧
      (state z (k + 1)).1 = (M : EReal) ∧
      (state z (k + 1)).2 = ((∑ i ∈ Finset.range (k + 1), ∑ j, Real.exp (z i j - M) : ℝ) : EReal) := by
  induction k with
  | zero =>
    obtain ⟨c, hc, hle, j0, hj0⟩ := sup_coe hW (z 0)
    have hle0 : ∀ i, i ≤ 0 → ∀ j, z i j ≤ c := by
      intro i hi j
      obtain rfl : i = 0 := by omega
      exact hle j
    refine ⟨c, hle0, ⟨0, le_refl 0, j0, hj0⟩, ?_, ?_⟩
    · show max (⊥ : EReal) _ = _
      rw [hc]; exact max_eq_right bot_le
    · show Ideal.exp ((⊥ : EReal) - max (⊥ : EReal) _) * (0 : EReal) + ∑ j, Ideal.exp (((z 0 j : ℝ) : EReal) - max (⊥ : EReal) _) = _
      rw [hc, max_eq_right (bot_le : (⊥ : EReal) ≤ (c : EReal)), mul_zero, zero_add, Finset.sum_range_one]
      rw [← coe_sum]
      refine Finset.sum_congr rfl fun j _ => ?_
      rw [← EReal.coe_sub]; rfl
  | succ k ih =>
    obtain ⟨M, hle, ⟨i0, hi0, j0, hj0⟩, hm, hl⟩ := ih
    obtain ⟨c, hc, hcle, j1, hj1⟩ := sup_coe hW (z (k + 1))
    have hm' : (state z (k + 1 + 1)).1 = ((max M c : ℝ) : EReal) := by
      show max (state z (k + 1)).1 _ = _
      rw [hm, hc, coe_max]
    refine ⟨max M c, ?_, ?_, hm', ?_⟩
    · intro i hi j
      rcases Nat.lt_or_ge i (k + 1) with h | h
      · exact (hle i (by omega) j).trans (le_max_left _ _)
      · obtain rfl : i = k + 1 := by omega
        exact (hcle j).trans (le_max_right _ _)
    · rcases le_total c M with h | h
      · exact ⟨i0, by omega, j0, by rw [hj0, max_eq_left h]⟩
      · exact ⟨k + 1, le_refl _, j1, by rw [hj1, max_eq_right h]⟩
    · show Ideal.exp ((state z (k + 1)).1 - max (state z (k + 1)).1 _) * (state z (k + 1)).2
          + ∑ j, Ideal.exp (((z (k + 1) j : ℝ) : EReal) - max (state z (k + 1)).1 _) = _
      rw [hm, hc, ← coe_max, hl, ← EReal.coe_sub]
      show ((Real.exp (M - max M c) : ℝ) : EReal) * _ + _ = _
      rw [← EReal.coe_mul]
      have e2 : (∑ j, Ideal.exp (((z (k + 1) j : ℝ) : EReal) - ((max M c : ℝ) : EReal)))
          = ((∑ j, Real.exp (z (k + 1) j - max M c) : ℝ) : EReal) := by
        rw [← coe_sum]
        refine Finset.sum_congr rfl fun j _ => ?_
        rw [← EReal.coe_sub]; rfl
      rw [e2, ← EReal.coe_add]
      congr 1
      rw [Finset.sum_range_succ (fun i => ∑ j, Real.exp (z i j - max M c)) (k + 1), Finset.mul_sum]
      congr 1
      refine Finset.sum_congr rfl fun i _ => ?_
      rw [Finset.mul_sum]
      refine Finset.sum_congr rfl fun j _ => ?_
      rw [← Real.exp_add]
      congr 1; ring

/-- A sum over `T · W` consecutive positions is the sum over the `T` tiles of each tile's `W` terms. -/
theorem sum_tiles (W : ℕ) (g : ℕ → ℝ) (T : ℕ) :
    (∑ i ∈ Finset.range T, ∑ j : Fin W, g (i * W + j.val)) = ∑ n ∈ Finset.range (T * W), g n := by
  induction T with
  | zero => simp
  | succ T ih =>
    rw [Finset.sum_range_succ, ih, Nat.succ_mul, Finset.sum_range_add, Fin.sum_univ_eq_sum_range (fun j => g (T * W + j)) W]

/-- The flat form: the logits are `z 0, z 1, …`, tile `k` holding positions `k · W … k · W + W − 1`. After `T + 1` tiles the
    running maximum is the attained maximum `M` of the first `(T + 1) · W` logits and the running denominator is
    `Σ exp (z n − M)` over them. -/
theorem state_flat {W : ℕ} (hW : 0 < W) (z : ℕ → ℝ) (T : ℕ) :
    ∃ M : ℝ, (∀ n, n < (T + 1) * W → z n ≤ M) ∧ (∃ n, n < (T + 1) * W ∧ z n = M) ∧
      (state (fun k (j : Fin W) => z (k * W + j.val)) (T + 1)).1 = (M : EReal) ∧
      (state (fun k (j : Fin W) => z (k * W + j.val)) (T + 1)).2
        = ((∑ n ∈ Finset.range ((T + 1) * W), Real.exp (z n - M) : ℝ) : EReal) := by
  obtain ⟨M, hle, ⟨i0, hi0, j0, hj0⟩, hm, hl⟩ := state_succ hW (fun k (j : Fin W) => z (k * W + j.val)) T
  refine ⟨M, ?_, ?_, hm, ?_⟩
  · intro n hn
    have hdiv : n / W ≤ T := by
      have : n / W < T + 1 := Nat.div_lt_of_lt_mul (by rw [Nat.mul_comm]; exact hn)
      omega
    have := hle (n / W) hdiv ⟨n % W, Nat.mod_lt _ hW⟩
    simpa [Nat.div_add_mod' n W] using this
  · refine ⟨i0 * W + j0.val, ?_, hj0⟩
    calc i0 * W + j0.val < i0 * W + W := by have := j0.isLt; omega
      _ = (i0 + 1) * W := by ring
      _ ≤ (T + 1) * W := Nat.mul_le_mul_right W (by omega)
  · rw [hl, sum_tiles W (fun n => Real.exp (z n - M)) (T + 1)]

/-- The running pair's `m + log l` after `k + 1` tiles is the real log-sum-exp `M + log Σ exp (z - M)`, with `M` the
    attained maximum; the sum is at least `1`, so its logarithm is a real number. -/
theorem lse {W : ℕ} (hW : 0 < W) (z : ℕ → Fin W → ℝ) (k : ℕ) :
    ∃ M : ℝ, (∀ i, i ≤ k → ∀ j, z i j ≤ M) ∧ (∃ i, i ≤ k ∧ ∃ j, z i j = M) ∧
      0 < (∑ i ∈ Finset.range (k + 1), ∑ j, Real.exp (z i j - M)) ∧
      (state z (k + 1)).1 + Ideal.log (state z (k + 1)).2
        = ((M + Real.log (∑ i ∈ Finset.range (k + 1), ∑ j, Real.exp (z i j - M)) : ℝ) : EReal) := by
  obtain ⟨M, hle, hatt, hm, hl⟩ := state_succ hW z k
  have hpos : 0 < (∑ i ∈ Finset.range (k + 1), ∑ j, Real.exp (z i j - M)) := by
    obtain ⟨i0, hi0, j0, -⟩ := hatt
    refine Finset.sum_pos' (fun i _ => Finset.sum_nonneg fun j _ => (Real.exp_pos _).le) ⟨i0, Finset.mem_range.2 (by omega), ?_⟩
    exact Finset.sum_pos' (fun j _ => (Real.exp_pos _).le) ⟨j0, Finset.mem_univ _, Real.exp_pos _⟩
  refine ⟨M, hle, hatt, hpos, ?_⟩
  rw [hm, hl, Ideal.log_coe, if_neg (not_le.2 hpos), ← EReal.coe_add]

/-- The cross-entropy of one row against a label's logit `zl`: log-sum-exp minus the logit is the negated
    log-softmax entry `(zl - M) - log S`, on real numbers inside the extended reals. -/
theorem lse_sub_eq_neg_log_softmax (M S zl : ℝ) :
    ((M + Real.log S : ℝ) : EReal) - (zl : EReal)
      = -((((zl : ℝ) : EReal) - (M : EReal)) - ((Real.log S : ℝ) : EReal)) := by
  rw [← EReal.coe_sub, ← EReal.coe_sub, ← EReal.coe_sub, ← EReal.coe_neg]
  congr 1; ring

end LibOnlineSoftmax

end
-- ==== Proof.Spec.lean ====
/-
  The two programs' results as functions of the input matrix, over the extended reals.

  Rows are normalised by `max (‖x_i‖, ε)`; `sim i j` is the inner product of two normalised rows. The reference subtracts
  the penalty on the diagonal, divides by the temperature, takes the shifted log-softmax of each row and reads it at
  the label column `i xor 1`; its loss is minus the mean of those entries. The kernel scales by the reciprocal
  temperature, runs the online recurrence over 16 tiles of 512 columns, and averages `m + log l` minus the label's logit.
-/
import Idealize.ShloMosaic.PureOps.Ideal
import proofs.«166013_j38044820308458_2_alg».proof.Proof.LibOnlineSoftmax

noncomputable section

namespace Spec

open Idealize.ShloMosaic

/-- The guard under the norm, the diagonal penalty, the temperature and the number of rows: the programs' f32 words. -/
def eps : EReal := Ideal.ofBits .f32 0x322BCC77#32
def pen : EReal := Ideal.ofBits .f32 0x5368D4A5#32
def temp : EReal := Ideal.ofBits .f32 0x3D4CCCCD#32
def nrows : EReal := Ideal.ofBits .f32 0x46000000#32
/-- The kernel's reciprocal temperature, as the table names it. -/
def invTemp : EReal := ((268435456 / 13421773 : ℝ) : EReal)

variable (x : Fin 8192 → Fin 768 → EReal)

/-- A row's guarded norm. -/
def den (i : Fin 8192) : EReal := max (Ideal.sqrt (∑ k, x i k * x i k)) eps
/-- The normalised matrix. -/
def xn (i : Fin 8192) (k : Fin 768) : EReal := Ideal.div (x i k) (den x i)
/-- The similarity of rows `i` and `j`. -/
def sim (i j : Fin 8192) : EReal := ∑ k, xn x i k * xn x j k

/-- The label of row `i`: its partner in the adjacent pair. -/
def label (i : Fin 8192) : Fin 8192 :=
  ⟨i.val ^^^ 1, by
    have h := i.isLt
    have : i.val ^^^ 1 < 2 ^ 13 := Nat.xor_lt_two_pow (by simpa using h) (by norm_num)
    simpa using this⟩

/-! ## The reference -/

def zR (i j : Fin 8192) : EReal := Ideal.div (sim x i j - (if i = j then (1 : EReal) else 0) * pen) temp
def rmax (i : Fin 8192) : EReal := Finset.univ.sup fun j => zR x i j
def sumexp (i : Fin 8192) : EReal := ∑ j, Ideal.exp (zR x i j - rmax x i)
def logp (i j : Fin 8192) : EReal := (zR x i j - rmax x i) - Ideal.log (sumexp x i)
def refLoss : EReal := -(Ideal.div (∑ i, logp x i (label i)) nrows)

/-! ## The kernel -/

/-- The kernel's logits: the penalty subtracted on the diagonal, scaled by the reciprocal temperature. -/
def zK (i j : Fin 8192) : EReal := (if i = j then sim x i j - pen else sim x i j) * invTemp
/-- Row `i`'s logits by flat position (positions past the row's end are never read). -/
def zKn (i : Fin 8192) (n : ℕ) : EReal := if h : n < 8192 then zK x i ⟨n, h⟩ else 0
/-- Row `i`'s running pair after all 16 tiles. -/
def pairK (i : Fin 8192) : EReal × EReal :=
  LibOnlineSoftmax.stateE (fun k (j : Fin 512) => zKn x i (k * 512 + j.val)) 16
def lseK (i : Fin 8192) : EReal := (pairK x i).1 + Ideal.log (pairK x i).2
/-- The label's logit. -/
def posK (i : Fin 8192) : EReal := sim x i (label i) * invTemp
def kerLoss : EReal := Ideal.div (∑ i, (lseK x i - posK x i)) nrows

end Spec

end
-- ==== Proof.LibRowOps.lean ====
/-
  Row-wise reductions and column broadcasts of a matrix, read at an index, over the extended reals.

  For an a × b matrix: the maximum (or sum) over a row, whether taken by a vector reduction from a neutral
  accumulator or by the host's reduce from an initial value, is at row p the fold of max (or the sum) over the b
  columns of the entries (p, j). A vector of a entries stood up as an a × 1 column reads entry p at (p, 0), and
  that column spread over b columns reads (p, 0) at every (p, q); both in the vector spelling (shape cast, broadcast)
  and in the host's (broadcast in dimensions).
-/
import Idealize.ShloMosaic.Lib.Pipeline.Value
import Idealize.ShloMosaic.Lib.ValueIdx
import Idealize.ShloMosaic.PureOps.Ideal.Laws
import Idealize.ShloMosaic.PureOps.Reduce

noncomputable section

open scoped BigOperators

namespace Idealize.ShloMosaic.RowOps

open Idealize.ShloMosaic Idealize.ShloMosaic.ValueIdx

variable {a b : Nat} {α : Type}

/-- A vector stood up as a column: entry p sits at (p, 0). -/
theorem colCast_apply (v : (⟨1, ![a]⟩ : Shape).Idx → α) (h : (⟨1, ![a]⟩ : Shape).ShapeCasts ⟨2, ![a, 1]⟩) (p : Fin a) :
    shapeCast ⟨2, ![a, 1]⟩ v h (ix2 p (0 : Fin 1)) = v (ix1 p) :=
  shapeCast_apply v h (ix2 p (0 : Fin 1)) (ix1 p) (by
    rw [Shape.rowMajor_val_one, Shape.rowMajor_val_two]; show p.val = p.val * 1 + 0; omega)

/-- A column spread over b columns reads its entry (p, 0) at every (p, q). -/
theorem colBcast_apply (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The host's column of a vector: entry p sits at (p, 0). -/
theorem colInDim_apply (v : (⟨1, ![a]⟩ : Shape).Idx → α) (h : (⟨1, ![a]⟩ : Shape).BroadcastsInDim ⟨2, ![a, 1]⟩ ![0])
    (p : Fin a) : broadcastInDim ⟨2, ![a, 1]⟩ ![0] h v (ix2 p (0 : Fin 1)) = v (ix1 p) := by
  refine broadcastInDim_apply ![0] h v (ix2 p (0 : Fin 1)) (ix1 p) fun ax => ?_
  match ax with
  | ⟨0, _⟩ =>
    show p.val = if a = 1 then 0 else p.val
    split
    · have := p.isLt; omega
    · rfl

/-- The host's spread of a column over b columns reads its entry (p, 0) at every (p, q). -/
theorem colInDim2_apply (w : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h w (ix2 p q) = w (ix2 p (0 : Fin 1)) := by
  refine broadcastInDim_apply ![0, 1] h w (ix2 p q) (ix2 p (0 : Fin 1)) fun ax => ?_
  match ax with
  | ⟨0, _⟩ =>
    show p.val = if a = 1 then 0 else p.val
    split
    · have := p.isLt; omega
    · rfl
  | ⟨1, _⟩ => rfl

/-- Row p with column k put back is (p, k). -/
theorem lift_row (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A vector reduction's row maximum: the fold of max over the row's entries from the accumulator's value. -/
theorem rowMax_vector (src : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (p : Fin a) :
    multiReduction .maximumf [1] ⟨1, ![a]⟩ src acc h hφ hacc (ix1 p)
      = (Finset.univ : Finset (Fin b)).fold max (Ideal.ofBits .f32 acc) (fun j => src (ix2 p j)) := by
  refine (Ideal.multiReduction_maximumf_single src acc h hφ hacc (ix1 p)).trans ?_
  have hf : (src ∘ h.lift (ix1 p)) = fun k : Fin b => src (ix2 p k) := funext fun k => congrArg src (lift_row h p k)
  exact congrArg (fun f => Finset.fold max (Ideal.ofBits .f32 acc) f (Finset.univ : Finset (Fin b))) hf

/-- The host's row maximum: the fold of max over the row's entries from the initial value. -/
theorem rowMax_host (x : FVec Ideal ⟨2, ![a, b]⟩ .f32) (init : (⟨0, ![]⟩ : Shape).Idx → Ideal .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (p : Fin a) :
    Host.reduce FloatOps.maximumf x init h' hu (ix1 p)
      = (Finset.univ : Finset (Fin b)).fold max (init (Shape.Idx.first hu)) (fun j => x (ix2 p j)) := by
  rw [Host.reduce_eq_fold_single FloatOps.maximumf x init h' h hu]
  have hf : (x ∘ h.lift (ix1 p)) = fun k : Fin b => x (ix2 p k) := funext fun k => congrArg x (lift_row h p k)
  exact congrArg (fun f => Finset.fold max (init (Shape.Idx.first hu)) f (Finset.univ : Finset (Fin b))) hf

/-- A vector reduction's row sum. -/
theorem rowSum_vector (src : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (p : Fin a) :
    multiReduction .add [1] ⟨1, ![a]⟩ src acc h hφ hacc (ix1 p) = ∑ j : Fin b, src (ix2 p j) := by
  refine (Ideal.multiReduction_add_single src acc h hφ hacc (ix1 p)).trans ?_
  exact Finset.sum_congr rfl fun k _ => congrArg src (lift_row h p k)

/-- The host's row sum: the initial value plus the sum of the row's entries. -/
theorem rowSum_host (x : FVec Ideal ⟨2, ![a, b]⟩ .f32) (init : (⟨0, ![]⟩ : Shape).Idx → Ideal .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (p : Fin a) :
    Host.reduceAdd x init h' hu (ix1 p) = init (Shape.Idx.first hu) + ∑ j : Fin b, x (ix2 p j) := by
  show Ideal.hostReduceAdd h' x (init (Shape.Idx.first hu)) (ix1 p) = _
  rw [Ideal.hostReduceAdd_single h' h]
  exact congrArg (fun s => init (Shape.Idx.first hu) + s) (Finset.sum_congr rfl fun k _ => congrArg x (lift_row h p k))

end Idealize.ShloMosaic.RowOps

end
-- ==== Proof.HostVal.lean ====
/-
  The host operations around the kernel read at an index, over the extended reals.

  Before the kernel every row is divided by its guarded norm: entry (i, k) of the normalised matrix is
  x i k / max (sqrt (∑ k, x i k * x i k)) ε (the rounding to the narrower format is the identity on extended reals).
  After it the loss is the sum over the 8192 rows of the difference of the two result columns, divided by 8192.
-/
import proofs.«166013_j38044820308458_2_alg».proof.Proof.HostDefs
import proofs.«166013_j38044820308458_2_alg».proof.Proof.Spec
import proofs.«166013_j38044820308458_2_alg».proof.Proof.LibRowOps
import Idealize.ShloMosaic.Lib.ValueIdx
import Idealize.ShloMosaic.PureOps.Ideal.Laws

noncomputable section

open scoped BigOperators

namespace Cert.KernelIdeal.HostVal

open Idealize.ShloMosaic Idealize.ShloMosaic.ValueIdx Cert.KernelIdeal

variable [Facts]

/-- A row's sum of squares as the host takes it: zero plus the sum over the 768 columns. -/
theorem sumsq_at (x : FVec Ideal S8192x768 .f32) (h' : S8192x768.ReducesTo [1] S8192) (hu : 0 < S_.numel) (i : Fin 8192) :
    Host.reduceAdd (mulf x x) (constant (F := Ideal) S_ .f32 0x00000000#32) h' hu (ix1 i)
      = ∑ k : Fin 768, x (ix2 i k) * x (ix2 i k) := by
  rw [RowOps.rowSum_host (mulf x x) _ h' (by decide) hu i]
  rw [constant_apply, Ideal.ofBits_zero_f32, zero_add]
  rfl

/-- Entry (i, k) of the normalised matrix is the entry divided by the row's guarded norm. -/
theorem normT_at (x : FVec Ideal S8192x768 .f32) (i : Fin 8192) (k : Fin 768) :
    HostDefs.normT (F := Ideal) x (ix2 i k) = Spec.xn (fun i k => x (ix2 i k)) i k := by
  unfold HostDefs.normT
  rw [truncf_apply]
  show Ideal.div (x (ix2 i k)) _ = _
  rw [RowOps.colInDim2_apply, maximumf_apply]
  show Ideal.div (x (ix2 i k))
      (max (Ideal.sqrt (broadcastInDim (s := S8192) S8192x1 ![0] _ _ (ix2 i (0 : Fin 1)))) _) = _
  rw [RowOps.colInDim_apply, sumsq_at]
  rfl

/-- The loss from the two result columns: the sum over the rows of their difference, divided by the number of rows. -/
theorem tailT_at (a b : FVec Ideal S8192x1 .f32) :
    HostDefs.tailT (F := Ideal) a b ix0
      = Ideal.div (∑ g : Fin 8192, (a (ix2 g (0 : Fin 1)) - b (ix2 g (0 : Fin 1)))) Spec.nrows := by
  unfold HostDefs.tailT
  show Ideal.div (Ideal.hostReduceAdd Facts₀.reducesTo_S8192x1_S_d0_1 (subf a b) (Ideal.ofBits .f32 0x00000000#32) ix0)
      (Ideal.ofBits .f32 0x46000000#32) = _
  rw [Ideal.hostReduceAdd_total Facts₀.reducesTo_S8192x1_S_d0_1 (fun c => c.elim0), Ideal.ofBits_zero_f32, zero_add, sum_idx2]
  refine congrArg (fun s => Ideal.div s Spec.nrows) (Finset.sum_congr rfl fun g _ => ?_)
  rw [Fin.sum_univ_one]
  rfl

end Cert.KernelIdeal.HostVal

end
-- ==== Proof.TileDefs.lean ====
/-
  One tile of the similarity matrix as a function of the point's row block `A` (2048 rows) and column tile `B` (512
  rows of the same matrix): the inner products, the penalty on the global diagonal, the scaled logits.
-/
import Idealize.ShloMosaic.Lib.ValueIdx
import proofs.«166013_j38044820308458_2_alg».proof.Proof.Spec
import proofs.«166013_j38044820308458_2_alg».proof.Proof.Carried

noncomputable section

namespace Cert.KernelIdeal.Tile

open Idealize.ShloMosaic Idealize.ShloMosaic.ValueIdx Cert.KernelIdeal

/-- Row `r` of the block against row `j` of the tile. -/
def dotT (A : FVec Ideal S2048x768 .bf16) (B : FVec Ideal S512x768 .bf16) (r : Fin 2048) (j : Fin 512) : EReal :=
  ∑ k : Fin 768, A (ix2 r k) * B (ix2 j k)

/-- The tile's entry with the penalty where the global row and column coincide. -/
def simT (i : grid0.Coords) (A : FVec Ideal S2048x768 .bf16) (B : FVec Ideal S512x768 .bf16) (r : Fin 2048) (j : Fin 512) : EReal :=
  if (i 0).val * 2048 + r.val = (i 1).val * 512 + j.val then dotT A B r j - Spec.pen else dotT A B r j

/-- The tile's logits. -/
def zT (i : grid0.Coords) (A : FVec Ideal S2048x768 .bf16) (B : FVec Ideal S512x768 .bf16) (r : Fin 2048) (j : Fin 512) : EReal :=
  simT i A B r j * Spec.invTemp

end Cert.KernelIdeal.Tile

end
-- ==== Proof.LibWordsAt.lean ====
/-
  Words and bits read at an index, and two float words as extended reals.

  The integer operations of a vector (and, exclusive or, sum, comparison) read at an index are the word
  operations on the entries; a select between equal conditions and equal branches is equal; the 32-bit float
  word of 1.0 denotes the extended real 1 and the word of −∞ denotes the bottom element.
-/
import Idealize.ShloMosaic.Lib.ValueIdx
import Idealize.ShloMosaic.PureOps.Ideal.Laws

noncomputable section

namespace Idealize.ShloMosaic.WordsAt

open Idealize.ShloMosaic

variable {s : Shape} {w : Nat}

/-- A vector's bitwise and at an index is the and of the entries. -/
theorem andi_apply (x y : IVec s w) (i : s.Idx) : andi x y i = IntOp.andi (x i) (y i) := rfl
/-- A vector's exclusive or at an index is the exclusive or of the entries. -/
theorem xori_apply (x y : IVec s w) (i : s.Idx) : xori x y i = IntOp.xori (x i) (y i) := rfl
/-- A vector's integer sum at an index is the sum of the entries. -/
theorem addi_apply (x y : IVec s w) (i : s.Idx) : addi x y i = IntOp.addi (x i) (y i) := rfl
/-- A vector's integer comparison at an index compares the entries. -/
theorem cmpi_apply (p : CmpIPredicate) (x y : IVec s w) (i : s.Idx) : cmpi p x y i = IntOp.cmpi p (x i) (y i) := rfl

/-- Selects with equal conditions and equal branches are equal. -/
theorem select_congr {α : Type} {c c' : BitVec 1} {a a' b b' : α} (hc : c = c') (ha : a = a') (hb : b = b') :
    Scalar.select c a b = Scalar.select c' a' b' := by rw [hc, ha, hb]

/-- The 32-bit float word of 1.0 denotes 1. -/
theorem ofBits_one_f32 : Ideal.ofBits .f32 0x3F800000#32 = 1 := by
  simp [Ideal.ofBits, Ideal.ieee]
  first
    | (rw [← EReal.coe_mul]; norm_num; done)
    | (norm_num [← EReal.coe_mul]; done)

/-- The 32-bit float word of −∞ denotes the bottom element. -/
theorem ofBits_neg_inf_f32 : Ideal.ofBits .f32 0xFF800000#32 = ⊥ := by simp [Ideal.ofBits, Ideal.ieee]

end Idealize.ShloMosaic.WordsAt

end
-- ==== Proof.TileValSim.lean ====
/-
  One tile of the similarity matrix read at an entry: the inner product of the block's row with the tile's row, with
  the penalty subtracted where the global row and column numbers coincide; and the two number vectors (global row
  number down the block, global column number along the tile) read at an entry as words.
-/
import Idealize.ShloMosaic.Lib.ValueIdx
import Idealize.ShloMosaic.Lib.Pipeline.Value
import Idealize.ShloMosaic.Lib.ValueLayout
import Idealize.ShloMosaic.PureOps.Ideal.Laws
import proofs.«166013_j38044820308458_2_alg».proof.Proof.TileDefs
import proofs.«166013_j38044820308458_2_alg».proof.Proof.LibRowOps
import proofs.«166013_j38044820308458_2_alg».proof.Proof.LibWordsAt

noncomputable section

open scoped BigOperators

namespace Cert.KernelIdeal.Tile

open Idealize.ShloMosaic Idealize.ShloMosaic.ValueIdx Cert.KernelIdeal Cert.KernelIdeal.Gen

/-! ## Words: numbers below 2³² as 32-bit words -/

/-- Two numbers below 2³² have the same 32-bit word only if they are equal. -/
theorem ofNat32_inj {a b : ℕ} (ha : a < 2 ^ 32) (hb : b < 2 ^ 32) : BitVec.ofNat 32 a = BitVec.ofNat 32 b ↔ a = b := by
  constructor
  · intro h
    have h' := congrArg BitVec.toNat h
    rwa [BitVec.toNat_ofNat, BitVec.toNat_ofNat, Nat.mod_eq_of_lt ha, Nat.mod_eq_of_lt hb] at h'
  · rintro rfl; rfl

/-- A select on the equality of two words is the \`if\` on it. -/
theorem select_cmpi_eq {α : Type} (x y : BitVec 32) (A B : α) :
    Scalar.select (IntOp.cmpi .eq x y) A B = if x = y then A else B := by
  show (if BitVec.ofBool (x == y) = 1#1 then A else B) = _
  by_cases h : x = y
  · rw [if_pos h, h, beq_self_eq_true, if_pos (by decide)]
  · rw [if_neg h, beq_eq_false_iff_ne.mpr h, if_neg (by decide)]

/-- The exclusive or of a number's word with the word 1 is the word of the number's exclusive or with 1. -/
theorem ofNat32_xor_one (a : ℕ) : IntOp.xori (BitVec.ofNat 32 a) 1#32 = BitVec.ofNat 32 (a ^^^ 1) := by
  unfold IntOp.xori
  apply BitVec.eq_of_toNat_eq
  rw [BitVec.toNat_xor, BitVec.toNat_ofNat, BitVec.toNat_ofNat]
  show a % 2 ^ 32 ^^^ 1 = (a ^^^ 1) % 2 ^ 32
  exact (Nat.xor_mod_two_pow (a := a) (b := 1) (n := 32)).symm ▸ rfl

/-! ## The global row and column numbers -/

/-- The block's row number vector at row \`r\`: the word of \`2048 · i₀ + r\`. -/
theorem pay10_at (i : grid0.Coords) (r : Fin 2048) :
    k0_pay10 i (ix2 r (0 : Fin 1)) = BitVec.ofNat 32 ((i 0).val * 2048 + r.val) := by
  show IntOp.addi (Scalar.muli (BitVec.ofNat 32 (i 0).val) 2048#32)
      (iota .tc S2048x1 32 [0] iota_S2048x1_d0_w32 (ix2 r (0 : Fin 1))) = _
  rw [iota_single_apply]
  show BitVec.ofNat 32 (i 0).val * BitVec.ofNat 32 2048 + BitVec.ofNat 32 r.val = _
  rw [BitVec.ofNat_add, BitVec.ofNat_mul]

/-- The tile's column number vector at column \`j\`: the word of \`512 · i₁ + j\`. -/
theorem pay11_at (i : grid0.Coords) (j : Fin 512) :
    k0_pay11 i (ix2 (0 : Fin 1) j) = BitVec.ofNat 32 ((i 1).val * 512 + j.val) := by
  show IntOp.addi (Scalar.muli (BitVec.ofNat 32 (i 1).val) 512#32)
      (iota .tc S1x512 32 [1] iota_S1x512_d1_w32 (ix2 (0 : Fin 1) j)) = _
  rw [iota_single_apply]
  show BitVec.ofNat 32 (i 1).val * BitVec.ofNat 32 512 + BitVec.ofNat 32 j.val = _
  rw [BitVec.ofNat_add, BitVec.ofNat_mul]

/-- The global row number stays below 2³². -/
theorem row_lt (i : grid0.Coords) (r : Fin 2048) : (i 0).val * 2048 + r.val < 2 ^ 32 := by
  have h0 : (i 0).val < 4 := (i 0).isLt
  have hr := r.isLt
  omega

/-- The global column number stays below 2³². -/
theorem col_lt (i : grid0.Coords) (j : Fin 512) : (i 1).val * 512 + j.val < 2 ^ 32 := by
  have h1 : (i 1).val < 16 := (i 1).isLt
  have hj := j.isLt
  omega

/-! ## The product of a matrix with a transposed one -/

/-- A plain M×K by K×N product into the zero accumulator, at \`(a, b)\`: the sum over the contracted coordinate. -/
theorem matmul_plain_zero_apply {M K N : ℕ} {φ₁ φ₂ : FTy} (prec : Option ContractPrecision)
    (X : FVec Ideal ⟨2, ![M, K]⟩ φ₁) (Y : FVec Ideal ⟨2, ![K, N]⟩ φ₂) (a : Fin M) (b : Fin N) :
    FloatOps.matmul (DotDims.plain M K N) prec X Y (constant ⟨2, ![M, N]⟩ .f32 0x00000000#32) (ix2 a b)
      = ∑ c : Fin K, X (ix2 a c) * Y (ix2 c b) := by
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

/-- The program's dimension numbers are the plain ones. -/
theorem dot_eq_plain : dot_S2048x768_S768x512_S2048x512_1_0_0_1_n_n = DotDims.plain 2048 768 512 := rfl

/-! ## The tile's entry -/

/-- The tile read at \`(r, j)\`. -/
theorem pay12_at (i : grid0.Coords) (A : FVec Ideal S2048x768 .bf16) (B : FVec Ideal S512x768 .bf16)
    (r : Fin 2048) (j : Fin 512) : k0_pay12 (F := Ideal) i A B (ix2 r j) = simT i A B r j := by
  -- the product at (r, j)
  have hdot : matmul dot_S2048x768_S768x512_S2048x512_1_0_0_1_n_n none
        (shapeCast S2048x768 A shapeCasts_S2048x768_S2048x768)
        (transpose S768x512 [1, 0] (shapeCast S512x768 B shapeCasts_S512x768_S512x768) transposes_S512x768_p1_0_S768x512)
        (constant S2048x512 .f32 0x00000000#32) (ix2 r j) = dotT A B r j := by
    rw [shapeCast_self, shapeCast_self, dot_eq_plain]
    refine (matmul_plain_zero_apply none A _ r j).trans ?_
    exact Finset.sum_congr rfl fun c _ => by rw [transpose_ix2_apply]
  -- the diagonal's condition at (r, j)
  have hrow : broadcastTo S2048x512 (k0_pay10 i) broadcasts_S2048x1_S2048x512 (ix2 r j)
      = BitVec.ofNat 32 ((i 0).val * 2048 + r.val) :=
    (RowOps.colBcast_apply (k0_pay10 i) broadcasts_S2048x1_S2048x512 r j).trans (pay10_at i r)
  have hcol : broadcastTo S2048x512 (k0_pay11 i) broadcasts_S1x512_S2048x512 (ix2 r j)
      = BitVec.ofNat 32 ((i 1).val * 512 + j.val) :=
    (broadcastTo_1b_ab_apply (k0_pay11 i) broadcasts_S1x512_S2048x512 r j).trans (pay11_at i j)
  show Scalar.select (IntOp.cmpi .eq (broadcastTo S2048x512 (k0_pay10 i) broadcasts_S2048x1_S2048x512 (ix2 r j))
        (broadcastTo S2048x512 (k0_pay11 i) broadcasts_S1x512_S2048x512 (ix2 r j)))
      (matmul dot_S2048x768_S768x512_S2048x512_1_0_0_1_n_n none
        (shapeCast S2048x768 A shapeCasts_S2048x768_S2048x768)
        (transpose S768x512 [1, 0] (shapeCast S512x768 B shapeCasts_S512x768_S512x768) transposes_S512x768_p1_0_S768x512)
        (constant S2048x512 .f32 0x00000000#32) (ix2 r j) - Ideal.ofBits .f32 0x5368D4A5#32)
      (matmul dot_S2048x768_S768x512_S2048x512_1_0_0_1_n_n none
        (shapeCast S2048x768 A shapeCasts_S2048x768_S2048x768)
        (transpose S768x512 [1, 0] (shapeCast S512x768 B shapeCasts_S512x768_S512x768) transposes_S512x768_p1_0_S768x512)
        (constant S2048x512 .f32 0x00000000#32) (ix2 r j)) = _
  rw [hdot, hrow, hcol, select_cmpi_eq]
  exact (if_congr (ofNat32_inj (row_lt i r) (col_lt i j)) rfl rfl).trans rfl

end Cert.KernelIdeal.Tile

end
-- ==== Proof.TileVal.lean ====
/-
  One grid point's arithmetic on the three carried columns read at a row: the running maximum and denominator follow
  the online recurrence on the tile's scaled logits, the third column adds the tile's entry at the row's label column,
  the first tile starts from (-∞, 0, 0), and the last tile writes m + log l and the label's entry scaled.
-/
import Idealize.ShloMosaic.PureOps.IdealRules
import proofs.«166013_j38044820308458_2_alg».proof.Proof.TileValSim

noncomputable section

open scoped BigOperators

namespace Cert.KernelIdeal.Tile

open Idealize.ShloMosaic Idealize.ShloMosaic.ValueIdx Cert.KernelIdeal Cert.KernelIdeal.Gen

/-! ## The named scale -/

/-- The kernel's reciprocal temperature is the named rational. -/
theorem inv_temp : Named.named (F := Ideal) κ "inv_temp" (φ := .f32) 0x41A00000#32 = Spec.invTemp :=
  IdealRules.named_const.ideal_named_scalar _ _ _ _ rfl

/-- The scale's splat at an entry. -/
theorem pay14_at (r : Fin 2048) (j : Fin 512) : k0_pay14 (F := Ideal) (ix2 r j) = Spec.invTemp := inv_temp

/-! ## A fold of max from the bottom element is the supremum -/

theorem fold_max_bot {ι : Type} (s : Finset ι) (f : ι → EReal) : s.fold max ⊥ f = s.sup f := by
  classical
  induction s using Finset.induction_on with
  | empty => rw [Finset.fold_empty, Finset.sup_empty]
  | insert a s ha ih => rw [Finset.fold_insert ha, Finset.sup_insert, ih]

/-! ## The running maximum and denominator, for any tile \`Z\` and scale \`C\` -/

section Cols
variable (Z C : FVec Ideal S2048x512 .f32) (m m' l : FVec Ideal S2048x1 .f32) (r : Fin 2048)

/-- The scaled tile's maximum over row \`r\`. -/
theorem rowmax_at :
    shapeCast S2048x1 (multiReduction .maximumf [1] S2048 (k0_pay1 Z C) 0xFF800000#32 reduces_S2048x512_S2048 (.inl rfl) rfl)
        shapeCasts_S2048_S2048x1 (ix2 r (0 : Fin 1))
      = Finset.univ.sup fun j : Fin 512 => Z (ix2 r j) * C (ix2 r j) := by
  refine (RowOps.colCast_apply _ shapeCasts_S2048_S2048x1 r).trans ?_
  refine (RowOps.rowMax_vector (k0_pay1 Z C) 0xFF800000#32 reduces_S2048x512_S2048 (.inl rfl) rfl r).trans ?_
  rw [WordsAt.ofBits_neg_inf_f32, fold_max_bot]
  rfl

/-- The new maximum: the old one against the scaled tile's row maximum. -/
theorem pay2_at : k0_pay2 Z C m (ix2 r (0 : Fin 1))
    = max (m (ix2 r (0 : Fin 1))) (Finset.univ.sup fun j : Fin 512 => Z (ix2 r j) * C (ix2 r j)) :=
  congrArg (max (m (ix2 r (0 : Fin 1)))) (rowmax_at Z C r)

/-- The new maximum is stored as it is. -/
theorem pay4_at : k0_pay4 Z C m (ix2 r (0 : Fin 1)) = k0_pay2 Z C m (ix2 r (0 : Fin 1)) :=
  congrFun (shapeCast_self (k0_pay2 Z C m) shapeCasts_S2048x1_S2048x1) (ix2 r (0 : Fin 1))

/-- A tile's sum over row \`r\`. -/
theorem rowsum_at (W : FVec Ideal S2048x512 .f32) :
    shapeCast S2048x1 (multiReduction .add [1] S2048 W 0x00000000#32 reduces_S2048x512_S2048 (.inl rfl) rfl)
        shapeCasts_S2048_S2048x1 (ix2 r (0 : Fin 1))
      = ∑ j : Fin 512, W (ix2 r j) :=
  (RowOps.colCast_apply _ shapeCasts_S2048_S2048x1 r).trans
    (RowOps.rowSum_vector W 0x00000000#32 reduces_S2048x512_S2048 (.inl rfl) rfl r)

/-- The rescaled denominator plus the tile's exponentials. -/
theorem pay3_at : k0_pay3 Z C m m' l (ix2 r (0 : Fin 1))
    = Ideal.exp (m' (ix2 r (0 : Fin 1)) - k0_pay2 Z C m (ix2 r (0 : Fin 1))) * l (ix2 r (0 : Fin 1))
      + ∑ j : Fin 512, Ideal.exp (Z (ix2 r j) * C (ix2 r j) - k0_pay2 Z C m (ix2 r (0 : Fin 1))) := by
  show shapeCast S2048x1
      (addf (mulf (exp (subf m' (k0_pay2 Z C m))) l)
        (shapeCast S2048x1
          (multiReduction .add [1] S2048
            (exp (subf (k0_pay1 Z C) (broadcastTo S2048x512 (k0_pay2 Z C m) broadcasts_S2048x1_S2048x512)))
            0x00000000#32 reduces_S2048x512_S2048 (.inl rfl) rfl)
          shapeCasts_S2048_S2048x1))
      shapeCasts_S2048x1_S2048x1 (ix2 r (0 : Fin 1)) = _
  refine (congrFun (shapeCast_self _ shapeCasts_S2048x1_S2048x1) (ix2 r (0 : Fin 1))).trans ?_
  refine (congrArg (fun t => Ideal.exp (m' (ix2 r (0 : Fin 1)) - k0_pay2 Z C m (ix2 r (0 : Fin 1))) * l (ix2 r (0 : Fin 1)) + t)
    (rowsum_at r (exp (subf (k0_pay1 Z C) (broadcastTo S2048x512 (k0_pay2 Z C m) broadcasts_S2048x1_S2048x512))))).trans ?_
  refine congrArg (fun t => Ideal.exp (m' (ix2 r (0 : Fin 1)) - k0_pay2 Z C m (ix2 r (0 : Fin 1))) * l (ix2 r (0 : Fin 1)) + t)
    (Finset.sum_congr rfl fun j _ => ?_)
  refine congrArg (fun t => Ideal.exp (Z (ix2 r j) * C (ix2 r j) - t)) ?_
  exact RowOps.colBcast_apply (k0_pay2 Z C m) broadcasts_S2048x1_S2048x512 r j

end Cols

/-! ## The label's column -/

/-- The tile's entry where the column is the row's label, zero elsewhere. -/
theorem lab_at (i : grid0.Coords) (A : FVec Ideal S2048x768 .bf16) (B : FVec Ideal S512x768 .bf16)
    (r : Fin 2048) (j : Fin 512) :
    select (cmpi .eq (broadcastTo S2048x512 (k0_pay11 i) broadcasts_S1x512_S2048x512)
          (broadcastTo S2048x512 (xori (k0_pay10 i) (broadcast S2048x1 1#32)) broadcasts_S2048x1_S2048x512))
        (k0_pay12 (F := Ideal) i A B) (broadcast S2048x512 (Scalar.ofBits .f32 0x00000000#32)) (ix2 r j)
      = if (i 1).val * 512 + j.val = ((i 0).val * 2048 + r.val) ^^^ 1 then simT i A B r j else 0 := by
  have hcol : broadcastTo S2048x512 (k0_pay11 i) broadcasts_S1x512_S2048x512 (ix2 r j)
      = BitVec.ofNat 32 ((i 1).val * 512 + j.val) :=
    (broadcastTo_1b_ab_apply (k0_pay11 i) broadcasts_S1x512_S2048x512 r j).trans (pay11_at i j)
  have hrow : broadcastTo S2048x512 (xori (k0_pay10 i) (broadcast S2048x1 1#32)) broadcasts_S2048x1_S2048x512 (ix2 r j)
      = BitVec.ofNat 32 (((i 0).val * 2048 + r.val) ^^^ 1) := by
    refine (RowOps.colBcast_apply _ broadcasts_S2048x1_S2048x512 r j).trans ?_
    show IntOp.xori (k0_pay10 i (ix2 r (0 : Fin 1))) 1#32 = _
    rw [pay10_at, ofNat32_xor_one]
  show Scalar.select (IntOp.cmpi .eq (broadcastTo S2048x512 (k0_pay11 i) broadcasts_S1x512_S2048x512 (ix2 r j))
        (broadcastTo S2048x512 (xori (k0_pay10 i) (broadcast S2048x1 1#32)) broadcasts_S2048x1_S2048x512 (ix2 r j)))
      (k0_pay12 (F := Ideal) i A B (ix2 r j)) (Ideal.ofBits .f32 0x00000000#32) = _
  rw [hcol, hrow, select_cmpi_eq, pay12_at, Ideal.ofBits_zero_f32]
  exact if_congr (ofNat32_inj (col_lt i j) (Nat.xor_lt_two_pow (row_lt i r) (by norm_num))) rfl rfl

/-- The third column: the old entry plus the tile's entry at the label column. -/
theorem pay13_at (i : grid0.Coords) (A : FVec Ideal S2048x768 .bf16) (B : FVec Ideal S512x768 .bf16)
    (p : FVec Ideal S2048x1 .f32) (r : Fin 2048) :
    k0_pay13 (F := Ideal) i A B p (ix2 r (0 : Fin 1)) = p (ix2 r (0 : Fin 1))
      + ∑ j : Fin 512, (if (i 1).val * 512 + j.val = ((i 0).val * 2048 + r.val) ^^^ 1 then simT i A B r j else 0) := by
  show shapeCast S2048x1
      (addf p
        (shapeCast S2048x1
          (multiReduction .add [1] S2048
            (select (cmpi .eq (broadcastTo S2048x512 (k0_pay11 i) broadcasts_S1x512_S2048x512)
                (broadcastTo S2048x512 (xori (k0_pay10 i) (broadcast S2048x1 1#32)) broadcasts_S2048x1_S2048x512))
              (k0_pay12 (F := Ideal) i A B) (broadcast S2048x512 (Scalar.ofBits .f32 0x00000000#32)))
            0x00000000#32 reduces_S2048x512_S2048 (.inl rfl) rfl)
          shapeCasts_S2048_S2048x1))
      shapeCasts_S2048x1_S2048x1 (ix2 r (0 : Fin 1)) = _
  refine (congrFun (shapeCast_self _ shapeCasts_S2048x1_S2048x1) (ix2 r (0 : Fin 1))).trans ?_
  refine (congrArg (fun t => p (ix2 r (0 : Fin 1)) + t) (rowsum_at r _)).trans ?_
  exact congrArg (fun t => p (ix2 r (0 : Fin 1)) + t) (Finset.sum_congr rfl fun j _ => lab_at i A B r j)

/-! ## The claims of this file -/

section Claims
variable (i : grid0.Coords) (A : FVec Ideal S2048x768 .bf16) (B : FVec Ideal S512x768 .bf16)
  (s : Carried.Scr Ideal) (r : Fin 2048)

/-- The tile's scaled logits along row \`r\`. -/
theorem scaled_at : (fun j : Fin 512 => k0_pay12 (F := Ideal) i A B (ix2 r j) * k0_pay14 (F := Ideal) (ix2 r j))
    = fun j : Fin 512 => zT i A B r j :=
  funext fun j => by rw [pay12_at, pay14_at]; rfl

/-- One tile moves the running pair by the online recurrence's step on the tile's scaled logits. -/
theorem upd_ml : ((Carried.upd i A B s).m (ix2 r (0 : Fin 1)), (Carried.upd i A B s).l (ix2 r (0 : Fin 1)))
    = LibOnlineSoftmax.step (fun j : Fin 512 => zT i A B r j) (s.m (ix2 r (0 : Fin 1)), s.l (ix2 r (0 : Fin 1))) := by
  have hm : k0_pay2 (k0_pay12 (F := Ideal) i A B) k0_pay14 s.m (ix2 r (0 : Fin 1))
      = max (s.m (ix2 r (0 : Fin 1))) (Finset.univ.sup fun j : Fin 512 => zT i A B r j) := by
    rw [pay2_at, scaled_at]
  refine Prod.ext ?_ ?_
  · show k0_pay4 (k0_pay12 (F := Ideal) i A B) k0_pay14 s.m (ix2 r (0 : Fin 1))
        = max (s.m (ix2 r (0 : Fin 1))) (Finset.univ.sup fun j : Fin 512 => zT i A B r j)
    rw [pay4_at, hm]
  · show k0_pay3 (k0_pay12 (F := Ideal) i A B) k0_pay14 s.m s.m s.l (ix2 r (0 : Fin 1))
        = Ideal.exp (s.m (ix2 r (0 : Fin 1)) - max (s.m (ix2 r (0 : Fin 1))) (Finset.univ.sup fun j : Fin 512 => zT i A B r j))
            * s.l (ix2 r (0 : Fin 1))
          + ∑ j : Fin 512, Ideal.exp (zT i A B r j
              - max (s.m (ix2 r (0 : Fin 1))) (Finset.univ.sup fun j : Fin 512 => zT i A B r j))
    rw [pay3_at, hm]
    refine congrArg (fun t => _ + t) (Finset.sum_congr rfl fun j _ => ?_)
    rw [pay12_at, pay14_at]; rfl

/-- One tile adds the tile's entry at the row's label column to the third column. -/
theorem upd_p : (Carried.upd i A B s).p (ix2 r (0 : Fin 1)) = s.p (ix2 r (0 : Fin 1))
    + ∑ j : Fin 512, (if (i 1).val * 512 + j.val = ((i 0).val * 2048 + r.val) ^^^ 1 then simT i A B r j else 0) :=
  pay13_at i A B s.p r

/-- The first tile starts from -∞ … -/
theorem init_m : (Carried.init (F := Ideal)).m (ix2 r (0 : Fin 1)) = ⊥ := by
  show shapeCast S2048x1 (broadcast S2048x1 (Scalar.ofBits (F := Ideal) .f32 0xFF800000#32)) shapeCasts_S2048x1_S2048x1
    (ix2 r (0 : Fin 1)) = _
  rw [shapeCast_self]
  exact WordsAt.ofBits_neg_inf_f32

/-- … zero … -/
theorem init_l : (Carried.init (F := Ideal)).l (ix2 r (0 : Fin 1)) = 0 := by
  show shapeCast S2048x1 (broadcast S2048x1 (Scalar.ofBits (F := Ideal) .f32 0x00000000#32)) shapeCasts_S2048x1_S2048x1
    (ix2 r (0 : Fin 1)) = _
  rw [shapeCast_self]
  exact Ideal.ofBits_zero_f32

/-- … and zero. -/
theorem init_p : (Carried.init (F := Ideal)).p (ix2 r (0 : Fin 1)) = 0 := by
  show shapeCast S2048x1 (broadcast S2048x1 (Scalar.ofBits (F := Ideal) .f32 0x00000000#32)) shapeCasts_S2048x1_S2048x1
    (ix2 r (0 : Fin 1)) = _
  rw [shapeCast_self]
  exact Ideal.ofBits_zero_f32

/-- The last tile writes the running maximum plus the logarithm of the running denominator … -/
theorem out2_at : Carried.out2 s (ix2 r (0 : Fin 1)) = s.m (ix2 r (0 : Fin 1)) + Ideal.log (s.l (ix2 r (0 : Fin 1))) := rfl

/-- … and the third column scaled. -/
theorem out3_at : Carried.out3 s (ix2 r (0 : Fin 1)) = s.p (ix2 r (0 : Fin 1)) * Spec.invTemp := by
  show s.p (ix2 r (0 : Fin 1)) * Named.named (F := Ideal) κ "inv_temp" (φ := .f32) 0x41A00000#32 = _
  rw [inv_temp]

end Claims

end Cert.KernelIdeal.Tile

end
-- ==== Proof.TileSpec.lean ====
/-
  A tile cut from the normalised matrix carries the specification's logits: if the row block `A` holds rows
  `ib · 2048 …` and the column tile `B` holds rows `kt · 512 …` of the normalised matrix, then the tile's inner products
  are the similarities of those global rows, the tile's diagonal test is the global one, and the scaled entries are
  the kernel's logits read by flat position.
-/
import proofs.«166013_j38044820308458_2_alg».proof.Proof.TileDefs

noncomputable section

namespace Cert.KernelIdeal.Tile

open Idealize.ShloMosaic Idealize.ShloMosaic.ValueIdx Cert.KernelIdeal

/-- The global row of local row `r` of row block `ib`. -/
theorem grow_lt {ib : ℕ} (hib : ib < 4) (r : Fin 2048) : ib * 2048 + r.val < 8192 := by
  have := r.isLt; omega

/-- The global column of local column `j` of tile `kt`. -/
theorem gcol_lt {kt : ℕ} (hkt : kt < 16) (j : Fin 512) : kt * 512 + j.val < 8192 := by
  have := j.isLt; omega

/-- The tile's inner product is the similarity of the two global rows. -/
theorem dotT_spec (X : Fin 8192 → Fin 768 → EReal) (ib kt : ℕ) (hib : ib < 4) (hkt : kt < 16)
    (A : FVec Ideal S2048x768 .bf16) (B : FVec Ideal S512x768 .bf16)
    (hA : ∀ (r : Fin 2048) (k : Fin 768), A (ix2 r k) = Spec.xn X ⟨ib * 2048 + r.val, grow_lt hib r⟩ k)
    (hB : ∀ (j : Fin 512) (k : Fin 768), B (ix2 j k) = Spec.xn X ⟨kt * 512 + j.val, gcol_lt hkt j⟩ k)
    (r : Fin 2048) (j : Fin 512) :
    dotT A B r j = Spec.sim X ⟨ib * 2048 + r.val, grow_lt hib r⟩ ⟨kt * 512 + j.val, gcol_lt hkt j⟩ := by
  unfold dotT Spec.sim
  exact Finset.sum_congr rfl fun k _ => by rw [hA r k, hB j k]

/-- The tile's entry: the similarity, with the penalty exactly on the global diagonal. -/
theorem simT_spec (X : Fin 8192 → Fin 768 → EReal) (ib kt : ℕ) (hib : ib < 4) (hkt : kt < 16)
    (i : grid0.Coords) (hi0 : (i 0).val = ib) (hi1 : (i 1).val = kt)
    (A : FVec Ideal S2048x768 .bf16) (B : FVec Ideal S512x768 .bf16)
    (hA : ∀ (r : Fin 2048) (k : Fin 768), A (ix2 r k) = Spec.xn X ⟨ib * 2048 + r.val, grow_lt hib r⟩ k)
    (hB : ∀ (j : Fin 512) (k : Fin 768), B (ix2 j k) = Spec.xn X ⟨kt * 512 + j.val, gcol_lt hkt j⟩ k)
    (r : Fin 2048) (j : Fin 512) :
    simT i A B r j
      = (if (⟨ib * 2048 + r.val, grow_lt hib r⟩ : Fin 8192).val = kt * 512 + j.val
          then Spec.sim X ⟨ib * 2048 + r.val, grow_lt hib r⟩ ⟨kt * 512 + j.val, gcol_lt hkt j⟩ - Spec.pen
          else Spec.sim X ⟨ib * 2048 + r.val, grow_lt hib r⟩ ⟨kt * 512 + j.val, gcol_lt hkt j⟩) := by
  unfold simT
  rw [hi0, hi1, dotT_spec X ib kt hib hkt A B hA hB r j]

/-- The tile's logit is the kernel's logit of the global row at the flat position of the global column. -/
theorem zT_spec (X : Fin 8192 → Fin 768 → EReal) (ib kt : ℕ) (hib : ib < 4) (hkt : kt < 16)
    (i : grid0.Coords) (hi0 : (i 0).val = ib) (hi1 : (i 1).val = kt)
    (A : FVec Ideal S2048x768 .bf16) (B : FVec Ideal S512x768 .bf16)
    (hA : ∀ (r : Fin 2048) (k : Fin 768), A (ix2 r k) = Spec.xn X ⟨ib * 2048 + r.val, grow_lt hib r⟩ k)
    (hB : ∀ (j : Fin 512) (k : Fin 768), B (ix2 j k) = Spec.xn X ⟨kt * 512 + j.val, gcol_lt hkt j⟩ k)
    (r : Fin 2048) (j : Fin 512) :
    zT i A B r j = Spec.zKn X ⟨ib * 2048 + r.val, grow_lt hib r⟩ (kt * 512 + j.val) := by
  unfold zT Spec.zKn Spec.zK
  rw [simT_spec X ib kt hib hkt i hi0 hi1 A B hA hB r j, dif_pos (gcol_lt hkt j)]
  by_cases h : ib * 2048 + r.val = kt * 512 + j.val
  · rw [if_pos h, if_pos (Fin.ext h)]
  · rw [if_neg h, if_neg (fun e => h (congrArg Fin.val e))]

end Cert.KernelIdeal.Tile

end
-- ==== Proof.PosSum.lean ====
/-
  A sum over 16 tiles of 512 columns that is zero everywhere except at one flat position is the value there.

  A flat position n0 below 8192 is k * 512 + j for exactly one tile k = n0 / 512 and one column j = n0 % 512, so of
  the 16 * 512 summands only that one is not zero.
-/
import proofs.«166013_j38044820308458_2_alg».proof.Proof.Spec

noncomputable section

open scoped BigOperators

namespace Spec

/-- The one tile and column that hit the flat position n0 contribute f n0; every other summand is zero. -/
theorem sum_tiles_single (f : ℕ → EReal) (n0 : ℕ) (h : n0 < 8192) :
    (∑ k ∈ Finset.range 16, ∑ j : Fin 512, (if k * 512 + j.val = n0 then f (k * 512 + j.val) else 0)) = f n0 := by
  rw [Finset.sum_eq_single (n0 / 512)]
  · rw [Finset.sum_eq_single (⟨n0 % 512, Nat.mod_lt _ (by norm_num)⟩ : Fin 512)]
    · have he : n0 / 512 * 512 + n0 % 512 = n0 := by omega
      show (if n0 / 512 * 512 + n0 % 512 = n0 then f (n0 / 512 * 512 + n0 % 512) else 0) = f n0
      rw [if_pos he, he]
    · intro j _ hj
      rw [if_neg]
      intro he
      apply hj
      apply Fin.ext
      show j.val = n0 % 512
      have := j.isLt
      omega
    · intro hh
      exact absurd (Finset.mem_univ _) hh
  · intro k _ hk
    apply Finset.sum_eq_zero
    intro j _
    rw [if_neg]
    intro he
    apply hk
    have := j.isLt
    omega
  · intro hh
    exfalso
    apply hh
    rw [Finset.mem_range]
    omega

end Spec

end
-- ==== Proof.RowVal.lean ====
/-
  From one tile to a whole row of the specification. A row block passes 16 column tiles; each tile updates the running
  pair `(m, l)` by the online recurrence on that tile's logits and adds the label column's similarity to the
  accumulator when the label's column lies in the tile. By induction over the tiles, after the last one the pair is
  the recurrence's state after all 16 tiles of the global row's logits, so `m + log l` is the specification's
  log-sum-exp, and the accumulator holds exactly the similarity at the label column (one flat position out of
  16 · 512), which scaled by the reciprocal temperature is the specification's label logit.
-/
import proofs.«166013_j38044820308458_2_alg».proof.Proof.TileVal
import proofs.«166013_j38044820308458_2_alg».proof.Proof.TileSpec
import proofs.«166013_j38044820308458_2_alg».proof.Proof.PosSum

noncomputable section

namespace Cert.KernelIdeal.RowVal

open Idealize.ShloMosaic Idealize.ShloMosaic.ValueIdx Cert.KernelIdeal

/-- Flipping the lowest bit changes a number. -/
theorem xor_one_ne (n : ℕ) : n ^^^ 1 ≠ n := by
  intro h
  have e : n ^^^ (n ^^^ 1) = n ^^^ n := congrArg (fun t => n ^^^ t) h
  rw [← Nat.xor_assoc, Nat.xor_self, Nat.zero_xor] at e
  exact absurd e (by decide)

/-- Row `g`'s similarities by flat position (positions past the row's end are never read). -/
def simN (X : Fin 8192 → Fin 768 → EReal) (g : Fin 8192) (n : ℕ) : EReal :=
  if h : n < 8192 then Spec.sim X g ⟨n, h⟩ else 0

section
variable (X : Fin 8192 → Fin 768 → EReal) (ib : ℕ) (hib : ib < 4)
  (A : FVec Ideal S2048x768 .bf16) (B : ℕ → FVec Ideal S512x768 .bf16) (i : ℕ → grid0.Coords)

/-- One tile's update of the pair `(m, l)` at row `r`, in the specification's logits. -/
theorem upd_pair
    (hi0 : ∀ k, k < 16 → ((i k) 0).val = ib) (hi1 : ∀ k, k < 16 → ((i k) 1).val = k)
    (hA : ∀ (r : Fin 2048) (c : Fin 768), A (ix2 r c) = Spec.xn X ⟨ib * 2048 + r.val, Tile.grow_lt hib r⟩ c)
    (hB : ∀ k (hk : k < 16) (j : Fin 512) (c : Fin 768),
      B k (ix2 j c) = Spec.xn X ⟨k * 512 + j.val, Tile.gcol_lt hk j⟩ c)
    (r : Fin 2048) (k : ℕ) (hk : k < 16) (s' : Carried.Scr Ideal) :
    ((Carried.upd (i k) A (B k) s').m (ix2 r 0), (Carried.upd (i k) A (B k) s').l (ix2 r 0))
      = LibOnlineSoftmax.step (fun j : Fin 512 => Spec.zKn X ⟨ib * 2048 + r.val, Tile.grow_lt hib r⟩ (k * 512 + j.val))
          (s'.m (ix2 r 0), s'.l (ix2 r 0)) := by
  rw [Tile.upd_ml]
  congr 1
  funext j
  exact Tile.zT_spec X ib k hib hk (i k) (hi0 k hk) (hi1 k hk) A (B k) hA (hB k hk) r j

/-- One tile's update of the label column's accumulator at row `r`: the label's similarity if its column lies in
    the tile. The label column is never the diagonal, so no penalty enters. -/
theorem upd_pos
    (hi0 : ∀ k, k < 16 → ((i k) 0).val = ib) (hi1 : ∀ k, k < 16 → ((i k) 1).val = k)
    (hA : ∀ (r : Fin 2048) (c : Fin 768), A (ix2 r c) = Spec.xn X ⟨ib * 2048 + r.val, Tile.grow_lt hib r⟩ c)
    (hB : ∀ k (hk : k < 16) (j : Fin 512) (c : Fin 768),
      B k (ix2 j c) = Spec.xn X ⟨k * 512 + j.val, Tile.gcol_lt hk j⟩ c)
    (r : Fin 2048) (k : ℕ) (hk : k < 16) (s' : Carried.Scr Ideal) :
    (Carried.upd (i k) A (B k) s').p (ix2 r 0)
      = s'.p (ix2 r 0) + ∑ j : Fin 512,
          (if k * 512 + j.val = (ib * 2048 + r.val) ^^^ 1
            then simN X ⟨ib * 2048 + r.val, Tile.grow_lt hib r⟩ (k * 512 + j.val) else 0) := by
  rw [Tile.upd_p, hi0 k hk, hi1 k hk]
  congr 1
  refine Finset.sum_congr rfl fun j _ => ?_
  by_cases h : k * 512 + j.val = (ib * 2048 + r.val) ^^^ 1
  · rw [if_pos h, if_pos h,
      Tile.simT_spec X ib k hib hk (i k) (hi0 k hk) (hi1 k hk) A (B k) hA (hB k hk) r j,
      if_neg (fun e : ib * 2048 + r.val = k * 512 + j.val => xor_one_ne _ (h.symm.trans e.symm))]
    unfold simN
    rw [dif_pos (Tile.gcol_lt hk j)]
  · rw [if_neg h, if_neg h]

variable (s : ℕ → Carried.Scr Ideal)

/-- After tile `k` of a row block the pair `(m, l)` at row `r` is the online recurrence's state after `k + 1` tiles of
    the global row's logits. -/
theorem pair_at
    (hs0 : s 0 = Carried.upd (i 0) A (B 0) Carried.init)
    (hs : ∀ k, k < 15 → s (k + 1) = Carried.upd (i (k + 1)) A (B (k + 1)) (s k))
    (hi0 : ∀ k, k < 16 → ((i k) 0).val = ib) (hi1 : ∀ k, k < 16 → ((i k) 1).val = k)
    (hA : ∀ (r : Fin 2048) (c : Fin 768), A (ix2 r c) = Spec.xn X ⟨ib * 2048 + r.val, Tile.grow_lt hib r⟩ c)
    (hB : ∀ k (hk : k < 16) (j : Fin 512) (c : Fin 768),
      B k (ix2 j c) = Spec.xn X ⟨k * 512 + j.val, Tile.gcol_lt hk j⟩ c)
    (r : Fin 2048) (k : ℕ) (hk : k < 16) :
    ((s k).m (ix2 r 0), (s k).l (ix2 r 0))
      = LibOnlineSoftmax.stateE
          (fun k' (j : Fin 512) => Spec.zKn X ⟨ib * 2048 + r.val, Tile.grow_lt hib r⟩ (k' * 512 + j.val)) (k + 1) := by
  induction k with
  | zero =>
    rw [hs0, upd_pair X ib hib A B i hi0 hi1 hA hB r 0 hk, Tile.init_m, Tile.init_l]
    rfl
  | succ k ih =>
    rw [hs k (by omega), upd_pair X ib hib A B i hi0 hi1 hA hB r (k + 1) hk, ih (by omega)]
    rfl

/-- After tile `k` of a row block the accumulator at row `r` holds the label's similarity if the label's column lies
    in the tiles passed so far. -/
theorem pos_at
    (hs0 : s 0 = Carried.upd (i 0) A (B 0) Carried.init)
    (hs : ∀ k, k < 15 → s (k + 1) = Carried.upd (i (k + 1)) A (B (k + 1)) (s k))
    (hi0 : ∀ k, k < 16 → ((i k) 0).val = ib) (hi1 : ∀ k, k < 16 → ((i k) 1).val = k)
    (hA : ∀ (r : Fin 2048) (c : Fin 768), A (ix2 r c) = Spec.xn X ⟨ib * 2048 + r.val, Tile.grow_lt hib r⟩ c)
    (hB : ∀ k (hk : k < 16) (j : Fin 512) (c : Fin 768),
      B k (ix2 j c) = Spec.xn X ⟨k * 512 + j.val, Tile.gcol_lt hk j⟩ c)
    (r : Fin 2048) (k : ℕ) (hk : k < 16) :
    (s k).p (ix2 r 0)
      = ∑ k' ∈ Finset.range (k + 1), ∑ j : Fin 512,
          (if k' * 512 + j.val = (ib * 2048 + r.val) ^^^ 1
            then simN X ⟨ib * 2048 + r.val, Tile.grow_lt hib r⟩ (k' * 512 + j.val) else 0) := by
  induction k with
  | zero =>
    rw [hs0, upd_pos X ib hib A B i hi0 hi1 hA hB r 0 hk, Tile.init_p, zero_add, Finset.sum_range_one]
  | succ k ih =>
    rw [hs k (by omega), upd_pos X ib hib A B i hi0 hi1 hA hB r (k + 1) hk, ih (by omega),
      Finset.sum_range_succ _ (k + 1)]

/-- The log-sum-exp block written at the last tile holds the specification's value of the global row. -/
theorem out2_row
    (hs0 : s 0 = Carried.upd (i 0) A (B 0) Carried.init)
    (hs : ∀ k, k < 15 → s (k + 1) = Carried.upd (i (k + 1)) A (B (k + 1)) (s k))
    (hi0 : ∀ k, k < 16 → ((i k) 0).val = ib) (hi1 : ∀ k, k < 16 → ((i k) 1).val = k)
    (hA : ∀ (r : Fin 2048) (c : Fin 768), A (ix2 r c) = Spec.xn X ⟨ib * 2048 + r.val, Tile.grow_lt hib r⟩ c)
    (hB : ∀ k (hk : k < 16) (j : Fin 512) (c : Fin 768),
      B k (ix2 j c) = Spec.xn X ⟨k * 512 + j.val, Tile.gcol_lt hk j⟩ c)
    (r : Fin 2048) :
    Carried.out2 (s 15) (ix2 r 0) = Spec.lseK X ⟨ib * 2048 + r.val, Tile.grow_lt hib r⟩ := by
  have h := pair_at X ib hib A B i s hs0 hs hi0 hi1 hA hB r 15 (by norm_num)
  rw [Tile.out2_at]
  unfold Spec.lseK Spec.pairK
  rw [← h]

/-- The label block written at the last tile holds the specification's label logit of the global row. -/
theorem out3_row
    (hs0 : s 0 = Carried.upd (i 0) A (B 0) Carried.init)
    (hs : ∀ k, k < 15 → s (k + 1) = Carried.upd (i (k + 1)) A (B (k + 1)) (s k))
    (hi0 : ∀ k, k < 16 → ((i k) 0).val = ib) (hi1 : ∀ k, k < 16 → ((i k) 1).val = k)
    (hA : ∀ (r : Fin 2048) (c : Fin 768), A (ix2 r c) = Spec.xn X ⟨ib * 2048 + r.val, Tile.grow_lt hib r⟩ c)
    (hB : ∀ k (hk : k < 16) (j : Fin 512) (c : Fin 768),
      B k (ix2 j c) = Spec.xn X ⟨k * 512 + j.val, Tile.gcol_lt hk j⟩ c)
    (r : Fin 2048) :
    Carried.out3 (s 15) (ix2 r 0) = Spec.posK X ⟨ib * 2048 + r.val, Tile.grow_lt hib r⟩ := by
  have hl : (ib * 2048 + r.val) ^^^ 1 < 8192 :=
    (Spec.label ⟨ib * 2048 + r.val, Tile.grow_lt hib r⟩).isLt
  rw [Tile.out3_at, pos_at X ib hib A B i s hs0 hs hi0 hi1 hA hB r 15 (by norm_num),
    Spec.sum_tiles_single (simN X ⟨ib * 2048 + r.val, Tile.grow_lt hib r⟩) ((ib * 2048 + r.val) ^^^ 1) hl]
  unfold simN Spec.posK
  rw [dif_pos hl]
  rfl

end

end Cert.KernelIdeal.RowVal

end
-- ==== Proof.KernelValue.lean ====
/-
  The kernel program's result at the ideal instance is the specification's kernel loss of the argument: each row
  block's 16 points are 16 tiles of the online recurrence over rows of the normalised matrix, the two result columns
  hold the rows' log-sum-exps and label logits, and the host averages their difference.
-/
import proofs.«166013_j38044820308458_2_alg».proof.Proof.KValue
import proofs.«166013_j38044820308458_2_alg».proof.Proof.HostVal
import proofs.«166013_j38044820308458_2_alg».proof.Proof.RowVal

set_option maxRecDepth 16384

noncomputable section

namespace Cert.KernelIdeal.KVal

open Cert.KernelIdeal Cert.KernelIdeal.Gen Cert.KernelIdeal.Hand
open Idealize.ShloMosaic Idealize.ShloMosaic.TcCoe Idealize.ShloMosaic.ValueIdx
open Idealize.SL.Sem

variable (m : (ℓ : Loc nD τ sig) → Buf (Elt Ideal) ℓ) (c : Dev nD)

/-- The argument as a matrix of extended reals. -/
def X : Fin 8192 → Fin 768 → EReal :=
  fun i k => (m ((c : Thread nD τ).loc main_arg0) : FVec Ideal S8192x768 .f32) (ix2 i k)

/-- The matrix the region is entered with is the specification's normalised matrix. -/
theorem V5_at (i : Fin 8192) (k : Fin 768) : V m c main_v5 (ix2 i k) = Spec.xn (X m c) i k :=
  (congrFun (V5_eq (F := Ideal) m c) (ix2 i k)).trans (HostVal.normT_at _ i k)

/-- Point `k` of row block `ib`. -/
def pt (ib k : ℕ) (hib : ib < 4) (hk : k < 16) : Fin cfg0.N :=
  ⟨ib * 16 + k, by have : cfg0.N = 64 := N_0; omega⟩

section RowBlock

variable (ib : ℕ) (hib : ib < 4)

/-- The row block's rows, the `k`-th column tile, the `k`-th point's coordinates and carried columns. -/
def blkA : FVec Ideal S2048x768 .bf16 := iblk m c 0 (pt ib 0 hib (by norm_num))
def blkB (k : ℕ) : FVec Ideal S512x768 .bf16 :=
  if hk : k < 16 then iblk m c 1 (pt ib k hib hk) else iblk m c 1 (pt ib 0 hib (by norm_num))
def crd (k : ℕ) : grid0.Coords :=
  if hk : k < 16 then grid0.coords (pt ib k hib hk) else grid0.coords (pt ib 0 hib (by norm_num))
def scr (k : ℕ) : Carried.Scr Ideal :=
  if hk : k < 16 then scrAt m c (pt ib k hib hk).val (pt ib k hib hk).isLt else Carried.init

theorem scrAt_congr {n n' : ℕ} (h : n = n') (hn : n < cfg0.N) (hn' : n' < cfg0.N) : scrAt m c n hn = scrAt m c n' hn' := by
  subst h; rfl

/-- Every point of the row block reads the same rows. -/
theorem iblk0_const (k : ℕ) (hk : k < 16) :
    (iblk m c 0 (pt ib k hib hk) : FVec Ideal S2048x768 .bf16) = blkA m c ib hib := by
  funext y
  obtain ⟨r, kk, rfl⟩ : ∃ (r : Fin 2048) (kk : Fin 768), y = ix2 r kk := ⟨y 0, y 1, eq_ix2 y⟩
  unfold blkA
  rw [iblk0_at, iblk0_at]
  refine congrArg (fun g : Fin 8192 => V m c main_v5 (ix2 g kk)) (Fin.ext ?_)
  show ((ib * 16 + k) / 16) * 2048 + r.val = ((ib * 16 + 0) / 16) * 2048 + r.val
  omega

theorem hA (r : Fin 2048) (k : Fin 768) :
    blkA m c ib hib (ix2 r k) = Spec.xn (X m c) ⟨ib * 2048 + r.val, Tile.grow_lt hib r⟩ k := by
  unfold blkA
  rw [iblk0_at, V5_at]
  refine congrArg (fun g : Fin 8192 => Spec.xn (X m c) g k) (Fin.ext ?_)
  show ((ib * 16 + 0) / 16) * 2048 + r.val = ib * 2048 + r.val
  omega

theorem hB (k : ℕ) (hk : k < 16) (j : Fin 512) (cc : Fin 768) :
    blkB m c ib hib k (ix2 j cc) = Spec.xn (X m c) ⟨k * 512 + j.val, Tile.gcol_lt hk j⟩ cc := by
  unfold blkB
  rw [dif_pos hk, iblk1_at, V5_at]
  refine congrArg (fun g : Fin 8192 => Spec.xn (X m c) g cc) (Fin.ext ?_)
  show ((ib * 16 + k) % 16) * 512 + j.val = k * 512 + j.val
  omega

theorem hi0 (k : ℕ) (hk : k < 16) : ((crd ib hib k) 0).val = ib := by
  unfold crd; rw [dif_pos hk, (coords_at (pt ib k hib hk)).1]
  show (ib * 16 + k) / 16 = ib; omega
theorem hi1 (k : ℕ) (hk : k < 16) : ((crd ib hib k) 1).val = k := by
  unfold crd; rw [dif_pos hk, (coords_at (pt ib k hib hk)).2]
  show (ib * 16 + k) % 16 = k; omega

theorem hs0 : scr m c ib hib 0 = Carried.upd (crd ib hib 0) (blkA m c ib hib) (blkB m c ib hib 0) Carried.init := by
  unfold scr crd blkB blkA
  rw [dif_pos (by norm_num : 0 < 16), dif_pos (by norm_num : 0 < 16), dif_pos (by norm_num : 0 < 16)]
  exact scrAt_first m c (pt ib 0 hib (by norm_num)) (by show (ib * 16 + 0) % 16 = 0; omega)

theorem hs (k : ℕ) (hk : k < 15) :
    scr m c ib hib (k + 1) = Carried.upd (crd ib hib (k + 1)) (blkA m c ib hib) (blkB m c ib hib (k + 1)) (scr m c ib hib k) := by
  have hk1 : k + 1 < 16 := by omega
  have hk0 : k < 16 := by omega
  unfold scr crd blkB
  rw [dif_pos hk1, dif_pos hk1, dif_pos hk1, dif_pos hk0]
  rw [scrAt_next m c (pt ib (k + 1) hib hk1) (by show (ib * 16 + (k + 1)) % 16 ≠ 0; omega), iblk0_const m c ib hib (k + 1) hk1]
  refine congrArg (Carried.upd _ _ _) (scrAt_congr m c ?_ _ _)
  show ib * 16 + (k + 1) - 1 = ib * 16 + k
  omega

/-- Row `r` of the row block's log-sum-exp and label-logit columns, as the last tile leaves them. -/
theorem out2_last (r : Fin 2048) (h : ib * 16 + 15 < cfg0.N) :
    Carried.out2 (scrAt m c (ib * 16 + 15) h) (ix2 r 0) = Spec.lseK (X m c) ⟨ib * 2048 + r.val, Tile.grow_lt hib r⟩ := by
  have h15 := RowVal.out2_row (X m c) ib hib (blkA m c ib hib) (blkB m c ib hib) (crd ib hib) (scr m c ib hib)
    (hs0 m c ib hib) (hs m c ib hib) (hi0 ib hib) (hi1 ib hib) (hA m c ib hib) (hB m c ib hib) r
  unfold scr at h15
  rw [dif_pos (by norm_num : 15 < 16)] at h15
  exact h15

theorem out3_last (r : Fin 2048) (h : ib * 16 + 15 < cfg0.N) :
    Carried.out3 (scrAt m c (ib * 16 + 15) h) (ix2 r 0) = Spec.posK (X m c) ⟨ib * 2048 + r.val, Tile.grow_lt hib r⟩ := by
  have h15 := RowVal.out3_row (X m c) ib hib (blkA m c ib hib) (blkB m c ib hib) (crd ib hib) (scr m c ib hib)
    (hs0 m c ib hib) (hs m c ib hib) (hi0 ib hib) (hi1 ib hib) (hA m c ib hib) (hB m c ib hib) r
  unfold scr at h15
  rw [dif_pos (by norm_num : 15 < 16)] at h15
  exact h15

end RowBlock

/-- The first result column holds every row's log-sum-exp. -/
theorem arr2_spec (g : Fin 8192) : (dats m 0 c).arrAt 2 cfg0.N (ix2 g (0 : Fin 1)) = Spec.lseK (X m c) g := by
  have hg := g.isLt
  have hib : g.val / 2048 < 4 := by omega
  rw [arr2_at, out2_last m c (g.val / 2048) hib]
  refine congrArg (Spec.lseK (X m c)) (Fin.ext ?_)
  show g.val / 2048 * 2048 + g.val % 2048 = g.val
  omega

/-- The second result column holds every row's label logit. -/
theorem arr3_spec (g : Fin 8192) : (dats m 0 c).arrAt 3 cfg0.N (ix2 g (0 : Fin 1)) = Spec.posK (X m c) g := by
  have hg := g.isLt
  have hib : g.val / 2048 < 4 := by omega
  rw [arr3_at, out3_last m c (g.val / 2048) hib]
  refine congrArg (Spec.posK (X m c)) (Fin.ext ?_)
  show g.val / 2048 * 2048 + g.val % 2048 = g.val
  omega

/-- The program's result: the specification's kernel loss of the argument. -/
theorem kernel_value :
    HostDefs.tailT (F := Ideal) ((dats m 0 c).arrAt 2 cfg0.N) ((dats m 0 c).arrAt 3 cfg0.N) = fun _ => Spec.kerLoss (X m c) := by
  funext idx
  rw [eq_ix0 idx, HostVal.tailT_at]
  unfold Spec.kerLoss
  refine congrArg (fun s => Ideal.div s Spec.nrows) ?_
  refine Finset.sum_congr rfl fun g _ => ?_
  rw [arr2_spec, arr3_spec]

end Cert.KernelIdeal.KVal

end
-- ==== Proof.RefRun0.lean ====
/-
  The reference program's value, stage by stage: one definition per tensor value of @main and of the
  functions it calls (their bodies read at the call's operands), each the operation's pure function applied
  to the definitions of its operands; constants and iotas are written in place. `val_vK` is @main's %K,
  `val_callJ_vK` is %K of the J-th called function (0: remainder, with the select of its inner call as
  `val_call0_v2`; 1: norm; 2: log_softmax; 3: take_along_axis). `refVal` is the returned scalar as a
  function of the argument.
-/
import proofs.«166013_j38044820308458_2_alg».proof.Proof.Gen.ReferenceIdeal

noncomputable section

namespace Cert.ReferenceIdeal.RefRun

open Cert.ReferenceIdeal Cert.ReferenceIdeal.Gen Idealize.ShloMosaic Idealize.SL.Sem

variable {F : FTy → Type} [FloatOps F]

/-- `%0 = stablehlo.convert %arg1 : tensor<i32>` -/
def val_call0_v0 : IVec S_ 32 :=
  id (constantI S_ 32 2#32 : IVec S_ 32)

/-- `%1 = stablehlo.compare EQ, %0, %c, SIGNED : (tensor<i32>, tensor<i32>) -> tensor<i1>` -/
def val_call0_v1 : IVec S_ 1 :=
  cmpi .eq val_call0_v0 (constantI S_ 32 0#32 : IVec S_ 32)

/-- `%0 = stablehlo.select %arg0, %arg1, %arg2 : tensor<i1>, tensor<i32>` -/
def val_call0_v2 : IVec S_ 32 :=
  select val_call0_v1 (constantI S_ 32 1#32 : IVec S_ 32) val_call0_v0

/-- `%3 = stablehlo.broadcast_in_dim %2, dims = [] : (tensor<i32>) -> tensor<8192xi32>` -/
def val_call0_v3 : IVec S8192 32 :=
  broadcastInDim S8192 ![] bcast_S_S8192 val_call0_v2

/-- `%4 = stablehlo.remainder %arg0, %3 : tensor<8192xi32>` -/
def val_call0_v4 : IVec S8192 32 :=
  Host.remsi (iotaInDim S8192 32 0 : IVec S8192 32) val_call0_v3

/-- `%5 = stablehlo.broadcast_in_dim %c_1, dims = [] : (tensor<i32>) -> tensor<8192xi32>` -/
def val_call0_v5 : IVec S8192 32 :=
  broadcastInDim S8192 ![] bcast_S_S8192 (constantI S_ 32 0#32 : IVec S_ 32)

/-- `%6 = stablehlo.compare NE, %4, %5, SIGNED : (tensor<8192xi32>, tensor<8192xi32>) -> tensor<8192xi1>` -/
def val_call0_v6 : IVec S8192 1 :=
  cmpi .ne val_call0_v4 val_call0_v5

/-- `%7 = stablehlo.broadcast_in_dim %c_2, dims = [] : (tensor<i32>) -> tensor<8192xi32>` -/
def val_call0_v7 : IVec S8192 32 :=
  broadcastInDim S8192 ![] bcast_S_S8192 (constantI S_ 32 0#32 : IVec S_ 32)

/-- `%8 = stablehlo.compare LT, %4, %7, SIGNED : (tensor<8192xi32>, tensor<8192xi32>) -> tensor<8192xi1>` -/
def val_call0_v8 : IVec S8192 1 :=
  cmpi .slt val_call0_v4 val_call0_v7

/-- `%9 = stablehlo.compare LT, %2, %c_3, SIGNED : (tensor<i32>, tensor<i32>) -> tensor<i1>` -/
def val_call0_v9 : IVec S_ 1 :=
  cmpi .slt val_call0_v2 (constantI S_ 32 0#32 : IVec S_ 32)

/-- `%10 = stablehlo.broadcast_in_dim %9, dims = [] : (tensor<i1>) -> tensor<8192xi1>` -/
def val_call0_v10 : IVec S8192 1 :=
  broadcastInDim S8192 ![] bcast_S_S8192 val_call0_v9

/-- `%11 = stablehlo.compare NE, %8, %10, UNSIGNED : (tensor<8192xi1>, tensor<8192xi1>) -> tensor<8192xi1>` -/
def val_call0_v11 : IVec S8192 1 :=
  cmpi .ne val_call0_v8 val_call0_v10

/-- `%12 = stablehlo.and %11, %6 : tensor<8192xi1>` -/
def val_call0_v12 : IVec S8192 1 :=
  andi val_call0_v11 val_call0_v6

/-- `%13 = stablehlo.broadcast_in_dim %2, dims = [] : (tensor<i32>) -> tensor<8192xi32>` -/
def val_call0_v13 : IVec S8192 32 :=
  broadcastInDim S8192 ![] bcast_S_S8192 val_call0_v2

/-- `%14 = stablehlo.add %4, %13 : tensor<8192xi32>` -/
def val_call0_v14 : IVec S8192 32 :=
  addi val_call0_v4 val_call0_v13

/-- `%15 = stablehlo.select %12, %14, %4 : tensor<8192xi1>, tensor<8192xi32>` -/
def val_v1 : IVec S8192 32 :=
  select val_call0_v12 val_call0_v14 val_call0_v4

/-- `%2 = stablehlo.broadcast_in_dim %c_0, dims = [] : (tensor<i32>) -> tensor<8192xi32>` -/
def val_v2 : IVec S8192 32 :=
  broadcastInDim S8192 ![] bcast_S_S8192 (constantI S_ 32 2#32 : IVec S_ 32)

/-- `%3 = stablehlo.multiply %1, %2 : tensor<8192xi32>` -/
def val_v3 : IVec S8192 32 :=
  muli val_v1 val_v2

/-- `%4 = stablehlo.subtract %0, %3 : tensor<8192xi32>` -/
def val_v4 : IVec S8192 32 :=
  subi (iotaInDim S8192 32 0 : IVec S8192 32) val_v3

/-- `%5 = stablehlo.broadcast_in_dim %c_1, dims = [] : (tensor<i32>) -> tensor<8192xi32>` -/
def val_v5 : IVec S8192 32 :=
  broadcastInDim S8192 ![] bcast_S_S8192 (constantI S_ 32 1#32 : IVec S_ 32)

/-- `%6 = stablehlo.add %4, %5 : tensor<8192xi32>` -/
def val_v6 : IVec S8192 32 :=
  addi val_v4 val_v5

/-- `%0 = stablehlo.multiply %arg0, %arg0 : tensor<8192x768xf32>` -/
def val_call1_v0 (x : FVec F S8192x768 .f32) : FVec F S8192x768 .f32 :=
  mulf x x

/-- `%1 = stablehlo.reduce(%0 init: %cst) applies stablehlo.add across dimensions = [1] : (tensor<8192x768xf32>, tensor<f32>) -> tensor<8192xf32> {` -/
def val_call1_v1 (x : FVec F S8192x768 .f32) : FVec F S8192 .f32 :=
  Host.reduceAdd (val_call1_v0 x) (constant S_ .f32 0x00000000#32 : FVec F S_ .f32) reducesTo_S8192x768_S8192_d1 h_S_

/-- `%2 = stablehlo.broadcast_in_dim %1, dims = [0] : (tensor<8192xf32>) -> tensor<8192x1xf32>` -/
def val_call1_v2 (x : FVec F S8192x768 .f32) : FVec F S8192x1 .f32 :=
  broadcastInDim S8192x1 ![0] bcast_S8192_S8192x1_0 (val_call1_v1 x)

/-- `%3 = stablehlo.sqrt %2 : tensor<8192x1xf32>` -/
def val_v7 (x : FVec F S8192x768 .f32) : FVec F S8192x1 .f32 :=
  Host.sqrt (val_call1_v2 x)

/-- `%8 = stablehlo.broadcast_in_dim %cst, dims = [] : (tensor<f32>) -> tensor<8192x1xf32>` -/
def val_v8 : FVec F S8192x1 .f32 :=
  broadcastInDim S8192x1 ![] bcast_S_S8192x1 (constant S_ .f32 0x322BCC77#32 : FVec F S_ .f32)

/-- `%9 = stablehlo.maximum %7, %8 : tensor<8192x1xf32>` -/
def val_v9 (x : FVec F S8192x768 .f32) : FVec F S8192x1 .f32 :=
  maximumf (val_v7 x) (val_v8 (F := F))

/-- `%10 = stablehlo.broadcast_in_dim %9, dims = [0, 1] : (tensor<8192x1xf32>) -> tensor<8192x768xf32>` -/
def val_v10 (x : FVec F S8192x768 .f32) : FVec F S8192x768 .f32 :=
  broadcastInDim S8192x768 ![0, 1] bcast_S8192x1_S8192x768_0_1 (val_v9 x)

/-- `%11 = stablehlo.divide %arg0, %10 : tensor<8192x768xf32>` -/
def val_v11 (x : FVec F S8192x768 .f32) : FVec F S8192x768 .f32 :=
  Host.divf x (val_v10 x)

/-- `%12 = stablehlo.transpose %11, dims = [1, 0] : (tensor<8192x768xf32>) -> tensor<768x8192xf32>` -/
def val_v12 (x : FVec F S8192x768 .f32) : FVec F S768x8192 .f32 :=
  transpose S768x8192 [1, 0] (val_v11 x) transposes_S8192x768_S768x8192_1_0

/-- `%13 = stablehlo.dot_general %11, %12, contracting_dims = [1] x [0], precision = [DEFAULT, DEFAULT] : (tensor<8192x768xf32>, tensor<768x8192xf32>) -> tensor<8192` -/
def val_v13 (x : FVec F S8192x768 .f32) : FVec F S8192x8192 .f32 :=
  Host.dotGeneral dot_S8192x768_S768x8192_S8192x8192_1_0_0_1_n_n none (val_v11 x) (val_v12 x)

/-- `%16 = stablehlo.broadcast_in_dim %c_2, dims = [] : (tensor<i32>) -> tensor<8192x8192xi32>` -/
def val_v16 : IVec S8192x8192 32 :=
  broadcastInDim S8192x8192 ![] bcast_S_S8192x8192 (constantI S_ 32 0#32 : IVec S_ 32)

/-- `%17 = stablehlo.add %14, %16 : tensor<8192x8192xi32>` -/
def val_v17 : IVec S8192x8192 32 :=
  addi (iotaInDim S8192x8192 32 0 : IVec S8192x8192 32) val_v16

/-- `%18 = stablehlo.compare EQ, %17, %15, SIGNED : (tensor<8192x8192xi32>, tensor<8192x8192xi32>) -> tensor<8192x8192xi1>` -/
def val_v18 : IVec S8192x8192 1 :=
  cmpi .eq val_v17 (iotaInDim S8192x8192 32 1 : IVec S8192x8192 32)

/-- `%19 = stablehlo.convert %18 : (tensor<8192x8192xi1>) -> tensor<8192x8192xf32>` -/
def val_v19 : FVec F S8192x8192 .f32 :=
  uitofp .f32 val_v18

/-- `%20 = stablehlo.broadcast_in_dim %cst_3, dims = [] : (tensor<f32>) -> tensor<8192x8192xf32>` -/
def val_v20 : FVec F S8192x8192 .f32 :=
  broadcastInDim S8192x8192 ![] bcast_S_S8192x8192 (constant S_ .f32 0x5368D4A5#32 : FVec F S_ .f32)

/-- `%21 = stablehlo.multiply %19, %20 : tensor<8192x8192xf32>` -/
def val_v21 : FVec F S8192x8192 .f32 :=
  mulf (val_v19 (F := F)) (val_v20 (F := F))

/-- `%22 = stablehlo.subtract %13, %21 : tensor<8192x8192xf32>` -/
def val_v22 (x : FVec F S8192x768 .f32) : FVec F S8192x8192 .f32 :=
  subf (val_v13 x) (val_v21 (F := F))

/-- `%23 = stablehlo.broadcast_in_dim %cst_4, dims = [] : (tensor<f32>) -> tensor<8192x8192xf32>` -/
def val_v23 : FVec F S8192x8192 .f32 :=
  broadcastInDim S8192x8192 ![] bcast_S_S8192x8192 (constant S_ .f32 0x3D4CCCCD#32 : FVec F S_ .f32)

/-- `%24 = stablehlo.divide %22, %23 : tensor<8192x8192xf32>` -/
def val_v24 (x : FVec F S8192x768 .f32) : FVec F S8192x8192 .f32 :=
  Host.divf (val_v22 x) (val_v23 (F := F))

/-- `%0 = stablehlo.reduce(%arg0 init: %cst) applies stablehlo.maximum across dimensions = [1] : (tensor<8192x8192xf32>, tensor<f32>) -> tensor<8192xf32> {` -/
def val_call2_v0 (x : FVec F S8192x768 .f32) : FVec F S8192 .f32 :=
  Host.reduce FloatOps.maximumf (val_v24 x) (constant S_ .f32 0xFF800000#32 : FVec F S_ .f32) reducesTo_S8192x8192_S8192_d1 h_S_

/-- `%1 = stablehlo.broadcast_in_dim %cst_0, dims = [] : (tensor<f32>) -> tensor<8192xf32>` -/
def val_call2_v1 : FVec F S8192 .f32 :=
  broadcastInDim S8192 ![] bcast_S_S8192 (constant S_ .f32 0xFF800000#32 : FVec F S_ .f32)

/-- `%2 = stablehlo.maximum %1, %0 : tensor<8192xf32>` -/
def val_call2_v2 (x : FVec F S8192x768 .f32) : FVec F S8192 .f32 :=
  maximumf (val_call2_v1 (F := F)) (val_call2_v0 x)

/-- `%3 = stablehlo.broadcast_in_dim %2, dims = [0] : (tensor<8192xf32>) -> tensor<8192x1xf32>` -/
def val_call2_v3 (x : FVec F S8192x768 .f32) : FVec F S8192x1 .f32 :=
  broadcastInDim S8192x1 ![0] bcast_S8192_S8192x1_0 (val_call2_v2 x)

/-- `%4 = stablehlo.broadcast_in_dim %3, dims = [0, 1] : (tensor<8192x1xf32>) -> tensor<8192x8192xf32>` -/
def val_call2_v4 (x : FVec F S8192x768 .f32) : FVec F S8192x8192 .f32 :=
  broadcastInDim S8192x8192 ![0, 1] bcast_S8192x1_S8192x8192_0_1 (val_call2_v3 x)

/-- `%5 = stablehlo.subtract %arg0, %4 : tensor<8192x8192xf32>` -/
def val_call2_v5 (x : FVec F S8192x768 .f32) : FVec F S8192x8192 .f32 :=
  subf (val_v24 x) (val_call2_v4 x)

/-- `%6 = stablehlo.exponential %5 : tensor<8192x8192xf32>` -/
def val_call2_v6 (x : FVec F S8192x768 .f32) : FVec F S8192x8192 .f32 :=
  Host.exp (val_call2_v5 x)

/-- `%7 = stablehlo.reduce(%6 init: %cst_1) applies stablehlo.add across dimensions = [1] : (tensor<8192x8192xf32>, tensor<f32>) -> tensor<8192xf32> {` -/
def val_call2_v7 (x : FVec F S8192x768 .f32) : FVec F S8192 .f32 :=
  Host.reduceAdd (val_call2_v6 x) (constant S_ .f32 0x00000000#32 : FVec F S_ .f32) reducesTo_S8192x8192_S8192_d1 h_S_

/-- `%8 = stablehlo.broadcast_in_dim %7, dims = [0] : (tensor<8192xf32>) -> tensor<8192x1xf32>` -/
def val_call2_v8 (x : FVec F S8192x768 .f32) : FVec F S8192x1 .f32 :=
  broadcastInDim S8192x1 ![0] bcast_S8192_S8192x1_0 (val_call2_v7 x)

/-- `%9 = stablehlo.log %8 : tensor<8192x1xf32>` -/
def val_call2_v9 (x : FVec F S8192x768 .f32) : FVec F S8192x1 .f32 :=
  Host.log (val_call2_v8 x)

/-- `%10 = stablehlo.broadcast_in_dim %9, dims = [0, 1] : (tensor<8192x1xf32>) -> tensor<8192x8192xf32>` -/
def val_call2_v10 (x : FVec F S8192x768 .f32) : FVec F S8192x8192 .f32 :=
  broadcastInDim S8192x8192 ![0, 1] bcast_S8192x1_S8192x8192_0_1 (val_call2_v9 x)

/-- `%11 = stablehlo.subtract %5, %10 : tensor<8192x8192xf32>` -/
def val_v25 (x : FVec F S8192x768 .f32) : FVec F S8192x8192 .f32 :=
  subf (val_call2_v5 x) (val_call2_v10 x)

/-- `%26 = stablehlo.broadcast_in_dim %6, dims = [0] : (tensor<8192xi32>) -> tensor<8192x1xi32>` -/
def val_v26 : IVec S8192x1 32 :=
  broadcastInDim S8192x1 ![0] bcast_S8192_S8192x1_0 val_v6

/-- `%0 = stablehlo.broadcast_in_dim %c, dims = [] : (tensor<i32>) -> tensor<8192x1xi32>` -/
def val_call3_v0 : IVec S8192x1 32 :=
  broadcastInDim S8192x1 ![] bcast_S_S8192x1 (constantI S_ 32 0#32 : IVec S_ 32)

/-- `%1 = stablehlo.compare LT, %arg1, %0, SIGNED : (tensor<8192x1xi32>, tensor<8192x1xi32>) -> tensor<8192x1xi1>` -/
def val_call3_v1 : IVec S8192x1 1 :=
  cmpi .slt val_v26 val_call3_v0

/-- `%2 = stablehlo.broadcast_in_dim %c_0, dims = [] : (tensor<i32>) -> tensor<8192x1xi32>` -/
def val_call3_v2 : IVec S8192x1 32 :=
  broadcastInDim S8192x1 ![] bcast_S_S8192x1 (constantI S_ 32 8192#32 : IVec S_ 32)

/-- `%3 = stablehlo.add %arg1, %2 : tensor<8192x1xi32>` -/
def val_call3_v3 : IVec S8192x1 32 :=
  addi val_v26 val_call3_v2

/-- `%4 = stablehlo.select %1, %3, %arg1 : tensor<8192x1xi1>, tensor<8192x1xi32>` -/
def val_call3_v4 : IVec S8192x1 32 :=
  select val_call3_v1 val_call3_v3 val_v26

/-- `%5 = stablehlo.reshape %4 : (tensor<8192x1xi32>) -> tensor<8192x1x1xi32>` -/
def val_call3_v5 : IVec S8192x1x1 32 :=
  shapeCast S8192x1x1 val_call3_v4 shapeCasts_S8192x1_S8192x1x1

/-- `%6 = stablehlo.broadcast_in_dim %c_2, dims = [] : (tensor<i32>) -> tensor<8192x1x1xi32>` -/
def val_call3_v6 : IVec S8192x1x1 32 :=
  broadcastInDim S8192x1x1 ![] bcast_S_S8192x1x1 (constantI S_ 32 0#32 : IVec S_ 32)

/-- `%7 = stablehlo.compare GE, %5, %6, SIGNED : (tensor<8192x1x1xi32>, tensor<8192x1x1xi32>) -> tensor<8192x1x1xi1>` -/
def val_call3_v7 : IVec S8192x1x1 1 :=
  cmpi .sge val_call3_v5 val_call3_v6

/-- `%8 = stablehlo.broadcast_in_dim %c_1, dims = [2] : (tensor<1xi32>) -> tensor<1x1x1xi32>` -/
def val_call3_v8 : IVec S1x1x1 32 :=
  broadcastInDim S1x1x1 ![2] bcast_S1_S1x1x1_2 (constantI S1 32 8191#32 : IVec S1 32)

/-- `%9 = stablehlo.broadcast_in_dim %8, dims = [0, 1, 2] : (tensor<1x1x1xi32>) -> tensor<8192x1x1xi32>` -/
def val_call3_v9 : IVec S8192x1x1 32 :=
  broadcastInDim S8192x1x1 ![0, 1, 2] bcast_S1x1x1_S8192x1x1_0_1_2 val_call3_v8

/-- `%10 = stablehlo.compare LE, %5, %9, SIGNED : (tensor<8192x1x1xi32>, tensor<8192x1x1xi32>) -> tensor<8192x1x1xi1>` -/
def val_call3_v10 : IVec S8192x1x1 1 :=
  cmpi .sle val_call3_v5 val_call3_v9

/-- `%11 = stablehlo.and %7, %10 : tensor<8192x1x1xi1>` -/
def val_call3_v11 : IVec S8192x1x1 1 :=
  andi val_call3_v7 val_call3_v10

/-- `%12 = stablehlo.reduce(%11 init: %c_3) applies stablehlo.and across dimensions = [2] : (tensor<8192x1x1xi1>, tensor<i1>) -> tensor<8192x1xi1> {` -/
def val_call3_v12 : IVec S8192x1 1 :=
  Host.reduce IntOp.andi val_call3_v11 (constantI S_ 1 1#1 : IVec S_ 1) reducesTo_S8192x1x1_S8192x1_d2 h_S_

/-- `%13 = "stablehlo.gather"(%arg0, %5) <{dimension_numbers = #stablehlo.gather<collapsed_slice_dims = [1], operand_batching_dims = [0], start_indices_batching_dims` -/
def val_call3_v13 (x : FVec F S8192x768 .f32) : FVec F S8192x1 .f32 :=
  Host.gather gather_S8192x8192_S8192x1x1_S8192x1_n_1_0_0_1_2_11 (val_v25 x) val_call3_v5

/-- `%14 = stablehlo.broadcast_in_dim %cst, dims = [] : (tensor<f32>) -> tensor<8192x1xf32>` -/
def val_call3_v14 : FVec F S8192x1 .f32 :=
  broadcastInDim S8192x1 ![] bcast_S_S8192x1 (constant S_ .f32 0x7FC00000#32 : FVec F S_ .f32)

/-- `%15 = stablehlo.select %12, %13, %14 : tensor<8192x1xi1>, tensor<8192x1xf32>` -/
def val_v27 (x : FVec F S8192x768 .f32) : FVec F S8192x1 .f32 :=
  select val_call3_v12 (val_call3_v13 x) (val_call3_v14 (F := F))

/-- `%28 = stablehlo.reduce(%27 init: %cst_5) applies stablehlo.add across dimensions = [0, 1] : (tensor<8192x1xf32>, tensor<f32>) -> tensor<f32> {` -/
def val_v28 (x : FVec F S8192x768 .f32) : FVec F S_ .f32 :=
  Host.reduceAdd (val_v27 x) (constant S_ .f32 0x00000000#32 : FVec F S_ .f32) reducesTo_S8192x1_S_d0_1 h_S_

/-- `%29 = stablehlo.divide %28, %cst_6 : tensor<f32>` -/
def val_v29 (x : FVec F S8192x768 .f32) : FVec F S_ .f32 :=
  Host.divf (val_v28 x) (constant S_ .f32 0x46000000#32 : FVec F S_ .f32)

/-- `%30 = stablehlo.negate %29 : tensor<f32>` -/
def val_v30 (x : FVec F S8192x768 .f32) : FVec F S_ .f32 :=
  Host.negf (val_v29 x)

/-- The reference's result as a function of its argument: the negated mean, @main's %30. -/
def refVal (x : FVec F S8192x768 .f32) : FVec F S_ .f32 :=
  val_v30 x

end Cert.ReferenceIdeal.RefRun

end
-- ==== Proof.RefRun1.lean ====
/-
  The reference program's @main as a list of its 99 host operations, the bodies of the functions it calls
  written at their call sites over each call's buffers (remainder and, inside it, the select of its inner call:
  operations 3-23; norm: 31-35; log_softmax: 57-71; take_along_axis: 73-94), and the run of that straight line:
  every weakly fair execution terminates with the result buffer at `refVal` of the argument's launch contents
  and the argument unchanged.
-/
import proofs.«166013_j38044820308458_2_alg».proof.Proof.RefRun0
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, each call replaced by the called function's operations over that call's buffers. -/
abbrev ops : List (HloOp τ sig (Elt F)) :=
  [
    nullary main_v0 (iotaInDim S8192 32 0),
    nullary main_c (constantI S_ 32 2#32),
    TRef.unary (.of main_c : TRef sig ⟨S_, .i32⟩) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.unary main_call0.call0.v0 main_call0.v3 (broadcastInDim S8192 ![] bcast_S_S8192),
    TRef.binary (.of main_v0 : TRef sig ⟨S8192, .i32⟩) main_call0.v3 main_call0.v4 Host.remsi,
    TRef.nullary main_call0.c_1 (constantI S_ 32 0#32),
    TRef.unary main_call0.c_1 main_call0.v5 (broadcastInDim S8192 ![] bcast_S_S8192),
    TRef.binary main_call0.v4 main_call0.v5 main_call0.v6 (cmpi .ne),
    TRef.nullary main_call0.c_2 (constantI S_ 32 0#32),
    TRef.unary main_call0.c_2 main_call0.v7 (broadcastInDim S8192 ![] bcast_S_S8192),
    TRef.binary main_call0.v4 main_call0.v7 main_call0.v8 (cmpi .slt),
    TRef.nullary main_call0.c_3 (constantI S_ 32 0#32),
    TRef.binary main_call0.call0.v0 main_call0.c_3 main_call0.v9 (cmpi .slt),
    TRef.unary main_call0.v9 main_call0.v10 (broadcastInDim S8192 ![] bcast_S_S8192),
    TRef.binary main_call0.v8 main_call0.v10 main_call0.v11 (cmpi .ne),
    TRef.binary main_call0.v11 main_call0.v6 main_call0.v12 andi,
    TRef.unary main_call0.call0.v0 main_call0.v13 (broadcastInDim S8192 ![] bcast_S_S8192),
    TRef.binary main_call0.v4 main_call0.v13 main_call0.v14 addi,
    TRef.ternary main_call0.v12 main_call0.v14 main_call0.v4 main_call0.v15 select,
    nullary main_c_0 (constantI S_ 32 2#32),
    unary main_c_0 main_v2 (broadcastInDim S8192 ![] bcast_S_S8192 : (⟨S_, .i32⟩ : BufTy).Contents (Elt F) → (⟨S8192, .i32⟩ : BufTy).Contents (Elt F)),
    binary main_v1 main_v2 main_v3 (muli : (⟨S8192, .i32⟩ : BufTy).Contents (Elt F) → (⟨S8192, .i32⟩ : BufTy).Contents (Elt F) → (⟨S8192, .i32⟩ : BufTy).Contents (Elt F)),
    binary main_v0 main_v3 main_v4 (subi : (⟨S8192, .i32⟩ : BufTy).Contents (Elt F) → (⟨S8192, .i32⟩ : BufTy).Contents (Elt F) → (⟨S8192, .i32⟩ : BufTy).Contents (Elt F)),
    nullary main_c_1 (constantI S_ 32 1#32),
    unary main_c_1 main_v5 (broadcastInDim S8192 ![] bcast_S_S8192 : (⟨S_, .i32⟩ : BufTy).Contents (Elt F) → (⟨S8192, .i32⟩ : BufTy).Contents (Elt F)),
    binary main_v4 main_v5 main_v6 (addi : (⟨S8192, .i32⟩ : BufTy).Contents (Elt F) → (⟨S8192, .i32⟩ : BufTy).Contents (Elt F) → (⟨S8192, .i32⟩ : BufTy).Contents (Elt F)),
    TRef.binary (.of main_arg0 : TRef sig ⟨S8192x768, .f32⟩) (.of main_arg0 : TRef sig ⟨S8192x768, .f32⟩) main_call1.v0 mulf,
    TRef.nullary main_call1.cst (constant S_ .f32 0x00000000#32),
    TRef.binary main_call1.v0 main_call1.cst main_call1.v1 (fun x v => Host.reduceAdd x v reducesTo_S8192x768_S8192_d1 h_S_),
    TRef.unary main_call1.v1 main_call1.v2 (broadcastInDim S8192x1 ![0] bcast_S8192_S8192x1_0),
    TRef.unary main_call1.v2 main_call1.v3 Host.sqrt,
    nullary main_cst (constant S_ .f32 0x322BCC77#32),
    unary main_cst main_v8 (broadcastInDim S8192x1 ![] bcast_S_S8192x1 : (⟨S_, .f32⟩ : BufTy).Contents (Elt F) → (⟨S8192x1, .f32⟩ : BufTy).Contents (Elt F)),
    binary main_v7 main_v8 main_v9 (maximumf : (⟨S8192x1, .f32⟩ : BufTy).Contents (Elt F) → (⟨S8192x1, .f32⟩ : BufTy).Contents (Elt F) → (⟨S8192x1, .f32⟩ : BufTy).Contents (Elt F)),
    unary main_v9 main_v10 (broadcastInDim S8192x768 ![0, 1] bcast_S8192x1_S8192x768_0_1 : (⟨S8192x1, .f32⟩ : BufTy).Contents (Elt F) → (⟨S8192x768, .f32⟩ : BufTy).Contents (Elt F)),
    binary main_arg0 main_v10 main_v11 (Host.divf : (⟨S8192x768, .f32⟩ : BufTy).Contents (Elt F) → (⟨S8192x768, .f32⟩ : BufTy).Contents (Elt F) → (⟨S8192x768, .f32⟩ : BufTy).Contents (Elt F)),
    unary main_v11 main_v12 ((transpose S768x8192 [1, 0] · transposes_S8192x768_S768x8192_1_0) : (⟨S8192x768, .f32⟩ : BufTy).Contents (Elt F) → (⟨S768x8192, .f32⟩ : BufTy).Contents (Elt F)),
    binary main_v11 main_v12 main_v13 ((fun l r => Host.dotGeneral dot_S8192x768_S768x8192_S8192x8192_1_0_0_1_n_n none l r) : (⟨S8192x768, .f32⟩ : BufTy).Contents (Elt F) → (⟨S768x8192, .f32⟩ : BufTy).Contents (Elt F) → (⟨S8192x8192, .f32⟩ : BufTy).Contents (Elt F)),
    nullary main_v14 (iotaInDim S8192x8192 32 0),
    nullary main_v15 (iotaInDim S8192x8192 32 1),
    nullary main_c_2 (constantI S_ 32 0#32),
    unary main_c_2 main_v16 (broadcastInDim S8192x8192 ![] bcast_S_S8192x8192 : (⟨S_, .i32⟩ : BufTy).Contents (Elt F) → (⟨S8192x8192, .i32⟩ : BufTy).Contents (Elt F)),
    binary main_v14 main_v16 main_v17 (addi : (⟨S8192x8192, .i32⟩ : BufTy).Contents (Elt F) → (⟨S8192x8192, .i32⟩ : BufTy).Contents (Elt F) → (⟨S8192x8192, .i32⟩ : BufTy).Contents (Elt F)),
    binary main_v17 main_v15 main_v18 (cmpi .eq : (⟨S8192x8192, .i32⟩ : BufTy).Contents (Elt F) → (⟨S8192x8192, .i32⟩ : BufTy).Contents (Elt F) → (⟨S8192x8192, .i1⟩ : BufTy).Contents (Elt F)),
    unary main_v18 main_v19 (uitofp .f32 : (⟨S8192x8192, .i1⟩ : BufTy).Contents (Elt F) → (⟨S8192x8192, .f32⟩ : BufTy).Contents (Elt F)),
    nullary main_cst_3 (constant S_ .f32 0x5368D4A5#32),
    unary main_cst_3 main_v20 (broadcastInDim S8192x8192 ![] bcast_S_S8192x8192 : (⟨S_, .f32⟩ : BufTy).Contents (Elt F) → (⟨S8192x8192, .f32⟩ : BufTy).Contents (Elt F)),
    binary main_v19 main_v20 main_v21 (mulf : (⟨S8192x8192, .f32⟩ : BufTy).Contents (Elt F) → (⟨S8192x8192, .f32⟩ : BufTy).Contents (Elt F) → (⟨S8192x8192, .f32⟩ : BufTy).Contents (Elt F)),
    binary main_v13 main_v21 main_v22 (subf : (⟨S8192x8192, .f32⟩ : BufTy).Contents (Elt F) → (⟨S8192x8192, .f32⟩ : BufTy).Contents (Elt F) → (⟨S8192x8192, .f32⟩ : BufTy).Contents (Elt F)),
    nullary main_cst_4 (constant S_ .f32 0x3D4CCCCD#32),
    unary main_cst_4 main_v23 (broadcastInDim S8192x8192 ![] bcast_S_S8192x8192 : (⟨S_, .f32⟩ : BufTy).Contents (Elt F) → (⟨S8192x8192, .f32⟩ : BufTy).Contents (Elt F)),
    binary main_v22 main_v23 main_v24 (Host.divf : (⟨S8192x8192, .f32⟩ : BufTy).Contents (Elt F) → (⟨S8192x8192, .f32⟩ : BufTy).Contents (Elt F) → (⟨S8192x8192, .f32⟩ : BufTy).Contents (Elt F)),
    TRef.nullary main_call2.cst (constant S_ .f32 0xFF800000#32),
    TRef.binary (.of main_v24 : TRef sig ⟨S8192x8192, .f32⟩) main_call2.cst main_call2.v0 (fun x v => Host.reduce FloatOps.maximumf x v reducesTo_S8192x8192_S8192_d1 h_S_),
    TRef.nullary main_call2.cst_0 (constant S_ .f32 0xFF800000#32),
    TRef.unary main_call2.cst_0 main_call2.v1 (broadcastInDim S8192 ![] bcast_S_S8192),
    TRef.binary main_call2.v1 main_call2.v0 main_call2.v2 maximumf,
    TRef.unary main_call2.v2 main_call2.v3 (broadcastInDim S8192x1 ![0] bcast_S8192_S8192x1_0),
    TRef.unary main_call2.v3 main_call2.v4 (broadcastInDim S8192x8192 ![0, 1] bcast_S8192x1_S8192x8192_0_1),
    TRef.binary (.of main_v24 : TRef sig ⟨S8192x8192, .f32⟩) main_call2.v4 main_call2.v5 subf,
    TRef.unary main_call2.v5 main_call2.v6 Host.exp,
    TRef.nullary main_call2.cst_1 (constant S_ .f32 0x00000000#32),
    TRef.binary main_call2.v6 main_call2.cst_1 main_call2.v7 (fun x v => Host.reduceAdd x v reducesTo_S8192x8192_S8192_d1 h_S_),
    TRef.unary main_call2.v7 main_call2.v8 (broadcastInDim S8192x1 ![0] bcast_S8192_S8192x1_0),
    TRef.unary main_call2.v8 main_call2.v9 Host.log,
    TRef.unary main_call2.v9 main_call2.v10 (broadcastInDim S8192x8192 ![0, 1] bcast_S8192x1_S8192x8192_0_1),
    TRef.binary main_call2.v5 main_call2.v10 main_call2.v11 subf,
    unary main_v6 main_v26 (broadcastInDim S8192x1 ![0] bcast_S8192_S8192x1_0 : (⟨S8192, .i32⟩ : BufTy).Contents (Elt F) → (⟨S8192x1, .i32⟩ : BufTy).Contents (Elt F)),
    TRef.nullary main_call3.c (constantI S_ 32 0#32),
    TRef.unary main_call3.c main_call3.v0 (broadcastInDim S8192x1 ![] bcast_S_S8192x1),
    TRef.binary (.of main_v26 : TRef sig ⟨S8192x1, .i32⟩) main_call3.v0 main_call3.v1 (cmpi .slt),
    TRef.nullary main_call3.c_0 (constantI S_ 32 8192#32),
    TRef.unary main_call3.c_0 main_call3.v2 (broadcastInDim S8192x1 ![] bcast_S_S8192x1),
    TRef.binary (.of main_v26 : TRef sig ⟨S8192x1, .i32⟩) main_call3.v2 main_call3.v3 addi,
    TRef.ternary main_call3.v1 main_call3.v3 (.of main_v26 : TRef sig ⟨S8192x1, .i32⟩) main_call3.v4 select,
    TRef.reshape main_call3.v4 main_call3.v5 rfl shapeCasts_S8192x1_S8192x1x1,
    TRef.nullary main_call3.c_1 (constantI S1 32 8191#32),
    TRef.nullary main_call3.c_2 (constantI S_ 32 0#32),
    TRef.unary main_call3.c_2 main_call3.v6 (broadcastInDim S8192x1x1 ![] bcast_S_S8192x1x1),
    TRef.binary main_call3.v5 main_call3.v6 main_call3.v7 (cmpi .sge),
    TRef.unary main_call3.c_1 main_call3.v8 (broadcastInDim S1x1x1 ![2] bcast_S1_S1x1x1_2),
    TRef.unary main_call3.v8 main_call3.v9 (broadcastInDim S8192x1x1 ![0, 1, 2] bcast_S1x1x1_S8192x1x1_0_1_2),
    TRef.binary main_call3.v5 main_call3.v9 main_call3.v10 (cmpi .sle),
    TRef.binary main_call3.v7 main_call3.v10 main_call3.v11 andi,
    TRef.nullary main_call3.c_3 (constantI S_ 1 1#1),
    TRef.binary main_call3.v11 main_call3.c_3 main_call3.v12 (fun x v => Host.reduce IntOp.andi x v reducesTo_S8192x1x1_S8192x1_d2 h_S_),
    TRef.binary (.of main_v25 : TRef sig ⟨S8192x8192, .f32⟩) main_call3.v5 main_call3.v13 (fun x i => Host.gather gather_S8192x8192_S8192x1x1_S8192x1_n_1_0_0_1_2_11 x i),
    TRef.nullary main_call3.cst (constant S_ .f32 0x7FC00000#32),
    TRef.unary main_call3.cst main_call3.v14 (broadcastInDim S8192x1 ![] bcast_S_S8192x1),
    TRef.ternary main_call3.v12 main_call3.v13 main_call3.v14 main_call3.v15 select,
    nullary main_cst_5 (constant S_ .f32 0x00000000#32),
    binary main_v27 main_cst_5 main_v28 ((fun x v => Host.reduceAdd x v reducesTo_S8192x1_S_d0_1 h_S_) : (⟨S8192x1, .f32⟩ : BufTy).Contents (Elt F) → (⟨S_, .f32⟩ : BufTy).Contents (Elt F) → (⟨S_, .f32⟩ : BufTy).Contents (Elt F)),
    nullary main_cst_6 (constant S_ .f32 0x46000000#32),
    binary main_v28 main_cst_6 main_v29 (Host.divf : (⟨S_, .f32⟩ : BufTy).Contents (Elt F) → (⟨S_, .f32⟩ : BufTy).Contents (Elt F) → (⟨S_, .f32⟩ : BufTy).Contents (Elt F)),
    unary main_v29 main_v30 (Host.negf : (⟨S_, .f32⟩ : BufTy).Contents (Elt F) → (⟨S_, .f32⟩ : BufTy).Contents (Elt F)) ]

-- one hundred binds re-associated: the rewrite under the chain recurses once per statement
set_option maxRecDepth 4096 in
set_option maxHeartbeats 4000000 in
/-- @main is that straight line: the called functions' definitions unfolded at their calls, both sides are one
    chain of host steps once sequencing is re-associated. -/
theorem main_eq (c : Dev nD) : main (F := F) c = seq ops := by
  simp only [main, fn_remainder.body, fn_where.body, fn_norm.body, fn_log_softmax.body, fn_take_along_axis.body,
    seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    nullary_bufs_sub .., nullary_bufs_sub .., unary_bufs_sub .., nullary_bufs_sub .., binary_bufs_sub .., nullary_bufs_sub ..,
    ternary_bufs_sub .., unary_bufs_sub .., binary_bufs_sub .., nullary_bufs_sub .., unary_bufs_sub .., binary_bufs_sub ..,
    nullary_bufs_sub .., unary_bufs_sub .., binary_bufs_sub .., nullary_bufs_sub .., binary_bufs_sub .., unary_bufs_sub ..,
    binary_bufs_sub .., binary_bufs_sub .., unary_bufs_sub .., binary_bufs_sub .., ternary_bufs_sub .., nullary_bufs_sub ..,
    unary_bufs_sub .., binary_bufs_sub .., binary_bufs_sub .., nullary_bufs_sub .., unary_bufs_sub .., binary_bufs_sub ..,
    binary_bufs_sub .., nullary_bufs_sub .., binary_bufs_sub .., unary_bufs_sub .., unary_bufs_sub .., nullary_bufs_sub ..,
    unary_bufs_sub .., binary_bufs_sub .., unary_bufs_sub .., binary_bufs_sub .., unary_bufs_sub .., binary_bufs_sub ..,
    nullary_bufs_sub .., nullary_bufs_sub .., nullary_bufs_sub .., unary_bufs_sub .., binary_bufs_sub .., binary_bufs_sub ..,
    unary_bufs_sub .., nullary_bufs_sub .., unary_bufs_sub .., binary_bufs_sub .., binary_bufs_sub .., nullary_bufs_sub ..,
    unary_bufs_sub .., binary_bufs_sub .., nullary_bufs_sub .., binary_bufs_sub .., nullary_bufs_sub .., unary_bufs_sub ..,
    binary_bufs_sub .., unary_bufs_sub .., unary_bufs_sub .., binary_bufs_sub .., unary_bufs_sub .., nullary_bufs_sub ..,
    binary_bufs_sub .., unary_bufs_sub .., unary_bufs_sub .., unary_bufs_sub .., binary_bufs_sub .., unary_bufs_sub ..,
    nullary_bufs_sub .., unary_bufs_sub .., binary_bufs_sub .., nullary_bufs_sub .., unary_bufs_sub .., binary_bufs_sub ..,
    ternary_bufs_sub .., reshape_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., nullary_bufs_sub .., unary_bufs_sub .., ternary_bufs_sub .., nullary_bufs_sub .., binary_bufs_sub ..,
    nullary_bufs_sub .., binary_bufs_sub .., unary_bufs_sub ..⟩

end Cert.ReferenceIdeal.RefRun

end
-- ==== Proof.RefRun2.lean ====
/-
  What the straight line leaves in the result buffer and in the argument's: the fold of the operations' results
  read at `main_v30` is `refVal` of the argument's contents (each operation's result at its own buffer is its
  function of its operands' contents, at any other buffer what was there), and no operation writes the argument.
  Each operation's function applied to the stage definitions of its operands is the stage definition of its
  result (`fold_…`, by definition); rewriting with these while the results are read keeps every intermediate
  value named.
-/
import proofs.«166013_j38044820308458_2_alg».proof.Proof.RefRun1

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem fold_call0_v0 :
    ((id (constantI S_ 32 2#32 : IVec S_ 32)) : (⟨S_, .i32⟩ : BufTy).Contents (Elt F)) = val_call0_v0 := rfl
theorem fold_call0_v1 :
    ((cmpi .eq val_call0_v0 (constantI S_ 32 0#32 : IVec S_ 32)) : (⟨S_, .i1⟩ : BufTy).Contents (Elt F)) = val_call0_v1 := rfl
theorem fold_call0_v2 :
    ((select val_call0_v1 (constantI S_ 32 1#32 : IVec S_ 32) val_call0_v0) : (⟨S_, .i32⟩ : BufTy).Contents (Elt F)) = val_call0_v2 := rfl
theorem fold_call0_v3 :
    ((broadcastInDim S8192 ![] bcast_S_S8192 val_call0_v2) : (⟨S8192, .i32⟩ : BufTy).Contents (Elt F)) = val_call0_v3 := rfl
theorem fold_call0_v4 :
    ((Host.remsi (iotaInDim S8192 32 0 : IVec S8192 32) val_call0_v3) : (⟨S8192, .i32⟩ : BufTy).Contents (Elt F)) = val_call0_v4 := rfl
theorem fold_call0_v5 :
    ((broadcastInDim S8192 ![] bcast_S_S8192 (constantI S_ 32 0#32 : IVec S_ 32)) : (⟨S8192, .i32⟩ : BufTy).Contents (Elt F)) = val_call0_v5 := rfl
theorem fold_call0_v6 :
    ((cmpi .ne val_call0_v4 val_call0_v5) : (⟨S8192, .i1⟩ : BufTy).Contents (Elt F)) = val_call0_v6 := rfl
theorem fold_call0_v8 :
    ((cmpi .slt val_call0_v4 val_call0_v5) : (⟨S8192, .i1⟩ : BufTy).Contents (Elt F)) = val_call0_v8 := rfl
theorem fold_call0_v9 :
    ((cmpi .slt val_call0_v2 (constantI S_ 32 0#32 : IVec S_ 32)) : (⟨S_, .i1⟩ : BufTy).Contents (Elt F)) = val_call0_v9 := rfl
theorem fold_call0_v10 :
    ((broadcastInDim S8192 ![] bcast_S_S8192 val_call0_v9) : (⟨S8192, .i1⟩ : BufTy).Contents (Elt F)) = val_call0_v10 := rfl
theorem fold_call0_v11 :
    ((cmpi .ne val_call0_v8 val_call0_v10) : (⟨S8192, .i1⟩ : BufTy).Contents (Elt F)) = val_call0_v11 := rfl
theorem fold_call0_v12 :
    ((andi val_call0_v11 val_call0_v6) : (⟨S8192, .i1⟩ : BufTy).Contents (Elt F)) = val_call0_v12 := rfl
theorem fold_call0_v14 :
    ((addi val_call0_v4 val_call0_v3) : (⟨S8192, .i32⟩ : BufTy).Contents (Elt F)) = val_call0_v14 := rfl
theorem fold_v1 :
    ((select val_call0_v12 val_call0_v14 val_call0_v4) : (⟨S8192, .i32⟩ : BufTy).Contents (Elt F)) = val_v1 := rfl
theorem fold_v2 :
    ((broadcastInDim S8192 ![] bcast_S_S8192 (constantI S_ 32 2#32 : IVec S_ 32)) : (⟨S8192, .i32⟩ : BufTy).Contents (Elt F)) = val_v2 := rfl
theorem fold_v3 :
    ((muli val_v1 val_v2) : (⟨S8192, .i32⟩ : BufTy).Contents (Elt F)) = val_v3 := rfl
theorem fold_v4 :
    ((subi (iotaInDim S8192 32 0 : IVec S8192 32) val_v3) : (⟨S8192, .i32⟩ : BufTy).Contents (Elt F)) = val_v4 := rfl
theorem fold_v5 :
    ((broadcastInDim S8192 ![] bcast_S_S8192 (constantI S_ 32 1#32 : IVec S_ 32)) : (⟨S8192, .i32⟩ : BufTy).Contents (Elt F)) = val_v5 := rfl
theorem fold_v6 :
    ((addi val_v4 val_v5) : (⟨S8192, .i32⟩ : BufTy).Contents (Elt F)) = val_v6 := rfl
theorem fold_call1_v0 (x : FVec F S8192x768 .f32) :
    ((mulf x x) : (⟨S8192x768, .f32⟩ : BufTy).Contents (Elt F)) = val_call1_v0 x := rfl
theorem fold_call1_v1 (x : FVec F S8192x768 .f32) :
    ((Host.reduceAdd (val_call1_v0 x) (constant S_ .f32 0x00000000#32 : FVec F S_ .f32) reducesTo_S8192x768_S8192_d1 h_S_) : (⟨S8192, .f32⟩ : BufTy).Contents (Elt F)) = val_call1_v1 x := rfl
theorem fold_call1_v2 (x : FVec F S8192x768 .f32) :
    ((broadcastInDim S8192x1 ![0] bcast_S8192_S8192x1_0 (val_call1_v1 x)) : (⟨S8192x1, .f32⟩ : BufTy).Contents (Elt F)) = val_call1_v2 x := rfl
theorem fold_v7 (x : FVec F S8192x768 .f32) :
    ((Host.sqrt (val_call1_v2 x)) : (⟨S8192x1, .f32⟩ : BufTy).Contents (Elt F)) = val_v7 x := rfl
theorem fold_v8 :
    ((broadcastInDim S8192x1 ![] bcast_S_S8192x1 (constant S_ .f32 0x322BCC77#32 : FVec F S_ .f32)) : (⟨S8192x1, .f32⟩ : BufTy).Contents (Elt F)) = val_v8 (F := F) := rfl
theorem fold_v9 (x : FVec F S8192x768 .f32) :
    ((maximumf (val_v7 x) (val_v8 (F := F))) : (⟨S8192x1, .f32⟩ : BufTy).Contents (Elt F)) = val_v9 x := rfl
theorem fold_v10 (x : FVec F S8192x768 .f32) :
    ((broadcastInDim S8192x768 ![0, 1] bcast_S8192x1_S8192x768_0_1 (val_v9 x)) : (⟨S8192x768, .f32⟩ : BufTy).Contents (Elt F)) = val_v10 x := rfl
theorem fold_v11 (x : FVec F S8192x768 .f32) :
    ((Host.divf x (val_v10 x)) : (⟨S8192x768, .f32⟩ : BufTy).Contents (Elt F)) = val_v11 x := rfl
theorem fold_v12 (x : FVec F S8192x768 .f32) :
    ((transpose S768x8192 [1, 0] (val_v11 x) transposes_S8192x768_S768x8192_1_0) : (⟨S768x8192, .f32⟩ : BufTy).Contents (Elt F)) = val_v12 x := rfl
theorem fold_v13 (x : FVec F S8192x768 .f32) :
    ((Host.dotGeneral dot_S8192x768_S768x8192_S8192x8192_1_0_0_1_n_n none (val_v11 x) (val_v12 x)) : (⟨S8192x8192, .f32⟩ : BufTy).Contents (Elt F)) = val_v13 x := rfl
theorem fold_v16 :
    ((broadcastInDim S8192x8192 ![] bcast_S_S8192x8192 (constantI S_ 32 0#32 : IVec S_ 32)) : (⟨S8192x8192, .i32⟩ : BufTy).Contents (Elt F)) = val_v16 := rfl
theorem fold_v17 :
    ((addi (iotaInDim S8192x8192 32 0 : IVec S8192x8192 32) val_v16) : (⟨S8192x8192, .i32⟩ : BufTy).Contents (Elt F)) = val_v17 := rfl
theorem fold_v18 :
    ((cmpi .eq val_v17 (iotaInDim S8192x8192 32 1 : IVec S8192x8192 32)) : (⟨S8192x8192, .i1⟩ : BufTy).Contents (Elt F)) = val_v18 := rfl
theorem fold_v19 :
    ((uitofp .f32 val_v18) : (⟨S8192x8192, .f32⟩ : BufTy).Contents (Elt F)) = val_v19 (F := F) := rfl
theorem fold_v20 :
    ((broadcastInDim S8192x8192 ![] bcast_S_S8192x8192 (constant S_ .f32 0x5368D4A5#32 : FVec F S_ .f32)) : (⟨S8192x8192, .f32⟩ : BufTy).Contents (Elt F)) = val_v20 (F := F) := rfl
theorem fold_v21 :
    ((mulf (val_v19 (F := F)) (val_v20 (F := F))) : (⟨S8192x8192, .f32⟩ : BufTy).Contents (Elt F)) = val_v21 (F := F) := rfl
theorem fold_v22 (x : FVec F S8192x768 .f32) :
    ((subf (val_v13 x) (val_v21 (F := F))) : (⟨S8192x8192, .f32⟩ : BufTy).Contents (Elt F)) = val_v22 x := rfl
theorem fold_v23 :
    ((broadcastInDim S8192x8192 ![] bcast_S_S8192x8192 (constant S_ .f32 0x3D4CCCCD#32 : FVec F S_ .f32)) : (⟨S8192x8192, .f32⟩ : BufTy).Contents (Elt F)) = val_v23 (F := F) := rfl
theorem fold_v24 (x : FVec F S8192x768 .f32) :
    ((Host.divf (val_v22 x) (val_v23 (F := F))) : (⟨S8192x8192, .f32⟩ : BufTy).Contents (Elt F)) = val_v24 x := rfl
theorem fold_call2_v0 (x : FVec F S8192x768 .f32) :
    ((Host.reduce FloatOps.maximumf (val_v24 x) (constant S_ .f32 0xFF800000#32 : FVec F S_ .f32) reducesTo_S8192x8192_S8192_d1 h_S_) : (⟨S8192, .f32⟩ : BufTy).Contents (Elt F)) = val_call2_v0 x := rfl
theorem fold_call2_v1 :
    ((broadcastInDim S8192 ![] bcast_S_S8192 (constant S_ .f32 0xFF800000#32 : FVec F S_ .f32)) : (⟨S8192, .f32⟩ : BufTy).Contents (Elt F)) = val_call2_v1 (F := F) := rfl
theorem fold_call2_v2 (x : FVec F S8192x768 .f32) :
    ((maximumf (val_call2_v1 (F := F)) (val_call2_v0 x)) : (⟨S8192, .f32⟩ : BufTy).Contents (Elt F)) = val_call2_v2 x := rfl
theorem fold_call2_v3 (x : FVec F S8192x768 .f32) :
    ((broadcastInDim S8192x1 ![0] bcast_S8192_S8192x1_0 (val_call2_v2 x)) : (⟨S8192x1, .f32⟩ : BufTy).Contents (Elt F)) = val_call2_v3 x := rfl
theorem fold_call2_v4 (x : FVec F S8192x768 .f32) :
    ((broadcastInDim S8192x8192 ![0, 1] bcast_S8192x1_S8192x8192_0_1 (val_call2_v3 x)) : (⟨S8192x8192, .f32⟩ : BufTy).Contents (Elt F)) = val_call2_v4 x := rfl
theorem fold_call2_v5 (x : FVec F S8192x768 .f32) :
    ((subf (val_v24 x) (val_call2_v4 x)) : (⟨S8192x8192, .f32⟩ : BufTy).Contents (Elt F)) = val_call2_v5 x := rfl
theorem fold_call2_v6 (x : FVec F S8192x768 .f32) :
    ((Host.exp (val_call2_v5 x)) : (⟨S8192x8192, .f32⟩ : BufTy).Contents (Elt F)) = val_call2_v6 x := rfl
theorem fold_call2_v7 (x : FVec F S8192x768 .f32) :
    ((Host.reduceAdd (val_call2_v6 x) (constant S_ .f32 0x00000000#32 : FVec F S_ .f32) reducesTo_S8192x8192_S8192_d1 h_S_) : (⟨S8192, .f32⟩ : BufTy).Contents (Elt F)) = val_call2_v7 x := rfl
theorem fold_call2_v8 (x : FVec F S8192x768 .f32) :
    ((broadcastInDim S8192x1 ![0] bcast_S8192_S8192x1_0 (val_call2_v7 x)) : (⟨S8192x1, .f32⟩ : BufTy).Contents (Elt F)) = val_call2_v8 x := rfl
theorem fold_call2_v9 (x : FVec F S8192x768 .f32) :
    ((Host.log (val_call2_v8 x)) : (⟨S8192x1, .f32⟩ : BufTy).Contents (Elt F)) = val_call2_v9 x := rfl
theorem fold_call2_v10 (x : FVec F S8192x768 .f32) :
    ((broadcastInDim S8192x8192 ![0, 1] bcast_S8192x1_S8192x8192_0_1 (val_call2_v9 x)) : (⟨S8192x8192, .f32⟩ : BufTy).Contents (Elt F)) = val_call2_v10 x := rfl
theorem fold_v25 (x : FVec F S8192x768 .f32) :
    ((subf (val_call2_v5 x) (val_call2_v10 x)) : (⟨S8192x8192, .f32⟩ : BufTy).Contents (Elt F)) = val_v25 x := rfl
theorem fold_v26 :
    ((broadcastInDim S8192x1 ![0] bcast_S8192_S8192x1_0 val_v6) : (⟨S8192x1, .i32⟩ : BufTy).Contents (Elt F)) = val_v26 := rfl
theorem fold_call3_v0 :
    ((broadcastInDim S8192x1 ![] bcast_S_S8192x1 (constantI S_ 32 0#32 : IVec S_ 32)) : (⟨S8192x1, .i32⟩ : BufTy).Contents (Elt F)) = val_call3_v0 := rfl
theorem fold_call3_v1 :
    ((cmpi .slt val_v26 val_call3_v0) : (⟨S8192x1, .i1⟩ : BufTy).Contents (Elt F)) = val_call3_v1 := rfl
theorem fold_call3_v2 :
    ((broadcastInDim S8192x1 ![] bcast_S_S8192x1 (constantI S_ 32 8192#32 : IVec S_ 32)) : (⟨S8192x1, .i32⟩ : BufTy).Contents (Elt F)) = val_call3_v2 := rfl
theorem fold_call3_v3 :
    ((addi val_v26 val_call3_v2) : (⟨S8192x1, .i32⟩ : BufTy).Contents (Elt F)) = val_call3_v3 := rfl
theorem fold_call3_v4 :
    ((select val_call3_v1 val_call3_v3 val_v26) : (⟨S8192x1, .i32⟩ : BufTy).Contents (Elt F)) = val_call3_v4 := rfl
theorem fold_call3_v6 :
    ((broadcastInDim S8192x1x1 ![] bcast_S_S8192x1x1 (constantI S_ 32 0#32 : IVec S_ 32)) : (⟨S8192x1x1, .i32⟩ : BufTy).Contents (Elt F)) = val_call3_v6 := rfl
theorem fold_call3_v7 :
    ((cmpi .sge val_call3_v5 val_call3_v6) : (⟨S8192x1x1, .i1⟩ : BufTy).Contents (Elt F)) = val_call3_v7 := rfl
theorem fold_call3_v8 :
    ((broadcastInDim S1x1x1 ![2] bcast_S1_S1x1x1_2 (constantI S1 32 8191#32 : IVec S1 32)) : (⟨S1x1x1, .i32⟩ : BufTy).Contents (Elt F)) = val_call3_v8 := rfl
theorem fold_call3_v9 :
    ((broadcastInDim S8192x1x1 ![0, 1, 2] bcast_S1x1x1_S8192x1x1_0_1_2 val_call3_v8) : (⟨S8192x1x1, .i32⟩ : BufTy).Contents (Elt F)) = val_call3_v9 := rfl
theorem fold_call3_v10 :
    ((cmpi .sle val_call3_v5 val_call3_v9) : (⟨S8192x1x1, .i1⟩ : BufTy).Contents (Elt F)) = val_call3_v10 := rfl
theorem fold_call3_v11 :
    ((andi val_call3_v7 val_call3_v10) : (⟨S8192x1x1, .i1⟩ : BufTy).Contents (Elt F)) = val_call3_v11 := rfl
theorem fold_call3_v12 :
    ((Host.reduce IntOp.andi val_call3_v11 (constantI S_ 1 1#1 : IVec S_ 1) reducesTo_S8192x1x1_S8192x1_d2 h_S_) : (⟨S8192x1, .i1⟩ : BufTy).Contents (Elt F)) = val_call3_v12 := rfl
theorem fold_call3_v13 (x : FVec F S8192x768 .f32) :
    ((Host.gather gather_S8192x8192_S8192x1x1_S8192x1_n_1_0_0_1_2_11 (val_v25 x) val_call3_v5) : (⟨S8192x1, .f32⟩ : BufTy).Contents (Elt F)) = val_call3_v13 x := rfl
theorem fold_call3_v14 :
    ((broadcastInDim S8192x1 ![] bcast_S_S8192x1 (constant S_ .f32 0x7FC00000#32 : FVec F S_ .f32)) : (⟨S8192x1, .f32⟩ : BufTy).Contents (Elt F)) = val_call3_v14 (F := F) := rfl
theorem fold_v27 (x : FVec F S8192x768 .f32) :
    ((select val_call3_v12 (val_call3_v13 x) (val_call3_v14 (F := F))) : (⟨S8192x1, .f32⟩ : BufTy).Contents (Elt F)) = val_v27 x := rfl
theorem fold_v28 (x : FVec F S8192x768 .f32) :
    ((Host.reduceAdd (val_v27 x) (constant S_ .f32 0x00000000#32 : FVec F S_ .f32) reducesTo_S8192x1_S_d0_1 h_S_) : (⟨S_, .f32⟩ : BufTy).Contents (Elt F)) = val_v28 x := rfl
theorem fold_v29 (x : FVec F S8192x768 .f32) :
    ((Host.divf (val_v28 x) (constant S_ .f32 0x46000000#32 : FVec F S_ .f32)) : (⟨S_, .f32⟩ : BufTy).Contents (Elt F)) = val_v29 x := rfl
theorem fold_v30 (x : FVec F S8192x768 .f32) :
    ((Host.negf (val_v29 x)) : (⟨S_, .f32⟩ : BufTy).Contents (Elt F)) = val_v30 x := rfl

set_option maxRecDepth 8192 in
set_option maxHeartbeats 4000000 in
/-- The result buffer after the line. -/
theorem out_eq (V : Valuation τ sig (Elt F)) :
    after ops V (main_v30 : DevRef τ sig) = refVal (V (main_arg0 : DevRef τ sig)) := by
  simp (disch := decide) only [after_cons, after_nil,
    nullary_result', unary_result', binary_result', ternary_result', reshape_result',
    nullary_result_ne', unary_result_ne', binary_result_ne', ternary_result_ne', reshape_result_ne',
    TRef.toBuf, TRef.ofBuf, cast_eq,
    fold_call0_v0 (F := F), fold_call0_v1, fold_call0_v2 (F := F), fold_call0_v3 (F := F), fold_call0_v4,
    fold_call0_v5 (F := F), fold_call0_v6, fold_call0_v8, fold_call0_v9, fold_call0_v10 (F := F),
    fold_call0_v11, fold_call0_v12, fold_call0_v14, fold_v1 (F := F), fold_v2 (F := F),
    fold_v3, fold_v4, fold_v5 (F := F), fold_v6, fold_call1_v0 (F := F),
    fold_call1_v1 (F := F), fold_call1_v2 (F := F), fold_v7 (F := F), fold_v8 (F := F), fold_v9 (F := F),
    fold_v10 (F := F), fold_v11 (F := F), fold_v12 (F := F), fold_v13 (F := F), fold_v16 (F := F),
    fold_v17, fold_v18, fold_v19 (F := F), fold_v20 (F := F), fold_v21 (F := F),
    fold_v22 (F := F), fold_v23 (F := F), fold_v24 (F := F), fold_call2_v0 (F := F), fold_call2_v1 (F := F),
    fold_call2_v2 (F := F), fold_call2_v3 (F := F), fold_call2_v4 (F := F), fold_call2_v5 (F := F), fold_call2_v6 (F := F),
    fold_call2_v7 (F := F), fold_call2_v8 (F := F), fold_call2_v9 (F := F), fold_call2_v10 (F := F), fold_v25 (F := F),
    fold_v26 (F := F), fold_call3_v0 (F := F), fold_call3_v1, fold_call3_v2 (F := F), fold_call3_v3,
    fold_call3_v4 (F := F), fold_call3_v6 (F := F), fold_call3_v7, fold_call3_v8 (F := F), fold_call3_v9 (F := F),
    fold_call3_v10, fold_call3_v11, fold_call3_v12 (F := F), fold_call3_v13 (F := F), fold_call3_v14 (F := F),
    fold_v27 (F := F), fold_v28 (F := F), fold_v29 (F := F), fold_v30 (F := F)]
  rfl

set_option maxRecDepth 8192 in
set_option maxHeartbeats 4000000 in
/-- The argument's buffer is written by no operation. -/
theorem arg0_eq (V : Valuation τ sig (Elt F)) :
    after ops V (main_arg0 : DevRef τ sig) = V (main_arg0 : DevRef τ sig) := by
  after_results_simp

end Cert.ReferenceIdeal.RefRun

end
-- ==== Proof.RefRun.lean ====
/-
  The reference program's run: on every device, from any memory with zero counters, every weakly fair execution
  of @main terminates with the result buffer at `refVal` of the argument's launch contents and the argument unchanged.
-/
import proofs.«166013_j38044820308458_2_alg».proof.Proof.RefRun2

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The run of the straight line, read at the result and at the argument. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v30) = refVal (m ((c.tc : Thread nD τ).loc main_arg0))
      ∧ r.2.mem ((c.tc : Thread nD τ).loc main_arg0) = m ((c.tc : Thread nD τ).loc main_arg0) :=
  (θ_run defs _ _).mono (fun _ h c => ⟨(h c main_v30).trans (out_eq _), (h c main_arg0).trans (arg0_eq _)⟩)
    (run_seq scopedRefs_eq scopedSems_eq defs main (fun _ => ops) main_eq (fun _ => ops_sub) m ρ)

end Cert.ReferenceIdeal.RefRun

end
-- ==== Proof.LibPlainDot.lean ====
/-
  A plain matrix product read at an index, over the extended reals.

  For the dimension numbers of an M×K by K×N product (contract the left operand's second axis with the
  right operand's first; no batch axes) the entry (i, j) of the product is the sum over k of
  lhs (i, k) · rhs (k, j): stated once for a `tpu.matmul` accumulating into the zero splat and once for
  the host's `dot_general`, for any extents M, K, N. The contraction index of such a product has one
  axis of extent K, and the sum over it is re-indexed by that coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable {M K N : Nat}

/-- The left operand's row coordinate is the result's row coordinate. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, show 0 < (DotDims.plain M K N).contr.rank from Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, show 0 < (DotDims.plain M K N).contr.rank from Nat.one_pos⟩).val :=
  (DotDims.plain M K N).rhsIdx_val_of_single rfl j q

/-- The right operand's column coordinate is the result's column coordinate. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction index of a plain product is the sum over k of lhs (i, k) · rhs (k, j). -/
theorem sum_contr (lhs : (⟨2, ![M, K]⟩ : Shape).Idx → EReal) (rhs : (⟨2, ![K, N]⟩ : Shape).Idx → EReal)
    (i : Fin M) (j : Fin N) :
    (∑ q : (DotDims.plain M K N).contr.Idx,
        lhs ((DotDims.plain M K N).lhsIdx (ix2 i j) q) * rhs ((DotDims.plain M K N).rhsIdx (ix2 i j) q))
      = ∑ k : Fin K, lhs (ix2 i k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

/-- A `tpu.matmul` of plain dimension numbers into the zero splat, at (i, j): the sum over k of the products. -/
theorem matmul_zero_apply {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) :=
  (Ideal.matmul_constant_zero_apply (DotDims.plain M K N) prec lhs rhs (ix2 i j)).trans (sum_contr lhs rhs i j)

/-- The host's `dot_general` of plain dimension numbers, at (i, j): the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (i : Fin M) (j : Fin N) :
    FloatOps.dotGeneral (DotDims.plain M K N) prec sched lhs rhs (ix2 i j)
      = ∑ k : Fin K, lhs (ix2 i k) * rhs (ix2 k j) :=
  (Ideal.dotGeneral_apply (DotDims.plain M K N) prec sched lhs rhs (ix2 i j)).trans (sum_contr lhs rhs i j)

end Idealize.ShloMosaic.PlainDot

end
-- ==== Proof.RefRead1.lean ====
/-
  The reference's float stages read at an index, up to the logits.

  With X i k the argument at (i, k): the row norm is the square root of the sum of squares, guarded from below by
  the constant eps; the normalised matrix is X divided by the guarded norm of its row; the product of the
  normalised matrix with its transpose is, at (i, j), the sum over k of the normalised entries (i, k) and (j, k);
  the comparison of the row and column iotas converted to a float is 1 on the diagonal and 0 elsewhere; and the
  logits are the product minus the diagonal penalty, divided by the temperature: `Spec.zR`.
-/
import proofs.«166013_j38044820308458_2_alg».proof.Proof.RefRun0
import proofs.«166013_j38044820308458_2_alg».proof.Proof.Spec
import proofs.«166013_j38044820308458_2_alg».proof.Proof.LibRowOps
import proofs.«166013_j38044820308458_2_alg».proof.Proof.LibPlainDot
import Idealize.ShloMosaic.Lib.IdealHost
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RefRead

open Cert.ReferenceIdeal Cert.ReferenceIdeal.Gen Cert.ReferenceIdeal.RefRun Idealize.ShloMosaic Idealize.ShloMosaic.ValueIdx
open Idealize.ShloMosaic.RowOps

/-- The argument read by coordinates. -/
abbrev mat (x : FVec Ideal S8192x768 .f32) : Fin 8192 → Fin 768 → EReal := fun i k => x (ix2 i k)

/-- The row sums of squares. -/
theorem val_call1_v1_apply (x : FVec Ideal S8192x768 .f32) (i : Fin 8192) :
    val_call1_v1 x (ix1 i) = ∑ k : Fin 768, mat x i k * mat x i k := by
  unfold val_call1_v1
  rw [rowSum_host _ _ reducesTo_S8192x768_S8192_d1 (by decide) h_S_ i]
  rw [constant_apply, Ideal.ofBits_zero_f32, zero_add]
  rfl

/-- The row norms, as a column. -/
theorem val_v7_apply (x : FVec Ideal S8192x768 .f32) (i : Fin 8192) :
    val_v7 x (ix2 i (0 : Fin 1)) = Ideal.sqrt (∑ k : Fin 768, mat x i k * mat x i k) := by
  show Ideal.sqrt (val_call1_v2 x (ix2 i (0 : Fin 1))) = _
  unfold val_call1_v2
  rw [colInDim_apply, val_call1_v1_apply]

/-- The guarded row norms. -/
theorem val_v9_apply (x : FVec Ideal S8192x768 .f32) (i : Fin 8192) :
    val_v9 x (ix2 i (0 : Fin 1)) = Spec.den (mat x) i := by
  show max (val_v7 x (ix2 i (0 : Fin 1))) (val_v8 (F := Ideal) (ix2 i (0 : Fin 1))) = _
  rw [val_v7_apply]
  unfold val_v8
  rw [broadcastInDim_scalar_apply, constant_apply]
  rfl

/-- The normalised matrix. -/
theorem val_v11_apply (x : FVec Ideal S8192x768 .f32) (i : Fin 8192) (k : Fin 768) :
    val_v11 x (ix2 i k) = Spec.xn (mat x) i k := by
  show Ideal.div (x (ix2 i k)) (val_v10 x (ix2 i k)) = _
  unfold val_v10
  rw [colInDim2_apply, val_v9_apply]
  rfl

/-- Its transpose. -/
theorem val_v12_apply (x : FVec Ideal S8192x768 .f32) (k : Fin 768) (j : Fin 8192) :
    val_v12 x (ix2 k j) = val_v11 x (ix2 j k) := by
  unfold val_v12
  refine Idealize.ShloMosaic.transpose_apply [1, 0] (val_v11 x) transposes_S8192x768_S768x8192_1_0 (ix2 k j) (ix2 j k) fun b => ?_
  match b with
  | ⟨0, _⟩ => rfl
  | ⟨1, _⟩ => rfl

/-- The similarity matrix: the inner products of normalised rows. -/
theorem val_v13_apply (x : FVec Ideal S8192x768 .f32) (i j : Fin 8192) :
    val_v13 x (ix2 i j) = Spec.sim (mat x) i j := by
  show FloatOps.dotGeneral (DotDims.plain 8192 768 8192) none .single (val_v11 x) (val_v12 x) (ix2 i j) = _
  rw [PlainDot.dotGeneral_apply]
  unfold Spec.sim
  refine Finset.sum_congr rfl fun k _ => ?_
  rw [val_v11_apply, val_v12_apply, val_v11_apply]

/-- The row iota plus zero is the row number as a word. -/
theorem val_v17_apply (i j : Fin 8192) : val_v17 (ix2 i j) = BitVec.ofNat 32 i.val := by
  show IntOp.addi (BitVec.ofNat 32 i.val) (val_v16 (ix2 i j)) = _
  unfold val_v16
  rw [broadcastInDim_scalar_apply]
  show BitVec.ofNat 32 i.val + 0#32 = _
  exact BitVec.add_zero _

/-- Numbers below 8192 are told apart by their 32-bit words. -/
theorem ofNat_inj_of_lt {a b : Nat} (ha : a < 8192) (hb : b < 8192) (h : BitVec.ofNat 32 a = BitVec.ofNat 32 b) : a = b := by
  have := congrArg BitVec.toNat h
  simp only [BitVec.toNat_ofNat] at this
  omega

/-- The identity matrix: 1 where the row and column numbers agree, else 0. -/
theorem val_v19_apply (i j : Fin 8192) :
    val_v19 (F := Ideal) (ix2 i j) = if i = j then (1 : EReal) else 0 := by
  show (((IntOp.cmpi .eq (val_v17 (ix2 i j)) (BitVec.ofNat 32 j.val)).toNat : ℝ) : EReal) = _
  rw [val_v17_apply]
  by_cases h : i = j
  · subst h
    rw [if_pos rfl]
    simp [IntOp.cmpi]
  · rw [if_neg h]
    have hne : BitVec.ofNat 32 i.val ≠ BitVec.ofNat 32 j.val := fun e => h (Fin.ext (ofNat_inj_of_lt i.isLt j.isLt e))
    simp [IntOp.cmpi, hne]

/-- The logits. -/
theorem val_v24_apply (x : FVec Ideal S8192x768 .f32) (i j : Fin 8192) :
    val_v24 x (ix2 i j) = Spec.zR (mat x) i j := by
  have h22 : val_v22 x (ix2 i j) = Spec.sim (mat x) i j - (if i = j then (1 : EReal) else 0) * Spec.pen := by
    show val_v13 x (ix2 i j) - val_v19 (F := Ideal) (ix2 i j) * val_v20 (F := Ideal) (ix2 i j) = _
    rw [val_v13_apply, val_v19_apply]
    unfold val_v20
    rw [broadcastInDim_scalar_apply, constant_apply]
    rfl
  show Ideal.div (val_v22 x (ix2 i j)) (val_v23 (F := Ideal) (ix2 i j)) = _
  rw [h22]
  unfold val_v23
  rw [broadcastInDim_scalar_apply, constant_apply]
  rfl

end Cert.ReferenceIdeal.RefRead

end
-- ==== Proof.RefLabels.lean ====
/-
  The integer side of the reference: the labels, the range mask of the indexed read, and the gather.

  Row i's label is computed on 32-bit words as i - (i mod 2) * 2 + 1, the remainder taken by a signed division by 2
  whose sign correction never applies to a non-negative row number; that word is i xor 1. It lies between 0 and 8191,
  so the indexed read neither wraps it nor masks it: the mask is 1 at every row, the selected value is the gathered
  one, and the gather reads its operand at (i, i xor 1).
-/
import proofs.«166013_j38044820308458_2_alg».proof.Proof.RefRun0
import proofs.«166013_j38044820308458_2_alg».proof.Proof.Spec
import proofs.«166013_j38044820308458_2_alg».proof.Proof.LibRowOps
import Idealize.ShloMosaic.Lib.ValueIdx
import Idealize.ShloMosaic.Lib.Pipeline.Value
import Mathlib.Data.Nat.Bitwise

noncomputable section

namespace Cert.ReferenceIdeal.RefRead

open Cert.ReferenceIdeal Cert.ReferenceIdeal.Gen Cert.ReferenceIdeal.RefRun Idealize.ShloMosaic Idealize.ShloMosaic.ValueIdx

/-! ## Words -/

/-- A natural number below 2^31 read back signed from its 32-bit word is itself. -/
theorem toInt_ofNat_small (m : ℕ) (h : m < 2 ^ 31) : (BitVec.ofNat 32 m).toInt = (m : Int) := by
  have hn : (BitVec.ofNat 32 m).toNat = m := by
    rw [BitVec.toNat_ofNat]; omega
  rw [BitVec.toInt_eq_toNat_of_lt (by rw [hn]; omega), hn]

/-- The signed remainder by 2 of a small non-negative word is the remainder of the number. -/
theorem srem_two (n : ℕ) (h : n < 8192) : (BitVec.ofNat 32 n).srem 2#32 = BitVec.ofNat 32 (n % 2) := by
  apply BitVec.eq_of_toInt_eq
  rw [BitVec.toInt_srem, toInt_ofNat_small n (by omega), toInt_ofNat_small (n % 2) (by omega)]
  have h2 : (2#32 : BitVec 32).toInt = 2 := by decide
  rw [h2, Int.tmod_eq_emod_of_nonneg (by omega)]
  omega

/-- Flipping the lowest bit: an even number goes up by one, an odd number down by one. -/
theorem xor_one_eq (n : ℕ) : n ^^^ 1 = n + 1 - (n % 2) * 2 := by
  rcases Nat.even_or_odd n with he | ho
  · rw [Nat.xor_one_of_even he]
    have := Nat.even_iff.mp he
    omega
  · rw [Nat.xor_one_of_odd ho]
    have := Nat.odd_iff.mp ho
    omega

/-- The label arithmetic on words: n - (n mod 2) * 2 + 1 is the word of n xor 1. -/
theorem label_word (n : ℕ) (h : n < 8192) :
    BitVec.ofNat 32 n - BitVec.ofNat 32 (n % 2) * 2#32 + 1#32 = BitVec.ofNat 32 (n ^^^ 1) := by
  apply BitVec.eq_of_toNat_eq
  rw [xor_one_eq]
  simp only [BitVec.toNat_add, BitVec.toNat_sub, BitVec.toNat_mul, BitVec.toNat_ofNat]
  have : n % 2 = 0 ∨ n % 2 = 1 := by omega
  rcases this with h0 | h1
  · rw [h0]; omega
  · rw [h1]; omega

/-- A small non-negative word is not below zero, signed. -/
theorem cmpi_slt_zero (m : ℕ) (h : m < 2 ^ 31) : IntOp.cmpi .slt (BitVec.ofNat 32 m) 0#32 = 0#1 := by
  show BitVec.ofBool ((BitVec.ofNat 32 m).slt 0#32) = 0#1
  have h0 : (0#32 : BitVec 32).toInt = 0 := by decide
  rw [BitVec.slt_eq_decide, toInt_ofNat_small m h, h0, decide_eq_false (by omega)]
  rfl

/-- A small non-negative word is at least zero, signed. -/
theorem cmpi_sge_zero (m : ℕ) (h : m < 2 ^ 31) : IntOp.cmpi .sge (BitVec.ofNat 32 m) 0#32 = 1#1 := by
  show BitVec.ofBool ((0#32 : BitVec 32).sle (BitVec.ofNat 32 m)) = 1#1
  have h0 : (0#32 : BitVec 32).toInt = 0 := by decide
  rw [BitVec.sle_eq_decide, toInt_ofNat_small m h, h0, decide_eq_true (by omega)]
  rfl

/-- A word below 8192 is at most 8191, signed. -/
theorem cmpi_sle_8191 (m : ℕ) (h : m < 8192) : IntOp.cmpi .sle (BitVec.ofNat 32 m) 8191#32 = 1#1 := by
  show BitVec.ofBool ((BitVec.ofNat 32 m).sle 8191#32) = 1#1
  have h0 : (8191#32 : BitVec 32).toInt = 8191 := by decide
  rw [BitVec.sle_eq_decide, toInt_ofNat_small m (by omega), h0, decide_eq_true (by omega)]
  rfl

/-- The label is a row number. -/
theorem label_lt (i : Fin 8192) : i.val ^^^ 1 < 8192 := (Spec.label i).isLt

/-! ## The labels -/

/-- The remainder stage: row i's number modulo 2 (the divisor is the word 2, never a corner of the division). -/
theorem val_call0_v4_apply (i : Fin 8192) : val_call0_v4 (ix1 i) = BitVec.ofNat 32 (i.val % 2) := by
  show IntOp.remsi .host (BitVec.ofNat 32 i.val) 2#32 = _
  unfold IntOp.remsi
  rw [if_neg]
  · exact srem_two i.val i.isLt
  · rintro (h | ⟨_, h⟩) <;> exact absurd h (by decide)

/-- The sign correction of the remainder never applies: the remainder is kept. -/
theorem val_v1_apply (i : Fin 8192) : val_v1 (ix1 i) = BitVec.ofNat 32 (i.val % 2) := by
  have h8 : val_call0_v8 (ix1 i) = 0#1 := by
    show IntOp.cmpi .slt (val_call0_v4 (ix1 i)) 0#32 = 0#1
    rw [val_call0_v4_apply]
    exact cmpi_slt_zero _ (by omega)
  have h12 : val_call0_v12 (ix1 i) = 0#1 := by
    show IntOp.andi (IntOp.cmpi .ne (val_call0_v8 (ix1 i)) 0#1) (val_call0_v6 (ix1 i)) = 0#1
    rw [h8]
    have hne : IntOp.cmpi .ne (0#1 : BitVec 1) 0#1 = 0#1 := by decide
    rw [hne]
    exact BitVec.zero_and
  show Scalar.select (val_call0_v12 (ix1 i)) (val_call0_v14 (ix1 i)) (val_call0_v4 (ix1 i)) = _
  rw [h12, select_zero, val_call0_v4_apply]

/-- Row i's label is the word of i xor 1. -/
theorem val_v6_apply (i : Fin 8192) : val_v6 (ix1 i) = BitVec.ofNat 32 (Spec.label i).val := by
  show IntOp.addi (IntOp.subi (BitVec.ofNat 32 i.val) (IntOp.muli (val_v1 (ix1 i)) 2#32)) 1#32 = _
  rw [val_v1_apply]
  exact label_word i.val i.isLt

/-- The labels as a column. -/
theorem val_v26_apply (i : Fin 8192) : val_v26 (ix2 i (0 : Fin 1)) = BitVec.ofNat 32 (Spec.label i).val := by
  unfold val_v26
  rw [RowOps.colInDim_apply, val_v6_apply]

/-! ## The indexed read: no wrap, no mask -/

/-- The label is not negative, so it is not wrapped. -/
theorem val_call3_v4_apply (i : Fin 8192) : val_call3_v4 (ix2 i (0 : Fin 1)) = BitVec.ofNat 32 (Spec.label i).val := by
  show Scalar.select (IntOp.cmpi .slt (val_v26 (ix2 i (0 : Fin 1))) 0#32) (val_call3_v3 (ix2 i (0 : Fin 1)))
    (val_v26 (ix2 i (0 : Fin 1))) = _
  rw [val_v26_apply, cmpi_slt_zero _ (by have := (Spec.label i).isLt; omega), select_zero]

/-- The start indices, one per row. -/
theorem val_call3_v5_apply (a : Fin 8192) (b c : Fin 1) :
    val_call3_v5 (ix3 a b c) = BitVec.ofNat 32 (Spec.label a).val := by
  unfold val_call3_v5
  rw [shapeCast_apply val_call3_v4 _ (ix3 a b c) (ix2 a (0 : Fin 1)) (by
    rw [Shape.rowMajor_val_two, Shape.rowMajor_val_three]
    show a.val * 1 + 0 = (a.val * 1 + b.val) * 1 + c.val
    have := b.isLt; have := c.isLt; omega)]
  exact val_call3_v4_apply a

/-- Every start index is in range: the conjunction of the two comparisons is 1. -/
theorem val_call3_v11_apply (k : S8192x1x1.Idx) : val_call3_v11 k = 1#1 := by
  obtain ⟨a, b, c, rfl⟩ : ∃ a b c, k = ix3 a b c := ⟨k 0, k 1, k 2, eq_ix3 k⟩
  show IntOp.andi (IntOp.cmpi .sge (val_call3_v5 (ix3 a b c)) 0#32) (IntOp.cmpi .sle (val_call3_v5 (ix3 a b c)) 8191#32) = 1#1
  have hl := (Spec.label a).isLt
  rw [val_call3_v5_apply, cmpi_sge_zero _ (by omega), cmpi_sle_8191 _ hl]
  decide

/-- A conjunction over ones, from one, is one. -/
theorem foldl_andi_one {ι : Type} (g : ι → BitVec 1) (hg : ∀ n, g n = 1#1) (l : List ι) :
    l.foldl (fun r n => IntOp.andi r (g n)) 1#1 = 1#1 := by
  induction l with
  | nil => rfl
  | cons n l ih =>
    rw [List.foldl_cons, hg n]
    have : IntOp.andi (1#1 : BitVec 1) 1#1 = 1#1 := by decide
    rw [this]
    exact ih

/-- The mask is 1 at every row. -/
theorem val_call3_v12_apply (j : S8192x1.Idx) : val_call3_v12 j = 1#1 := by
  unfold val_call3_v12 Host.reduce
  exact foldl_andi_one _ (fun n => val_call3_v11_apply _) _

section
variable {F : FTy → Type} [FloatOps F]

/-- So the selected value is the gathered one, never the fill. -/
theorem val_v27_eq_gather (x : FVec F S8192x768 .f32) (j : S8192x1.Idx) : val_v27 x j = val_call3_v13 x j := by
  show Scalar.select (val_call3_v12 j) (val_call3_v13 x j) (val_call3_v14 (F := F) j) = _
  rw [val_call3_v12_apply, select_one]

/-! ## The gather -/

/-- The start-indices entry row i's read uses. -/
theorem gather_siIdx (i : Fin 8192) (c : Fin gather_S8192x8192_S8192x1x1_S8192x1_n_1_0_0_1_2_11.startIndexMap.length) :
    gather_S8192x8192_S8192x1x1_S8192x1_n_1_0_0_1_2_11.siIdx (ix2 i (0 : Fin 1)) c = ix3 i (0 : Fin 1) (0 : Fin 1) := by
  funext b; refine Fin.ext ?_
  match b with
  | ⟨0, _⟩ => rfl
  | ⟨1, _⟩ => rfl
  | ⟨2, _⟩ =>
    show c.val = 0
    have : c.val < 1 := c.isLt
    omega

/-- The gather at row i reads its operand at row i (the batching axis) and column label i (the start index, in
    range, so the clamp leaves it). -/
theorem val_call3_v13_apply (x : FVec F S8192x768 .f32) (i : Fin 8192) :
    val_call3_v13 x (ix2 i (0 : Fin 1)) = val_v25 x (ix2 i (Spec.label i)) := by
  unfold val_call3_v13 Host.gather
  refine congrArg (val_v25 x) (funext fun a => Fin.ext ?_)
  have hb0 : (0 : Fin 2) ∈ gather_S8192x8192_S8192x1x1_S8192x1_n_1_0_0_1_2_11.operandBatchingDims :=
    List.mem_singleton.mpr rfl
  have hb1 : (1 : Fin 2) ∉ gather_S8192x8192_S8192x1x1_S8192x1_n_1_0_0_1_2_11.operandBatchingDims :=
    fun h => absurd (List.mem_singleton.mp h) (by decide)
  have hc1 : (1 : Fin 2) ∈ gather_S8192x8192_S8192x1x1_S8192x1_n_1_0_0_1_2_11.collapsedSliceDims :=
    List.mem_singleton.mpr rfl
  have hm1 : (1 : Fin 2) ∈ gather_S8192x8192_S8192x1x1_S8192x1_n_1_0_0_1_2_11.startIndexMap :=
    List.mem_singleton.mpr rfl
  match a with
  | ⟨0, _⟩ =>
    show gather_S8192x8192_S8192x1x1_S8192x1_n_1_0_0_1_2_11.start (ix2 i (0 : Fin 1)) val_call3_v5 0
        + gather_S8192x8192_S8192x1x1_S8192x1_n_1_0_0_1_2_11.batchCoord (ix2 i (0 : Fin 1)) 0
        + gather_S8192x8192_S8192x1x1_S8192x1_n_1_0_0_1_2_11.offCoord (ix2 i (0 : Fin 1)) 0 = i.val
    rw [GatherDims.start_batching _ _ _ _ hb0,
      GatherDims.offCoord_eq_zero _ _ _ (fun h => ((GatherDims.mem_sKept _ _).mp h).2 hb0)]
    unfold GatherDims.batchCoord
    rw [dif_pos hb0]
    simp only [Nat.zero_add, Nat.add_zero]
    rfl
  | ⟨1, _⟩ =>
    show gather_S8192x8192_S8192x1x1_S8192x1_n_1_0_0_1_2_11.start (ix2 i (0 : Fin 1)) val_call3_v5 1
        + gather_S8192x8192_S8192x1x1_S8192x1_n_1_0_0_1_2_11.batchCoord (ix2 i (0 : Fin 1)) 1
        + gather_S8192x8192_S8192x1x1_S8192x1_n_1_0_0_1_2_11.offCoord (ix2 i (0 : Fin 1)) 1 = (Spec.label i).val
    rw [GatherDims.batchCoord_eq_zero _ _ _ hb1,
      GatherDims.offCoord_eq_zero _ _ _ (fun h => ((GatherDims.mem_sKept _ _).mp h).1 hc1)]
    simp only [Nat.add_zero]
    unfold GatherDims.start
    rw [dif_pos hm1, gather_siIdx, val_call3_v5_apply, toInt_ofNat_small _ (by have := (Spec.label i).isLt; omega),
      Int.toNat_natCast]
    have hl := (Spec.label i).isLt
    exact Nat.min_eq_left (show (Spec.label i).val ≤ 8192 - 1 by omega)

/-- The label column of the reference's log-probabilities: the selected value at row i is the operand at (i, label i). -/
theorem val_v27_apply (x : FVec F S8192x768 .f32) (i : Fin 8192) :
    val_v27 x (ix2 i (0 : Fin 1)) = val_v25 x (ix2 i (Spec.label i)) := by
  rw [val_v27_eq_gather, val_call3_v13_apply]

end

end Cert.ReferenceIdeal.RefRead

end
-- ==== Proof.RefSoftmax.lean ====
/-
  The reference's shifted log-softmax and its mean, read at an index, over the extended reals.

  For the logits z (an 8192 × 8192 array) and R i the supremum of row i: entry (i, j) of the log-softmax stage is
  (z i j - R i) - log (∑ j', exp (z i j' - R i)). The row maximum is taken by a reduction from -∞ and then once more
  against -∞; both leave the supremum. The result is minus the sum over the rows of the selected column, divided by
  the number of rows.
-/
import proofs.«166013_j38044820308458_2_alg».proof.Proof.RefLabels
import Idealize.ShloMosaic.PureOps.Ideal.Laws
import Idealize.ShloMosaic.Lib.IdealHost

noncomputable section

open scoped BigOperators

namespace Cert.ReferenceIdeal.RefRead

open Cert.ReferenceIdeal Cert.ReferenceIdeal.Gen Cert.ReferenceIdeal.RefRun Idealize.ShloMosaic Idealize.ShloMosaic.ValueIdx

/-- The word of -∞ is the bottom element. -/
theorem ofBits_neg_inf : Ideal.ofBits .f32 0xFF800000#32 = ⊥ := by simp [Ideal.ofBits, Ideal.ieee]

/-- A fold of max from the bottom element is the supremum. -/
theorem fold_max_bot_eq_sup {ι : Type} (s : Finset ι) (f : ι → EReal) : s.fold max ⊥ f = s.sup f := rfl

variable (x : FVec Ideal S8192x768 .f32)

/-- The second operand of the repeated maximum is -∞ everywhere. -/
theorem val_call2_v1_apply (j : S8192.Idx) : val_call2_v1 (F := Ideal) j = ⊥ := by
  unfold val_call2_v1
  rw [broadcastInDim_scalar_apply, constant_apply, ofBits_neg_inf]

/-- Row i's maximum of the logits: the supremum of the row. -/
theorem val_call2_v2_apply (i : Fin 8192) :
    val_call2_v2 x (ix1 i) = Finset.univ.sup fun j : Fin 8192 => val_v24 x (ix2 i j) := by
  unfold val_call2_v2
  rw [maximumf_apply, val_call2_v1_apply, max_eq_right bot_le]
  unfold val_call2_v0
  rw [RowOps.rowMax_host (val_v24 x) _ reducesTo_S8192x8192_S8192_d1 (by decide) h_S_ i, constant_apply, ofBits_neg_inf]
  exact fold_max_bot_eq_sup _ _

/-- The shifted logits: the row's supremum subtracted. -/
theorem val_call2_v5_apply (i j : Fin 8192) :
    val_call2_v5 x (ix2 i j) = val_v24 x (ix2 i j) - Finset.univ.sup fun j' : Fin 8192 => val_v24 x (ix2 i j') := by
  unfold val_call2_v5
  rw [subf_apply]
  unfold val_call2_v4 val_call2_v3
  rw [RowOps.colInDim2_apply, RowOps.colInDim_apply, val_call2_v2_apply]

/-- Row i's sum of the exponentials of the shifted logits. -/
theorem val_call2_v7_apply (i : Fin 8192) :
    val_call2_v7 x (ix1 i)
      = ∑ j' : Fin 8192, Ideal.exp (val_v24 x (ix2 i j') - Finset.univ.sup fun j'' : Fin 8192 => val_v24 x (ix2 i j'')) := by
  unfold val_call2_v7
  rw [RowOps.rowSum_host (val_call2_v6 x) _ reducesTo_S8192x8192_S8192_d1 (by decide) h_S_ i, constant_apply,
    Ideal.ofBits_zero_f32, zero_add]
  refine Finset.sum_congr rfl fun j' _ => ?_
  unfold val_call2_v6 Host.exp
  rw [Ideal.hostUnary_exp_def, val_call2_v5_apply]

/-- The log-softmax stage at (i, j): the shifted logit minus the logarithm of the row's sum of exponentials. -/
theorem val_v25_apply (i j : Fin 8192) :
    val_v25 x (ix2 i j)
      = (val_v24 x (ix2 i j) - Finset.univ.sup fun j' : Fin 8192 => val_v24 x (ix2 i j'))
        - Ideal.log (∑ j' : Fin 8192,
            Ideal.exp (val_v24 x (ix2 i j') - Finset.univ.sup fun j'' : Fin 8192 => val_v24 x (ix2 i j''))) := by
  unfold val_v25
  rw [subf_apply]
  unfold val_call2_v10
  rw [RowOps.colInDim2_apply]
  unfold val_call2_v9 Host.log
  rw [Ideal.hostUnary_log_def]
  unfold val_call2_v8
  rw [RowOps.colInDim_apply, val_call2_v7_apply, val_call2_v5_apply]

/-- The sum of the selected column over both axes: the sum over the rows. -/
theorem val_v28_apply (k : S_.Idx) : val_v28 x k = ∑ i : Fin 8192, val_v27 x (ix2 i (0 : Fin 1)) := by
  unfold val_v28 Host.reduceAdd
  rw [Ideal.hostReduceAdd_def, Ideal.hostReduceAdd_total reducesTo_S8192x1_S_d0_1 (fun c => c.elim0), constant_apply,
    Ideal.ofBits_zero_f32, zero_add, sum_idx2]
  refine Finset.sum_congr rfl fun g _ => ?_
  rw [Fin.sum_univ_one]

/-- The result: minus the sum over the rows of the selected column, divided by the number of rows. -/
theorem val_v30_apply (k : S_.Idx) :
    val_v30 x k = -(Ideal.div (∑ i : Fin 8192, val_v27 x (ix2 i (0 : Fin 1))) Spec.nrows) := by
  unfold val_v30 Host.negf
  rw [Ideal.hostNegf_def, Ideal.negf_def]
  unfold val_v29 Host.divf
  rw [Ideal.hostDivf_def, val_v28_apply, constant_apply]
  rfl

/-- The reference's result through the labels: minus the mean of the log-softmax entries at (i, label i). -/
theorem refVal_apply (k : S_.Idx) :
    refVal x k = -(Ideal.div (∑ i : Fin 8192, val_v25 x (ix2 i (Spec.label i))) Spec.nrows) := by
  unfold refVal
  rw [val_v30_apply]
  refine congrArg (fun s => -(Ideal.div s Spec.nrows)) (Finset.sum_congr rfl fun i _ => ?_)
  exact val_v27_apply x i

end Cert.ReferenceIdeal.RefRead

end
-- ==== Proof.RefRead.lean ====
/-
  The reference's value: its result is the loss `Spec.refLoss` of the argument read by coordinates.

  The logits stage is `Spec.zR`, so the log-softmax stage at (i, j) — the shifted logit minus the logarithm of
  the row's sum of exponentials of shifted logits, the shift the row's supremum — is `Spec.logp`; the result is
  minus the sum over the rows of that stage at (i, label i), divided by the number of rows.
-/
import proofs.«166013_j38044820308458_2_alg».proof.Proof.RefRead1
import proofs.«166013_j38044820308458_2_alg».proof.Proof.RefSoftmax

noncomputable section

open scoped BigOperators

namespace Cert.ReferenceIdeal.RefRead

open Cert.ReferenceIdeal Cert.ReferenceIdeal.Gen Cert.ReferenceIdeal.RefRun Idealize.ShloMosaic Idealize.ShloMosaic.ValueIdx

/-- The log-softmax stage is the specification's. -/
theorem val_v25_logp (x : FVec Ideal S8192x768 .f32) (i j : Fin 8192) :
    val_v25 x (ix2 i j) = Spec.logp (mat x) i j := by
  rw [val_v25_apply]
  simp only [val_v24_apply]
  rfl

/-- The reference's result is the specification's loss at every (that is, the one) index. -/
theorem refVal_eq (x : FVec Ideal S8192x768 .f32) :
    refVal x = fun _ => Spec.refLoss (fun i k => x (ValueIdx.ix2 i k)) := by
  funext k
  rw [refVal_apply]
  unfold Spec.refLoss
  refine congrArg (fun s => -(Ideal.div s Spec.nrows)) (Finset.sum_congr rfl fun i _ => ?_)
  exact val_v25_logp x i (Spec.label i)

end Cert.ReferenceIdeal.RefRead

end
-- ==== Proof.Consts.lean ====
/-
  The programs' float words as the real numbers they denote.
-/
import proofs.«166013_j38044820308458_2_alg».proof.Proof.Spec

noncomputable section

namespace Spec

open Idealize.ShloMosaic

/-- The guard `ε` is the positive real `11258999 · 2⁻⁵⁰`. -/
theorem eps_eq : eps = ((11258999 * (2 : ℝ) ^ (-50 : ℤ) : ℝ) : EReal) := by
  unfold eps; simp [Ideal.ofBits, Ideal.ieee, -EReal.coe_mul]

/-- The diagonal penalty is the real `999999995904`. -/
theorem pen_eq : pen = ((999999995904 : ℝ) : EReal) := by
  unfold pen; simp [Ideal.ofBits, Ideal.ieee, -EReal.coe_mul]; norm_num

/-- The temperature's word is `13421773 / 2²⁸`. -/
theorem temp_eq : temp = ((13421773 / 268435456 : ℝ) : EReal) := by
  unfold temp; simp [Ideal.ofBits, Ideal.ieee, -EReal.coe_mul]; norm_num

/-- The number of rows. -/
theorem nrows_eq : nrows = ((8192 : ℝ) : EReal) := by
  unfold nrows; simp [Ideal.ofBits, Ideal.ieee, -EReal.coe_mul]; norm_num

end Spec

end
-- ==== Proof.Reals.lean ====
/-
  Under a finite input every intermediate of either program is a real number, and the reference's logits are the
  kernel's: dividing by the temperature `T = 13421773 / 2²⁸` is multiplying by its exact reciprocal, the indicator times
  the penalty is the penalty on the diagonal and nothing off it.
-/
import proofs.«166013_j38044820308458_2_alg».proof.Proof.Consts

noncomputable section

namespace Spec

open Idealize.ShloMosaic

/-- Every entry of the input is a real number. -/
def Finite (x : Fin 8192 → Fin 768 → EReal) : Prop := ∀ i k, ∃ r : ℝ, x i k = (r : EReal)

variable {x : Fin 8192 → Fin 768 → EReal}

/-- The reference's logits are the kernel's (no finiteness needed). -/
theorem zR_eq_zK (x : Fin 8192 → Fin 768 → EReal) (i j : Fin 8192) : zR x i j = zK x i j := by
  unfold zR zK
  have h : ((1 / (13421773 / 268435456 : ℝ) : ℝ) : EReal) = invTemp := by
    unfold invTemp; congr 1; norm_num
  rw [temp_eq, Ideal.div_coe (by norm_num : (13421773 / 268435456 : ℝ) ≠ 0), h]
  by_cases hij : i = j
  · rw [if_pos hij, if_pos hij, one_mul]
  · rw [if_neg hij, if_neg hij, zero_mul, sub_zero]

/-- A row's guarded norm is a positive real. -/
theorem den_real (hx : Finite x) (i : Fin 8192) : ∃ d : ℝ, 0 < d ∧ den x i = (d : EReal) := by
  choose f hf using hx i
  have hsum : (∑ k, x i k * x i k) = ((∑ k, f k * f k : ℝ) : EReal) := by
    rw [← LibOnlineSoftmax.coe_sum]
    refine Finset.sum_congr rfl fun k _ => ?_
    rw [hf k, EReal.coe_mul]
  have hq : ¬ (∑ k, f k * f k : ℝ) < 0 := not_lt.2 (Finset.sum_nonneg fun k _ => mul_self_nonneg (f k))
  refine ⟨max (Real.sqrt (∑ k, f k * f k)) (11258999 * (2 : ℝ) ^ (-50 : ℤ)), ?_, ?_⟩
  · exact lt_of_lt_of_le (by positivity) (le_max_right _ _)
  · unfold den
    rw [hsum, Ideal.sqrt_coe, if_neg hq, eps_eq, LibOnlineSoftmax.coe_max]

/-- The normalised matrix is real. -/
theorem xn_real (hx : Finite x) (i : Fin 8192) (k : Fin 768) : ∃ r : ℝ, xn x i k = (r : EReal) := by
  obtain ⟨d, hd, hden⟩ := den_real hx i
  obtain ⟨r, hr⟩ := hx i k
  refine ⟨r * (1 / d), ?_⟩
  unfold xn
  rw [hden, Ideal.div_coe hd.ne', hr, EReal.coe_mul]

/-- The similarities are real. -/
theorem sim_real (hx : Finite x) (i j : Fin 8192) : ∃ r : ℝ, sim x i j = (r : EReal) := by
  choose a ha using xn_real hx i
  choose b hb using xn_real hx j
  refine ⟨∑ k, a k * b k, ?_⟩
  unfold sim
  rw [← LibOnlineSoftmax.coe_sum]
  refine Finset.sum_congr rfl fun k _ => ?_
  rw [ha k, hb k, EReal.coe_mul]

/-- The logits are real. -/
theorem zK_real (hx : Finite x) (i j : Fin 8192) : ∃ r : ℝ, zK x i j = (r : EReal) := by
  obtain ⟨s, hs⟩ := sim_real hx i j
  unfold zK invTemp
  by_cases hij : i = j
  · refine ⟨(s - 999999995904) * (268435456 / 13421773), ?_⟩
    rw [if_pos hij, hs, pen_eq, ← EReal.coe_sub, ← EReal.coe_mul]
  · refine ⟨s * (268435456 / 13421773), ?_⟩
    rw [if_neg hij, hs, ← EReal.coe_mul]

end Spec

end
-- ==== Proof.Rows.lean ====
/-
  One row: the kernel's log-sum-exp minus the label's logit is minus the reference's log-softmax entry at the label.
  The row's logits are real; the reference's row maximum `R` and the online recurrence's final maximum `M` are both the
  attained maximum, hence equal; both denominators are `Σ_j exp (z_j − R)`; the label is never the diagonal.
-/
import proofs.«166013_j38044820308458_2_alg».proof.Proof.Reals

noncomputable section

namespace Spec

open Idealize.ShloMosaic

variable {x : Fin 8192 → Fin 768 → EReal}

/-- A row's partner is another row. -/
theorem label_ne (i : Fin 8192) : label i ≠ i := by
  intro h
  have h' : i.val ^^^ 1 = i.val := congrArg Fin.val h
  have h2 : i.val ^^^ (i.val ^^^ 1) = i.val ^^^ i.val := by rw [h']
  rw [← Nat.xor_assoc, Nat.xor_self, Nat.zero_xor] at h2
  exact absurd h2 (by decide)

/-- The label's logit is the kernel's logit at the label column. -/
theorem posK_eq (x : Fin 8192 → Fin 768 → EReal) (i : Fin 8192) : posK x i = zK x i (label i) := by
  unfold posK zK
  rw [if_neg (fun h => label_ne i h.symm)]

/-- Row `i`: log-sum-exp minus the label's logit against the log-softmax at the label. -/
theorem row_eq (hx : Finite x) (i : Fin 8192) :
    ∃ a : ℝ, lseK x i - posK x i = (a : EReal) ∧ logp x i (label i) = ((-a : ℝ) : EReal) := by
  choose ζ hζ using zK_real hx i
  have hzR : ∀ j, zR x i j = (ζ j : EReal) := fun j => (zR_eq_zK x i j).trans (hζ j)
  obtain ⟨R, hsupR, hleR, jR, hjR⟩ := LibOnlineSoftmax.sup_coe (W := 8192) (by norm_num) ζ
  have hrmax : rmax x i = (R : EReal) := by
    unfold rmax
    rw [show (fun j => zR x i j) = fun j => ((ζ j : ℝ) : EReal) from funext hzR]
    exact hsupR
  have hsumexp : sumexp x i = ((∑ j, Real.exp (ζ j - R) : ℝ) : EReal) := by
    unfold sumexp
    rw [hrmax, ← LibOnlineSoftmax.coe_sum]
    refine Finset.sum_congr rfl fun j _ => ?_
    rw [hzR j, ← EReal.coe_sub]; rfl
  -- the kernel's side
  let ζ' : ℕ → ℝ := fun n => if h : n < 8192 then ζ ⟨n, h⟩ else 0
  have hζ' : ∀ j : Fin 8192, ζ' j.val = ζ j := fun j => by simp [ζ', j.isLt]
  have hzKn : ∀ n, zKn x i n = ((ζ' n : ℝ) : EReal) := by
    intro n
    unfold zKn
    by_cases h : n < 8192
    · simp only [ζ', dif_pos h]; exact hζ _
    · simp only [ζ', dif_neg h]; rfl
  have hpair : pairK x i = LibOnlineSoftmax.state (fun k (j : Fin 512) => ζ' (k * 512 + j.val)) 16 := by
    unfold pairK LibOnlineSoftmax.state
    refine congrArg (fun z : ℕ → Fin 512 → EReal => LibOnlineSoftmax.stateE z 16) ?_
    funext k j
    exact hzKn _
  have key := LibOnlineSoftmax.state_flat (W := 512) (by norm_num) ζ' 15
  simp only [Nat.reduceAdd, Nat.reduceMul] at key
  obtain ⟨M, hleM, ⟨n0, hn0, hn0M⟩, hm, hl⟩ := key
  have hMR : M = R := by
    apply le_antisymm
    · rw [← hn0M]
      have := hζ' ⟨n0, hn0⟩
      simp only at this
      rw [this]; exact hleR _
    · rw [← hjR, ← hζ' jR]; exact hleM _ jR.isLt
  have hsum' : (∑ n ∈ Finset.range 8192, Real.exp (ζ' n - M)) = ∑ j : Fin 8192, Real.exp (ζ j - R) := by
    rw [← Fin.sum_univ_eq_sum_range (fun n => Real.exp (ζ' n - M)) 8192]
    refine Finset.sum_congr rfl fun j _ => ?_
    rw [hζ' j, hMR]
  have hpos : 0 < ∑ j : Fin 8192, Real.exp (ζ j - R) :=
    Finset.sum_pos' (fun j _ => (Real.exp_pos _).le) ⟨jR, Finset.mem_univ _, Real.exp_pos _⟩
  have hlse : lseK x i = ((R + Real.log (∑ j : Fin 8192, Real.exp (ζ j - R)) : ℝ) : EReal) := by
    unfold lseK
    rw [hpair, hm, hl, hsum', hMR, Ideal.log_coe, if_neg (not_le.2 hpos), ← EReal.coe_add]
  refine ⟨R + Real.log (∑ j : Fin 8192, Real.exp (ζ j - R)) - ζ (label i), ?_, ?_⟩
  · rw [hlse, posK_eq, hζ (label i), ← EReal.coe_sub]
  · unfold logp
    rw [hzR (label i), hrmax, hsumexp, Ideal.log_coe, if_neg (not_le.2 hpos), ← EReal.coe_sub, ← EReal.coe_sub]
    exact congrArg (fun r : ℝ => (r : EReal)) (by ring)

end Spec

end
-- ==== Proof.Loss.lean ====
/-
  The two losses agree on a finite input: row by row the kernel's term is minus the reference's, the sums of real
  numbers are real, and dividing by 8192 is multiplying by its reciprocal.
-/
import proofs.«166013_j38044820308458_2_alg».proof.Proof.Rows

noncomputable section

namespace Spec

open Idealize.ShloMosaic

/-- On a finite input the kernel's loss is the reference's. -/
theorem kerLoss_eq_refLoss {x : Fin 8192 → Fin 768 → EReal} (hx : Finite x) : kerLoss x = refLoss x := by
  choose a ha hb using row_eq hx
  have h1 : (∑ i, (lseK x i - posK x i)) = ((∑ i, a i : ℝ) : EReal) := by
    rw [← LibOnlineSoftmax.coe_sum]
    exact Finset.sum_congr rfl fun i _ => ha i
  have h2 : (∑ i, logp x i (label i)) = ((∑ i, -a i : ℝ) : EReal) := by
    rw [← LibOnlineSoftmax.coe_sum]
    exact Finset.sum_congr rfl fun i _ => hb i
  unfold kerLoss refLoss
  rw [nrows_eq, Ideal.div_coe (by norm_num : (8192 : ℝ) ≠ 0), Ideal.div_coe (by norm_num : (8192 : ℝ) ≠ 0), h1, h2,
    ← EReal.coe_mul, ← EReal.coe_mul, ← EReal.coe_neg]
  refine congrArg (fun r : ℝ => (r : EReal)) ?_
  rw [Finset.sum_neg_distrib]; ring

end Spec

end
-- ==== Proof.PreFinite.lean ====
/-
  The precondition read back: every entry of the argument is strictly below +∞ in absolute value, hence a real number.
-/
import proofs.«166013_j38044820308458_2_alg».proof.Pre_finite_inputs
import Idealize.ShloMosaic.Lib.ReduceAll
import Idealize.ShloMosaic.Lib.ValueIdx
import Idealize.ShloMosaic.PureOps.Ideal

noncomputable section

namespace Spec

open Idealize.ShloMosaic

instance : Subsingleton Cert.Pre_finite_inputs.S_.Idx := ⟨fun a b => funext fun d => d.elim0⟩

/-- An extended real whose absolute value is below +∞ is a real number. -/
theorem real_of_abs_lt_top (v : EReal) (h : max v (-v) < ⊤) : ∃ r : ℝ, v = (r : EReal) := by
  induction v using EReal.rec with
  | bot => exact absurd h (by simp)
  | top => exact absurd h (by simp)
  | coe r => exact ⟨r, rfl⟩

/-- Under the printed precondition every entry of the argument is a real number. -/
theorem real_of_pre [Cert.Pre_finite_inputs.Facts] (X : FVec Ideal Cert.Pre_finite_inputs.S8192x768 .f32)
    (h : Cert.Pre_finite_inputs.fn (F := Ideal) X = fun _ => 1#1) (idx : Cert.Pre_finite_inputs.S8192x768.Idx) :
    ∃ r : ℝ, X idx = (r : EReal) := by
  have h0 := congrFun h ValueIdx.ix0
  dsimp only [Cert.Pre_finite_inputs.fn] at h0
  have hel := Host.reduce_andi_all _ _ _ _ _ h0 idx
  have hel' : Ideal.cmp .olt (max (X idx) (-(X idx))) (Ideal.ofBits .f32 0x7F800000#32) = 1#1 := hel
  have htop : Ideal.ofBits .f32 0x7F800000#32 = ⊤ := by simp [Ideal.ofBits, Ideal.ieee]
  rw [htop] at hel'
  have hlt : max (X idx) (-(X idx)) < ⊤ := by
    by_contra hn
    simp [Ideal.cmp, hn] at hel'
  exact real_of_abs_lt_top _ hlt

end Spec

end
-- ==== Proof.lean ====
/- Cosine-similarity contrastive loss over x : f32[8192, 768]: rows are normalised by max(‖x_i‖, ε), the similarity
   matrix s = x̂ x̂ᵀ gets the penalty P subtracted on its diagonal, logits are z = s / T, and the loss is the mean over rows
   of log Σ_j exp z_ij − z_{i, i xor 1}. The kernel never forms the matrix: per block of 2048 rows it sweeps 16 column
   tiles of 512, keeping a running maximum m, a running denominator l (rescaled by exp (m − m') at each tile) and the
   label's logit, and writes m + log l and the label's logit at the last tile; the host then averages their difference.
   The reference forms the whole matrix, takes a shifted log-softmax and gathers the label column. At the ideal instance
   the two agree once the kernel's folded reciprocal 1/T (the word of 20.0) is read as the exact reciprocal of the
   reference's divisor T = f32(0.05) = 13421773/268435456: the online recurrence telescopes to the row's log-sum-exp
   (Proof/LibOnlineSoftmax.lean), the label i − 2 (i mod 2) + 1 is i xor 1 and never the diagonal, and every quantity is a
   real number under the precondition, so the rescaling law exp (a − b) · exp (x − a) = exp (x − b) applies.
   The kernel programs' runs are Proof/KLaunch.lean (ideal instance, with the result named) and Proof/BLaunch.lean (word
   level), the kernel's value Proof/KernelValue.lean, the reference's run and value Proof/RefRun.lean and Proof/RefRead.lean,
   the equality of the two losses on a finite input Proof/Loss.lean. -/
import proofs.«166013_j38044820308458_2_alg».proof.Defs
import proofs.«166013_j38044820308458_2_alg».proof.Proof.Gen.Kernel
import proofs.«166013_j38044820308458_2_alg».proof.Proof.Gen.KernelIdeal
import proofs.«166013_j38044820308458_2_alg».proof.Proof.Gen.ReferenceIdeal
import proofs.«166013_j38044820308458_2_alg».proof.Proof.Gen.Pre_finite_inputs
import proofs.«166013_j38044820308458_2_alg».proof.Proof.KLaunch
import proofs.«166013_j38044820308458_2_alg».proof.Proof.BLaunch
import proofs.«166013_j38044820308458_2_alg».proof.Proof.KernelValue
import proofs.«166013_j38044820308458_2_alg».proof.Proof.RefRun
import proofs.«166013_j38044820308458_2_alg».proof.Proof.RefRead
import proofs.«166013_j38044820308458_2_alg».proof.Proof.Loss
import proofs.«166013_j38044820308458_2_alg».proof.Proof.PreFinite
import Idealize.ShloMosaic.Adequacy
import Idealize.ShloMosaic.Init

noncomputable section

namespace Cert.Proof

open Idealize.ShloMosaic Idealize.SL.Sem Idealize.ShloMosaic.ValueIdx

/-- The word-level kernel program runs and leaves its argument as it found it. -/
theorem frame_Kernel : Cert.frame_Kernel := fun m ρ _ => Cert.Kernel.Hand.frame (F := Bits) m ρ

/-- So does the idealized kernel program. -/
theorem frame_KernelIdeal : Cert.frame_KernelIdeal := fun m ρ _ => Cert.KernelIdeal.Hand.frame (F := Ideal) m ρ

/-- So does the reference: its run with the result dropped. -/
theorem frame_ReferenceIdeal : Cert.frame_ReferenceIdeal := fun m ρ _ =>
  (θ_run (Cert.ReferenceIdeal.defs (F := Ideal)) _ _).mono (fun _ h c => (h c).2) (Cert.ReferenceIdeal.RefRun.run (F := Ideal) m ρ)

/-- Both uses of the folded reciprocal of the temperature (the logits' scale, and the label logit's scale) are the
    table's entry: the word of 20.0 read as 268435456/13421773, the exact reciprocal of the reference's divisor. -/
theorem preserves : Cert.preserves_Kernel_KernelIdeal :=
  ⟨IdealRules.named_const.statement Cert.KernelIdeal.κ "inv_temp" .f32 0x41A00000#32 ((268435456 / 13421773 : ℝ) : EReal) rfl,
   IdealRules.named_const.statement Cert.KernelIdeal.κ "inv_temp" .f32 0x41A00000#32 ((268435456 / 13421773 : ℝ) : EReal) rfl⟩

/-- Under the precondition the argument, as a matrix, is finite. -/
theorem finite_of_pre (m : (ℓ : Loc Cert.KernelIdeal.nD Cert.KernelIdeal.τ Cert.KernelIdeal.sig) → Buf (Elt Ideal) ℓ)
    (hpre : Cert.Pre_KernelIdeal m) (c : Dev Cert.KernelIdeal.nD) : Spec.Finite (Cert.KernelIdeal.KVal.X m c) :=
  fun i k => Spec.real_of_pre _ (hpre c) (ix2 i k)

/-- At the ideal instance both programs end with the same loss: the kernel's result is the specification's kernel
    loss of the argument, the reference's the specification's reference loss, and on a finite argument the two agree. -/
theorem algebraic : Cert.algebraic_KernelIdeal_ReferenceIdeal := by
  intro m ρ m' ρ' hpre hagree
  refine ⟨fun c => fun _ => Spec.kerLoss (Cert.KernelIdeal.KVal.X m c), ?_, ?_⟩
  · exact (θ_run (Cert.KernelIdeal.defs (F := Ideal)) _ _).mono
      (fun r h c => ⟨(h c).1.trans (Cert.KernelIdeal.KVal.kernel_value m c), (h c).2⟩)
      (Cert.KernelIdeal.Hand.run_main (F := Ideal) m ρ)
  · refine (θ_run (Cert.ReferenceIdeal.defs (F := Ideal)) _ _).mono (fun r h c => ⟨?_, (h c).2⟩)
      (Cert.ReferenceIdeal.RefRun.run (F := Ideal) m' ρ')
    rw [(h c).1, Cert.ReferenceIdeal.RefRead.refVal_eq, hagree c]
    funext _
    exact (Spec.kerLoss_eq_refLoss (finite_of_pre m hpre c)).symm

theorem claim : Cert.Claim := ⟨Cert.Kernel.Gen.facts, Cert.KernelIdeal.Gen.facts, Cert.ReferenceIdeal.Gen.facts, Cert.Pre_finite_inputs.Gen.facts,
  frame_Kernel, frame_KernelIdeal, frame_ReferenceIdeal, preserves, algebraic⟩

end Cert.Proof

end
